-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 999#32
  let main_v2 : IVec S16384 32 := broadcastInDim S16384 ![] bcast_S_S16384 main_c_0
  let main_v3 : IVec S16384 1 := cmpi .sle main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000x16384 : Shape := ⟨2, ![1000, 16384]⟩
abbrev S512 : Shape := ⟨1, ![512]⟩
abbrev S40x512 : Shape := ⟨2, ![40, 512]⟩
abbrev S_ : Shape := ⟨0, ![]⟩
abbrev S16 : Shape := ⟨1, ![16]⟩
abbrev S1x16 : Shape := ⟨2, ![1, 16]⟩
abbrev S16384x1000 : Shape := ⟨2, ![16384, 1000]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S1000x16384, .f32⟩
  | .hbm, ⟨2, _⟩ => ⟨S16384x1000, .f32⟩
  | .local .scVector .vmem, ⟨0, _⟩ => ⟨S512, .i32⟩
  | .local .scVector .vmem, ⟨1, _⟩ => ⟨S40x512, .f32⟩
  | .local .scVector .vmem, ⟨2, _⟩ => ⟨S40x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_1 : BitVec 32 := 0#32
  let c40_i32 : BitVec 32 := 40#32
  let v6 : BitVec 32 := Scalar.addi c0_i32_1 c40_i32
  let c1_i32 : BitVec 32 := 1#32
  ⟨c0_i32_1, v6, c1_i32⟩
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v30 : Index := Scalar.indexCast arg9
  let c0 : Index := 0#32
  ![v30.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v32 : Index := Scalar.indexCast arg9
  let c16 : Index := 16#32
  ![v32.toNat, 16]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v34 : Index := Scalar.indexCast arg9
  let c32 : Index := 32#32
  ![v34.toNat, 32]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v36 : Index := Scalar.indexCast arg9
  let c48 : Index := 48#32
  ![v36.toNat, 48]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v38 : Index := Scalar.indexCast arg9
  let c64 : Index := 64#32
  ![v38.toNat, 64]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v40 : Index := Scalar.indexCast arg9
  let c80 : Index := 80#32
  ![v40.toNat, 80]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v42 : Index := Scalar.indexCast arg9
  let c96 : Index := 96#32
  ![v42.toNat, 96]
def k0_off9 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v44 : Index := Scalar.indexCast arg9
  let c112 : Index := 112#32
  ![v44.toNat, 112]
def k0_off10 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v46 : Index := Scalar.indexCast arg9
  let c128 : Index := 128#32
  ![v46.toNat, 128]
def k0_off11 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v48 : Index := Scalar.indexCast arg9
  let c144 : Index := 144#32
  ![v48.toNat, 144]
def k0_off12 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v50 : Index := Scalar.indexCast arg9
  let c160 : Index := 160#32
  ![v50.toNat, 160]
def k0_off13 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v52 : Index := Scalar.indexCast arg9
  let c176 : Index := 176#32
  ![v52.toNat, 176]
def k0_off14 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v54 : Index := Scalar.indexCast arg9
  let c192 : Index := 192#32
  ![v54.toNat, 192]
def k0_off15 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v56 : Index := Scalar.indexCast arg9
  let c208 : Index := 208#32
  ![v56.toNat, 208]
def k0_off16 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v58 : Index := Scalar.indexCast arg9
  let c224 : Index := 224#32
  ![v58.toNat, 224]
def k0_off17 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v60 : Index := Scalar.indexCast arg9
  let c240 : Index := 240#32
  ![v60.toNat, 240]
def k0_off18 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v62 : Index := Scalar.indexCast arg9
  let c256 : Index := 256#32
  ![v62.toNat, 256]
def k0_off19 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v64 : Index := Scalar.indexCast arg9
  let c272 : Index := 272#32
  ![v64.toNat, 272]
def k0_off20 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v66 : Index := Scalar.indexCast arg9
  let c288 : Index := 288#32
  ![v66.toNat, 288]
def k0_off21 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v68 : Index := Scalar.indexCast arg9
  let c304 : Index := 304#32
  ![v68.toNat, 304]
def k0_off22 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v70 : Index := Scalar.indexCast arg9
  let c320 : Index := 320#32
  ![v70.toNat, 320]
def k0_off23 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v72 : Index := Scalar.indexCast arg9
  let c336 : Index := 336#32
  ![v72.toNat, 336]
def k0_off24 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v74 : Index := Scalar.indexCast arg9
  let c352 : Index := 352#32
  ![v74.toNat, 352]
def k0_off25 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v76 : Index := Scalar.indexCast arg9
  let c368 : Index := 368#32
  ![v76.toNat, 368]
def k0_off26 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v78 : Index := Scalar.indexCast arg9
  let c384 : Index := 384#32
  ![v78.toNat, 384]
def k0_off27 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v80 : Index := Scalar.indexCast arg9
  let c400 : Index := 400#32
  ![v80.toNat, 400]
def k0_off28 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v82 : Index := Scalar.indexCast arg9
  let c416 : Index := 416#32
  ![v82.toNat, 416]
def k0_off29 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v84 : Index := Scalar.indexCast arg9
  let c432 : Index := 432#32
  ![v84.toNat, 432]
def k0_off30 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v86 : Index := Scalar.indexCast arg9
  let c448 : Index := 448#32
  ![v86.toNat, 448]
def k0_off31 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v88 : Index := Scalar.indexCast arg9
  let c464 : Index := 464#32
  ![v88.toNat, 464]
def k0_off32 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v90 : Index := Scalar.indexCast arg9
  let c480 : Index := 480#32
  ![v90.toNat, 480]
def k0_off33 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v92 : Index := Scalar.indexCast arg9
  let c496 : Index := 496#32
  ![v92.toNat, 496]
@[reducible] def k0_t2_loop : Scf.Loop 32 :=
  let c0_i32_4 : BitVec 32 := 0#32
  let c32_i32 : BitVec 32 := 32#32
  let v8 : BitVec 32 := Scalar.addi c0_i32_4 c32_i32
  let c1_i32_5 : BitVec 32 := 1#32
  ⟨c0_i32_4, v8, c1_i32_5⟩
def k0_mult1 (k0_t2 : Fin k0_t2_loop.trips) : BitVec 32 :=
  let c0_i32_4 : BitVec 32 := 0#32
  let c1_i32_5 : BitVec 32 := 1#32
  let arg9 : BitVec 32 := Scf.iv c0_i32_4 c1_i32_5 k0_t2
  let c16_i32 : BitVec 32 := 16#32
  let v30 : BitVec 32 := Scalar.muli arg9 c16_i32
  v30
def k0_off34 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32 : BitVec 32 := 16#32
  let v30 : BitVec 32 := Scalar.muli arg9 c16_i32
  let v31 : BitVec 32 := v30
  let v32 : Index := Scalar.indexCast v31
  ![v32.toNat]

def k0_chk1 (v35 : IVec S16 32) (v44 : IVec S16 32) : Prop :=
  (∀ a x, ((![v44, v35] : Fin 2 → IVec S16 32) a x).toNat < S40x512.size a)
instance k0_chk1.dec : ∀ (v35 : IVec S16 32) (v44 : IVec S16 32), Decidable (k0_chk1 v35 v44) := fun v35 v44 => decidable_of_iff' _ (Iff.of_eq (k0_chk1.eq_1 v35 v44))
theorem k0_idx1_inb : ∀ (v35 : IVec S16 32) (v44 : IVec S16 32) (k0_hw1 : k0_chk1 v35 v44), ∀ a x, ((![v44, v35] : Fin 2 → IVec S16 32) a x).toNat < S40x512.size a := fun v35 v44 k0_hw1 => k0_hw1
def k0_off35 (i : grid0.Coords) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t3_loop : Scf.Loop 32 :=
  let c0_i32_10 : BitVec 32 := 0#32
  let c40_i32_11 : BitVec 32 := 40#32
  let v12 : BitVec 32 := Scalar.addi c0_i32_10 c40_i32_11
  let c1_i32_12 : BitVec 32 := 1#32
  ⟨c0_i32_10, v12, c1_i32_12⟩
def k0_off36 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v30 : Index := Scalar.indexCast arg9
  let c0 : Index := 0#32
  ![v30.toNat, 0]
def k0_off37 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v32 : Index := Scalar.indexCast arg9
  let c16 : Index := 16#32
  ![v32.toNat, 16]
def k0_off38 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v34 : Index := Scalar.indexCast arg9
  let c32 : Index := 32#32
  ![v34.toNat, 32]
def k0_off39 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v36 : Index := Scalar.indexCast arg9
  let c48 : Index := 48#32
  ![v36.toNat, 48]
def k0_off40 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v38 : Index := Scalar.indexCast arg9
  let c64 : Index := 64#32
  ![v38.toNat, 64]
def k0_off41 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v40 : Index := Scalar.indexCast arg9
  let c80 : Index := 80#32
  ![v40.toNat, 80]
def k0_off42 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v42 : Index := Scalar.indexCast arg9
  let c96 : Index := 96#32
  ![v42.toNat, 96]
def k0_off43 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v44 : Index := Scalar.indexCast arg9
  let c112 : Index := 112#32
  ![v44.toNat, 112]
def k0_off44 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v46 : Index := Scalar.indexCast arg9
  let c128 : Index := 128#32
  ![v46.toNat, 128]
def k0_off45 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v48 : Index := Scalar.indexCast arg9
  let c144 : Index := 144#32
  ![v48.toNat, 144]
def k0_off46 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v50 : Index := Scalar.indexCast arg9
  let c160 : Index := 160#32
  ![v50.toNat, 160]
def k0_off47 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v52 : Index := Scalar.indexCast arg9
  let c176 : Index := 176#32
  ![v52.toNat, 176]
def k0_off48 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v54 : Index := Scalar.indexCast arg9
  let c192 : Index := 192#32
  ![v54.toNat, 192]
def k0_off49 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v56 : Index := Scalar.indexCast arg9
  let c208 : Index := 208#32
  ![v56.toNat, 208]
def k0_off50 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v58 : Index := Scalar.indexCast arg9
  let c224 : Index := 224#32
  ![v58.toNat, 224]
def k0_off51 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v60 : Index := Scalar.indexCast arg9
  let c240 : Index := 240#32
  ![v60.toNat, 240]
def k0_off52 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v62 : Index := Scalar.indexCast arg9
  let c256 : Index := 256#32
  ![v62.toNat, 256]
def k0_off53 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v64 : Index := Scalar.indexCast arg9
  let c272 : Index := 272#32
  ![v64.toNat, 272]
def k0_off54 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v66 : Index := Scalar.indexCast arg9
  let c288 : Index := 288#32
  ![v66.toNat, 288]
def k0_off55 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v68 : Index := Scalar.indexCast arg9
  let c304 : Index := 304#32
  ![v68.toNat, 304]
def k0_off56 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v70 : Index := Scalar.indexCast arg9
  let c320 : Index := 320#32
  ![v70.toNat, 320]
def k0_off57 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v72 : Index := Scalar.indexCast arg9
  let c336 : Index := 336#32
  ![v72.toNat, 336]
def k0_off58 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v74 : Index := Scalar.indexCast arg9
  let c352 : Index := 352#32
  ![v74.toNat, 352]
def k0_off59 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v76 : Index := Scalar.indexCast arg9
  let c368 : Index := 368#32
  ![v76.toNat, 368]
def k0_off60 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v78 : Index := Scalar.indexCast arg9
  let c384 : Index := 384#32
  ![v78.toNat, 384]
def k0_off61 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v80 : Index := Scalar.indexCast arg9
  let c400 : Index := 400#32
  ![v80.toNat, 400]
def k0_off62 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v82 : Index := Scalar.indexCast arg9
  let c416 : Index := 416#32
  ![v82.toNat, 416]
def k0_off63 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v84 : Index := Scalar.indexCast arg9
  let c432 : Index := 432#32
  ![v84.toNat, 432]
def k0_off64 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v86 : Index := Scalar.indexCast arg9
  let c448 : Index := 448#32
  ![v86.toNat, 448]
def k0_off65 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v88 : Index := Scalar.indexCast arg9
  let c464 : Index := 464#32
  ![v88.toNat, 464]
def k0_off66 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v90 : Index := Scalar.indexCast arg9
  let c480 : Index := 480#32
  ![v90.toNat, 480]
def k0_off67 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let v92 : Index := Scalar.indexCast arg9
  let c496 : Index := 496#32
  ![v92.toNat, 496]
@[reducible] def k0_t4_loop : Scf.Loop 32 :=
  let c0_i32_15 : BitVec 32 := 0#32
  let c32_i32_16 : BitVec 32 := 32#32
  let v14 : BitVec 32 := Scalar.addi c0_i32_15 c32_i32_16
  let c1_i32_17 : BitVec 32 := 1#32
  ⟨c0_i32_15, v14, c1_i32_17⟩
def k0_mult2 (k0_t4 : Fin k0_t4_loop.trips) : BitVec 32 :=
  let c0_i32_15 : BitVec 32 := 0#32
  let c1_i32_17 : BitVec 32 := 1#32
  let arg9 : BitVec 32 := Scf.iv c0_i32_15 c1_i32_17 k0_t4
  let c16_i32 : BitVec 32 := 16#32
  let v30 : BitVec 32 := Scalar.muli arg9 c16_i32
  v30
def k0_off68 (k0_t4 : Fin k0_t4_loop.trips) : Fin 1 → Nat :=
  let c0_i32_15 : BitVec 32 := 0#32
  let c1_i32_17 : BitVec 32 := 1#32
  let arg9 : BitVec 32 := Scf.iv c0_i32_15 c1_i32_17 k0_t4
  let c16_i32 : BitVec 32 := 16#32
  let v30 : BitVec 32 := Scalar.muli arg9 c16_i32
  let v31 : BitVec 32 := v30
  let v32 : Index := Scalar.indexCast v31
  ![v32.toNat]

def k0_chk2 (v35 : IVec S16 32) (v44 : IVec S16 32) : Prop :=
  (∀ a x, ((![v44, v35] : Fin 2 → IVec S16 32) a x).toNat < S40x512.size a)
instance k0_chk2.dec : ∀ (v35 : IVec S16 32) (v44 : IVec S16 32), Decidable (k0_chk2 v35 v44) := fun v35 v44 => decidable_of_iff' _ (Iff.of_eq (k0_chk2.eq_1 v35 v44))
theorem k0_idx2_inb : ∀ (v35 : IVec S16 32) (v44 : IVec S16 32) (k0_hw2 : k0_chk2 v35 v44), ∀ a x, ((![v44, v35] : Fin 2 → IVec S16 32) a x).toNat < S40x512.size a := fun v35 v44 k0_hw2 => k0_hw2
def k0_off69 (i : grid0.Coords) : Fin 2 → Nat :=
  let c40_i32_19 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![40, v2.toNat]
@[reducible] def k0_t5_loop : Scf.Loop 32 :=
  let c0_i32_22 : BitVec 32 := 0#32
  let c11_i32 : BitVec 32 := 11#32
  let v18 : BitVec 32 := Scalar.addi c0_i32_22 c11_i32
  let c1_i32_23 : BitVec 32 := 1#32
  ⟨c0_i32_22, v18, c1_i32_23⟩
def k0_mult3 (k0_t5 : Fin k0_t5_loop.trips) : BitVec 32 :=
  let c2_i32_36 : BitVec 32 := 2#32
  let c0_i32_22 : BitVec 32 := 0#32
  let c1_i32_23 : BitVec 32 := 1#32
  let arg9 : BitVec 32 := Scf.iv c0_i32_22 c1_i32_23 k0_t5
  let v30 : BitVec 32 := Scalar.muli c2_i32_36 arg9
  let c2_i32_37 : BitVec 32 := 2#32
  let v31 : BitVec 32 := Scalar.addi v30 c2_i32_37
  let c0_i32_38 : BitVec 32 := 0#32
  let v32 : BitVec 32 := Scalar.addi v31 c0_i32_38
  let c40_i32_39 : BitVec 32 := 40#32
  let v33 : BitVec 32 := Scalar.muli v32 c40_i32_39
  v33
def k0_off70 (i : grid0.Coords) (k0_t5 : Fin k0_t5_loop.trips) (c0_i32_38 : BitVec 32) : Fin 2 → Nat :=
  let c2_i32_36 : BitVec 32 := 2#32
  let c0_i32_22 : BitVec 32 := 0#32
  let c1_i32_23 : BitVec 32 := 1#32
  let arg9 : BitVec 32 := Scf.iv c0_i32_22 c1_i32_23 k0_t5
  let v30 : BitVec 32 := Scalar.muli c2_i32_36 arg9
  let c2_i32_37 : BitVec 32 := 2#32
  let v31 : BitVec 32 := Scalar.addi v30 c2_i32_37
  let v32 : BitVec 32 := Scalar.addi v31 c0_i32_38
  let c40_i32_39 : BitVec 32 := 40#32
  let v33 : BitVec 32 := Scalar.muli v32 c40_i32_39
  let v34 : BitVec 32 := v33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v34.toNat, v2.toNat]
@[reducible] def k0_t6_loop : Scf.Loop 32 :=
  let c0_i32_43 : BitVec 32 := 0#32
  let c32_i32_44 : BitVec 32 := 32#32
  let v40 : BitVec 32 := Scalar.addi c0_i32_43 c32_i32_44
  let c1_i32_45 : BitVec 32 := 1#32
  ⟨c0_i32_43, v40, c1_i32_45⟩
def k0_mult4 (k0_t6 : Fin k0_t6_loop.trips) : BitVec 32 :=
  let c0_i32_43 : BitVec 32 := 0#32
  let c1_i32_45 : BitVec 32 := 1#32
  let arg11 : BitVec 32 := Scf.iv c0_i32_43 c1_i32_45 k0_t6
  let c16_i32 : BitVec 32 := 16#32
  let v58 : BitVec 32 := Scalar.muli arg11 c16_i32
  v58
def k0_off71 (k0_t6 : Fin k0_t6_loop.trips) : Fin 1 → Nat :=
  let c0_i32_43 : BitVec 32 := 0#32
  let c1_i32_45 : BitVec 32 := 1#32
  let arg11 : BitVec 32 := Scf.iv c0_i32_43 c1_i32_45 k0_t6
  let c16_i32 : BitVec 32 := 16#32
  let v58 : BitVec 32 := Scalar.muli arg11 c16_i32
  let v59 : BitVec 32 := v58
  let v60 : Index := Scalar.indexCast v59
  ![v60.toNat]

def k0_chk3 (v63 : IVec S16 32) (v72 : IVec S16 32) : Prop :=
  (∀ a x, ((![v72, v63] : Fin 2 → IVec S16 32) a x).toNat < S40x512.size a)
instance k0_chk3.dec : ∀ (v63 : IVec S16 32) (v72 : IVec S16 32), Decidable (k0_chk3 v63 v72) := fun v63 v72 => decidable_of_iff' _ (Iff.of_eq (k0_chk3.eq_1 v63 v72))
theorem k0_idx3_inb : ∀ (v63 : IVec S16 32) (v72 : IVec S16 32) (k0_hw3 : k0_chk3 v63 v72), ∀ a x, ((![v72, v63] : Fin 2 → IVec S16 32) a x).toNat < S40x512.size a := fun v63 v72 k0_hw3 => k0_hw3

def k0_chk4 (v63 : IVec S16 32) (v81 : IVec S16 32) : Prop :=
  (∀ a x, ((![v81, v63] : Fin 2 → IVec S16 32) a x).toNat < S40x512.size a)
instance k0_chk4.dec : ∀ (v63 : IVec S16 32) (v81 : IVec S16 32), Decidable (k0_chk4 v63 v81) := fun v63 v81 => decidable_of_iff' _ (Iff.of_eq (k0_chk4.eq_1 v63 v81))
theorem k0_idx4_inb : ∀ (v63 : IVec S16 32) (v81 : IVec S16 32) (k0_hw4 : k0_chk4 v63 v81), ∀ a x, ((![v81, v63] : Fin 2 → IVec S16 32) a x).toNat < S40x512.size a := fun v63 v81 k0_hw4 => k0_hw4
def k0_mult5 (k0_t5 : Fin k0_t5_loop.trips) : BitVec 32 :=
  let c2_i32_47 : BitVec 32 := 2#32
  let c0_i32_22 : BitVec 32 := 0#32
  let c1_i32_23 : BitVec 32 := 1#32
  let arg9 : BitVec 32 := Scf.iv c0_i32_22 c1_i32_23 k0_t5
  let v44 : BitVec 32 := Scalar.muli c2_i32_47 arg9
  let c2_i32_48 : BitVec 32 := 2#32
  let v45 : BitVec 32 := Scalar.addi v44 c2_i32_48
  let c1_i32_49 : BitVec 32 := 1#32
  let v46 : BitVec 32 := Scalar.addi v45 c1_i32_49
  let c40_i32_50 : BitVec 32 := 40#32
  let v47 : BitVec 32 := Scalar.muli v46 c40_i32_50
  v47
@[reducible] def k0_t7_loop : Scf.Loop 32 :=
  let c0_i32_55 : BitVec 32 := 0#32
  let c32_i32_56 : BitVec 32 := 32#32
  let v54 : BitVec 32 := Scalar.addi c0_i32_55 c32_i32_56
  let c1_i32_57 : BitVec 32 := 1#32
  ⟨c0_i32_55, v54, c1_i32_57⟩
def k0_mult6 (k0_t7 : Fin k0_t7_loop.trips) : BitVec 32 :=
  let c0_i32_55 : BitVec 32 := 0#32
  let c1_i32_57 : BitVec 32 := 1#32
  let arg11 : BitVec 32 := Scf.iv c0_i32_55 c1_i32_57 k0_t7
  let c16_i32 : BitVec 32 := 16#32
  let v58 : BitVec 32 := Scalar.muli arg11 c16_i32
  v58
def k0_off72 (k0_t7 : Fin k0_t7_loop.trips) : Fin 1 → Nat :=
  let c0_i32_55 : BitVec 32 := 0#32
  let c1_i32_57 : BitVec 32 := 1#32
  let arg11 : BitVec 32 := Scf.iv c0_i32_55 c1_i32_57 k0_t7
  let c16_i32 : BitVec 32 := 16#32
  let v58 : BitVec 32 := Scalar.muli arg11 c16_i32
  let v59 : BitVec 32 := v58
  let v60 : Index := Scalar.indexCast v59
  ![v60.toNat]

def k0_chk5 (v63 : IVec S16 32) (v72 : IVec S16 32) : Prop :=
  (∀ a x, ((![v72, v63] : Fin 2 → IVec S16 32) a x).toNat < S40x512.size a)
instance k0_chk5.dec : ∀ (v63 : IVec S16 32) (v72 : IVec S16 32), Decidable (k0_chk5 v63 v72) := fun v63 v72 => decidable_of_iff' _ (Iff.of_eq (k0_chk5.eq_1 v63 v72))
theorem k0_idx5_inb : ∀ (v63 : IVec S16 32) (v72 : IVec S16 32) (k0_hw5 : k0_chk5 v63 v72), ∀ a x, ((![v72, v63] : Fin 2 → IVec S16 32) a x).toNat < S40x512.size a := fun v63 v72 k0_hw5 => k0_hw5

def k0_chk6 (v63 : IVec S16 32) (v81 : IVec S16 32) : Prop :=
  (∀ a x, ((![v81, v63] : Fin 2 → IVec S16 32) a x).toNat < S40x512.size a)
instance k0_chk6.dec : ∀ (v63 : IVec S16 32) (v81 : IVec S16 32), Decidable (k0_chk6 v63 v81) := fun v63 v81 => decidable_of_iff' _ (Iff.of_eq (k0_chk6.eq_1 v63 v81))
theorem k0_idx6_inb : ∀ (v63 : IVec S16 32) (v81 : IVec S16 32) (k0_hw6 : k0_chk6 v63 v81), ∀ a x, ((![v81, v63] : Fin 2 → IVec S16 32) a x).toNat < S40x512.size a := fun v63 v81 k0_hw6 => k0_hw6
def k0_off73 (i : grid0.Coords) : Fin 2 → Nat :=
  let c960_i32 : BitVec 32 := 960#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![960, v2.toNat]
@[reducible] def k0_t8_loop : Scf.Loop 32 :=
  let c0_i32_27 : BitVec 32 := 0#32
  let c32_i32_28 : BitVec 32 := 32#32
  let v22 : BitVec 32 := Scalar.addi c0_i32_27 c32_i32_28
  let c1_i32_29 : BitVec 32 := 1#32
  ⟨c0_i32_27, v22, c1_i32_29⟩
def k0_mult7 (k0_t8 : Fin k0_t8_loop.trips) : BitVec 32 :=
  let c0_i32_27 : BitVec 32 := 0#32
  let c1_i32_29 : BitVec 32 := 1#32
  let arg9 : BitVec 32 := Scf.iv c0_i32_27 c1_i32_29 k0_t8
  let c16_i32 : BitVec 32 := 16#32
  let v30 : BitVec 32 := Scalar.muli arg9 c16_i32
  v30
def k0_off74 (k0_t8 : Fin k0_t8_loop.trips) : Fin 1 → Nat :=
  let c0_i32_27 : BitVec 32 := 0#32
  let c1_i32_29 : BitVec 32 := 1#32
  let arg9 : BitVec 32 := Scf.iv c0_i32_27 c1_i32_29 k0_t8
  let c16_i32 : BitVec 32 := 16#32
  let v30 : BitVec 32 := Scalar.muli arg9 c16_i32
  let v31 : BitVec 32 := v30
  let v32 : Index := Scalar.indexCast v31
  ![v32.toNat]

def k0_chk7 (v35 : IVec S16 32) (v44 : IVec S16 32) : Prop :=
  (∀ a x, ((![v44, v35] : Fin 2 → IVec S16 32) a x).toNat < S40x512.size a)
instance k0_chk7.dec : ∀ (v35 : IVec S16 32) (v44 : IVec S16 32), Decidable (k0_chk7 v35 v44) := fun v35 v44 => decidable_of_iff' _ (Iff.of_eq (k0_chk7.eq_1 v35 v44))
theorem k0_idx7_inb : ∀ (v35 : IVec S16 32) (v44 : IVec S16 32) (k0_hw7 : k0_chk7 v35 v44), ∀ a x, ((![v44, v35] : Fin 2 → IVec S16 32) a x).toNat < S40x512.size a := fun v35 v44 k0_hw7 => k0_hw7

def k0_chk8 (v35 : IVec S16 32) (v53 : IVec S16 32) : Prop :=
  (∀ a x, ((![v53, v35] : Fin 2 → IVec S16 32) a x).toNat < S40x512.size a)
instance k0_chk8.dec : ∀ (v35 : IVec S16 32) (v53 : IVec S16 32), Decidable (k0_chk8 v35 v53) := fun v35 v53 => decidable_of_iff' _ (Iff.of_eq (k0_chk8.eq_1 v35 v53))
theorem k0_idx8_inb : ∀ (v35 : IVec S16 32) (v53 : IVec S16 32) (k0_hw8 : k0_chk8 v35 v53), ∀ a x, ((![v53, v35] : Fin 2 → IVec S16 32) a x).toNat < S40x512.size a := fun v35 v53 k0_hw8 => k0_hw8
def k0_off75 (i : grid0.Coords) : Fin 2 → Nat :=
  let c920_i32 : BitVec 32 := 920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![920, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S1x16 : 0 < S1x16.numel
  shapeCasts_S1x16_S16 : S1x16.ShapeCasts S16
  shapeCasts_S16_S1x16 : S16.ShapeCasts S1x16
  h_S16 : 0 < S16.numel
  h_S40x512 : 0 < S40x512.numel
  transposes_S1000x16384_S16384x1000_1_0 : S1000x16384.Transposes [1, 0] S16384x1000
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S1x16.size a ≤ S40x512.size a
  k0_off3_inb : ∀ k0_t1 : Fin k0_t1_loop.trips, ∀ a, (k0_off3 k0_t1) a + S1x16.size a ≤ S40x512.size a
  k0_off4_inb : ∀ k0_t1 : Fin k0_t1_loop.trips, ∀ a, (k0_off4 k0_t1) a + S1x16.size a ≤ S40x512.size a
  k0_off5_inb : ∀ k0_t1 : Fin k0_t1_loop.trips, ∀ a, (k0_off5 k0_t1) a + S1x16.size a ≤ S40x512.size a
  k0_off6_inb : ∀ k0_t1 : Fin k0_t1_loop.trips, ∀ a, (k0_off6 k0_t1) a + S1x16.size a ≤ S40x512.size a
  k0_off7_inb : ∀ k0_t1 : Fin k0_t1_loop.trips, ∀ a, (k0_off7 k0_t1) a + S1x16.size a ≤ S40x512.size a
  k0_off8_inb : ∀ k0_t1 : Fin k0_t1_loop.trips, ∀ a, (k0_off8 k0_t1) a + S1x16.size a ≤ S40x512.size a
  k0_off9_inb : ∀ k0_t1 : Fin k0_t1_loop.trips, ∀ a, (k0_off9 k0_t1) a + S1x16.size a ≤ S40x512.size a
  k0_off10_inb : ∀ k0_t1 : Fin k0_t1_loop.trips, ∀ a, (k0_off10 k0_t1) a + S1x16.size a ≤ S40x512.size a
  k0_off11_inb : ∀ k0_t1 : Fin k0_t1_loop.trips, ∀ a, (k0_off11 k0_t1) a + S1x16.size a ≤ S40x512.size a
  k0_off12_inb : ∀ k0_t1 : Fin k0_t1_loop.trips, ∀ a, (k0_off12 k0_t1) a + S1x16.size a ≤ S40x512.size a
  k0_off13_inb : ∀ k0_t1 : Fin k0_t1_loop.trips, ∀ a, (k0_off13 k0_t1) a + S1x16.size a ≤ S40x512.size a
  k0_off14_inb : ∀ k0_t1 : Fin k0_t1_loop.trips, ∀ a, (k0_off14 k0_t1) a + S1x16.size a ≤ S40x512.size a
  k0_off15_inb : ∀ k0_t1 : Fin k0_t1_loop.trips, ∀ a, (k0_off15 k0_t1) a + S1x16.size a ≤ S40x512.size a
  k0_off16_inb : ∀ k0_t1 : Fin k0_t1_loop.trips, ∀ a, (k0_off16 k0_t1) a + S1x16.size a ≤ S40x512.size a
  k0_off17_inb : ∀ k0_t1 : Fin k0_t1_loop.trips, ∀ a, (k0_off17 k0_t1) a + S1x16.size a ≤ S40x512.size a
  k0_off18_inb : ∀ k0_t1 : Fin k0_t1_loop.trips, ∀ a, (k0_off18 k0_t1) a + S1x16.size a ≤ S40x512.size a
  k0_off19_inb : ∀ k0_t1 : Fin k0_t1_loop.trips, ∀ a, (k0_off19 k0_t1) a + S1x16.size a ≤ S40x512.size a
  k0_off20_inb : ∀ k0_t1 : Fin k0_t1_loop.trips, ∀ a, (k0_off20 k0_t1) a + S1x16.size a ≤ S40x512.size a
  k0_off21_inb : ∀ k0_t1 : Fin k0_t1_loop.trips, ∀ a, (k0_off21 k0_t1) a + S1x16.size a ≤ S40x512.size a
  k0_off22_inb : ∀ k0_t1 : Fin k0_t1_loop.trips, ∀ a, (k0_off22 k0_t1) a + S1x16.size a ≤ S40x512.size a
  k0_off23_inb : ∀ k0_t1 : Fin k0_t1_loop.trips, ∀ a, (k0_off23 k0_t1) a + S1x16.size a ≤ S40x512.size a
  k0_off24_inb : ∀ k0_t1 : Fin k0_t1_loop.trips, ∀ a, (k0_off24 k0_t1) a + S1x16.size a ≤ S40x512.size a
  k0_off25_inb : ∀ k0_t1 : Fin k0_t1_loop.trips, ∀ a, (k0_off25 k0_t1) a + S1x16.size a ≤ S40x512.size a
  k0_off26_inb : ∀ k0_t1 : Fin k0_t1_loop.trips, ∀ a, (k0_off26 k0_t1) a + S1x16.size a ≤ S40x512.size a
  k0_off27_inb : ∀ k0_t1 : Fin k0_t1_loop.trips, ∀ a, (k0_off27 k0_t1) a + S1x16.size a ≤ S40x512.size a
  k0_off28_inb : ∀ k0_t1 : Fin k0_t1_loop.trips, ∀ a, (k0_off28 k0_t1) a + S1x16.size a ≤ S40x512.size a
  k0_off29_inb : ∀ k0_t1 : Fin k0_t1_loop.trips, ∀ a, (k0_off29 k0_t1) a + S1x16.size a ≤ S40x512.size a
  k0_off30_inb : ∀ k0_t1 : Fin k0_t1_loop.trips, ∀ a, (k0_off30 k0_t1) a + S1x16.size a ≤ S40x512.size a
  k0_off31_inb : ∀ k0_t1 : Fin k0_t1_loop.trips, ∀ a, (k0_off31 k0_t1) a + S1x16.size a ≤ S40x512.size a
  k0_off32_inb : ∀ k0_t1 : Fin k0_t1_loop.trips, ∀ a, (k0_off32 k0_t1) a + S1x16.size a ≤ S40x512.size a
  k0_off33_inb : ∀ k0_t1 : Fin k0_t1_loop.trips, ∀ a, (k0_off33 k0_t1) a + S1x16.size a ≤ S40x512.size a
  k0_t2_ok : k0_t2_loop.OK
  k0_mult1_dvd : ∀ k0_t2 : Fin k0_t2_loop.trips, 16 ∣ (k0_mult1 k0_t2).toNat
  k0_off34_inb : ∀ k0_t2 : Fin k0_t2_loop.trips, ∀ a, (k0_off34 k0_t2) a + S16.size a ≤ S512.size a
  k0_off35_inb : ∀ i : grid0.Coords, ∀ a, (k0_off35 i) a + S40x512.size a ≤ S1000x16384.size a
  k0_t3_ok : k0_t3_loop.OK
  k0_off36_inb : ∀ k0_t3 : Fin k0_t3_loop.trips, ∀ a, (k0_off36 k0_t3) a + S1x16.size a ≤ S40x512.size a
  k0_off37_inb : ∀ k0_t3 : Fin k0_t3_loop.trips, ∀ a, (k0_off37 k0_t3) a + S1x16.size a ≤ S40x512.size a
  k0_off38_inb : ∀ k0_t3 : Fin k0_t3_loop.trips, ∀ a, (k0_off38 k0_t3) a + S1x16.size a ≤ S40x512.size a
  k0_off39_inb : ∀ k0_t3 : Fin k0_t3_loop.trips, ∀ a, (k0_off39 k0_t3) a + S1x16.size a ≤ S40x512.size a
  k0_off40_inb : ∀ k0_t3 : Fin k0_t3_loop.trips, ∀ a, (k0_off40 k0_t3) a + S1x16.size a ≤ S40x512.size a
  k0_off41_inb : ∀ k0_t3 : Fin k0_t3_loop.trips, ∀ a, (k0_off41 k0_t3) a + S1x16.size a ≤ S40x512.size a
  k0_off42_inb : ∀ k0_t3 : Fin k0_t3_loop.trips, ∀ a, (k0_off42 k0_t3) a + S1x16.size a ≤ S40x512.size a
  k0_off43_inb : ∀ k0_t3 : Fin k0_t3_loop.trips, ∀ a, (k0_off43 k0_t3) a + S1x16.size a ≤ S40x512.size a
  k0_off44_inb : ∀ k0_t3 : Fin k0_t3_loop.trips, ∀ a, (k0_off44 k0_t3) a + S1x16.size a ≤ S40x512.size a
  k0_off45_inb : ∀ k0_t3 : Fin k0_t3_loop.trips, ∀ a, (k0_off45 k0_t3) a + S1x16.size a ≤ S40x512.size a
  k0_off46_inb : ∀ k0_t3 : Fin k0_t3_loop.trips, ∀ a, (k0_off46 k0_t3) a + S1x16.size a ≤ S40x512.size a
  k0_off47_inb : ∀ k0_t3 : Fin k0_t3_loop.trips, ∀ a, (k0_off47 k0_t3) a + S1x16.size a ≤ S40x512.size a
  k0_off48_inb : ∀ k0_t3 : Fin k0_t3_loop.trips, ∀ a, (k0_off48 k0_t3) a + S1x16.size a ≤ S40x512.size a
  k0_off49_inb : ∀ k0_t3 : Fin k0_t3_loop.trips, ∀ a, (k0_off49 k0_t3) a + S1x16.size a ≤ S40x512.size a
  k0_off50_inb : ∀ k0_t3 : Fin k0_t3_loop.trips, ∀ a, (k0_off50 k0_t3) a + S1x16.size a ≤ S40x512.size a
  k0_off51_inb : ∀ k0_t3 : Fin k0_t3_loop.trips, ∀ a, (k0_off51 k0_t3) a + S1x16.size a ≤ S40x512.size a
  k0_off52_inb : ∀ k0_t3 : Fin k0_t3_loop.trips, ∀ a, (k0_off52 k0_t3) a + S1x16.size a ≤ S40x512.size a
  k0_off53_inb : ∀ k0_t3 : Fin k0_t3_loop.trips, ∀ a, (k0_off53 k0_t3) a + S1x16.size a ≤ S40x512.size a
  k0_off54_inb : ∀ k0_t3 : Fin k0_t3_loop.trips, ∀ a, (k0_off54 k0_t3) a + S1x16.size a ≤ S40x512.size a
  k0_off55_inb : ∀ k0_t3 : Fin k0_t3_loop.trips, ∀ a, (k0_off55 k0_t3) a + S1x16.size a ≤ S40x512.size a
  k0_off56_inb : ∀ k0_t3 : Fin k0_t3_loop.trips, ∀ a, (k0_off56 k0_t3) a + S1x16.size a ≤ S40x512.size a
  k0_off57_inb : ∀ k0_t3 : Fin k0_t3_loop.trips, ∀ a, (k0_off57 k0_t3) a + S1x16.size a ≤ S40x512.size a
  k0_off58_inb : ∀ k0_t3 : Fin k0_t3_loop.trips, ∀ a, (k0_off58 k0_t3) a + S1x16.size a ≤ S40x512.size a
  k0_off59_inb : ∀ k0_t3 : Fin k0_t3_loop.trips, ∀ a, (k0_off59 k0_t3) a + S1x16.size a ≤ S40x512.size a
  k0_off60_inb : ∀ k0_t3 : Fin k0_t3_loop.trips, ∀ a, (k0_off60 k0_t3) a + S1x16.size a ≤ S40x512.size a
  k0_off61_inb : ∀ k0_t3 : Fin k0_t3_loop.trips, ∀ a, (k0_off61 k0_t3) a + S1x16.size a ≤ S40x512.size a
  k0_off62_inb : ∀ k0_t3 : Fin k0_t3_loop.trips, ∀ a, (k0_off62 k0_t3) a + S1x16.size a ≤ S40x512.size a
  k0_off63_inb : ∀ k0_t3 : Fin k0_t3_loop.trips, ∀ a, (k0_off63 k0_t3) a + S1x16.size a ≤ S40x512.size a
  k0_off64_inb : ∀ k0_t3 : Fin k0_t3_loop.trips, ∀ a, (k0_off64 k0_t3) a + S1x16.size a ≤ S40x512.size a
  k0_off65_inb : ∀ k0_t3 : Fin k0_t3_loop.trips, ∀ a, (k0_off65 k0_t3) a + S1x16.size a ≤ S40x512.size a
  k0_off66_inb : ∀ k0_t3 : Fin k0_t3_loop.trips, ∀ a, (k0_off66 k0_t3) a + S1x16.size a ≤ S40x512.size a
  k0_off67_inb : ∀ k0_t3 : Fin k0_t3_loop.trips, ∀ a, (k0_off67 k0_t3) a + S1x16.size a ≤ S40x512.size a
  k0_t4_ok : k0_t4_loop.OK
  k0_mult2_dvd : ∀ k0_t4 : Fin k0_t4_loop.trips, 16 ∣ (k0_mult2 k0_t4).toNat
  k0_off68_inb : ∀ k0_t4 : Fin k0_t4_loop.trips, ∀ a, (k0_off68 k0_t4) a + S16.size a ≤ S512.size a
  k0_off69_inb : ∀ i : grid0.Coords, ∀ a, (k0_off69 i) a + S40x512.size a ≤ S1000x16384.size a
  k0_t5_ok : k0_t5_loop.OK
  k0_mult3_dvd : ∀ k0_t5 : Fin k0_t5_loop.trips, 8 ∣ (k0_mult3 k0_t5).toNat
  k0_off70_inb : ∀ (i : grid0.Coords) (k0_t5 : Fin k0_t5_loop.trips), ∀ (r : Fin 2), ∀ a, (k0_off70 i k0_t5 (BitVec.ofNat 32 r.val)) a + S40x512.size a ≤ S1000x16384.size a
  k0_t6_ok : k0_t6_loop.OK
  k0_mult4_dvd : ∀ k0_t6 : Fin k0_t6_loop.trips, 16 ∣ (k0_mult4 k0_t6).toNat
  k0_off71_inb : ∀ k0_t6 : Fin k0_t6_loop.trips, ∀ a, (k0_off71 k0_t6) a + S16.size a ≤ S512.size a
  k0_mult5_dvd : ∀ k0_t5 : Fin k0_t5_loop.trips, 8 ∣ (k0_mult5 k0_t5).toNat
  k0_t7_ok : k0_t7_loop.OK
  k0_mult6_dvd : ∀ k0_t7 : Fin k0_t7_loop.trips, 16 ∣ (k0_mult6 k0_t7).toNat
  k0_off72_inb : ∀ k0_t7 : Fin k0_t7_loop.trips, ∀ a, (k0_off72 k0_t7) a + S16.size a ≤ S512.size a
  k0_off73_inb : ∀ i : grid0.Coords, ∀ a, (k0_off73 i) a + S40x512.size a ≤ S1000x16384.size a
  k0_t8_ok : k0_t8_loop.OK
  k0_mult7_dvd : ∀ k0_t8 : Fin k0_t8_loop.trips, 16 ∣ (k0_mult7 k0_t8).toNat
  k0_off74_inb : ∀ k0_t8 : Fin k0_t8_loop.trips, ∀ a, (k0_off74 k0_t8) a + S16.size a ≤ S512.size a
  k0_off75_inb : ∀ i : grid0.Coords, ∀ a, (k0_off75 i) a + S40x512.size a ≤ S1000x16384.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S16384x1 : Shape := ⟨2, ![16384, 1]⟩
abbrev S1x1000 : Shape := ⟨2, ![1, 1000]⟩
abbrev S16384x1000 : Shape := ⟨2, ![16384, 1000]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x1000, .i32⟩
  | .hbm, ⟨3, _⟩ => ⟨S16384x1000, .i32⟩
  | .hbm, ⟨4, _⟩ => ⟨S16384x1000, .i32⟩
  | .hbm, ⟨5, _⟩ => ⟨S16384x1000, .i1⟩
  | .hbm, ⟨6, _⟩ => ⟨S16384x1000, .f32⟩
  | .hbm, ⟨7, _⟩ => ⟨S_, .f32⟩
  | .hbm, ⟨8, _⟩ => ⟨S16384x1000, .f32⟩
  | .hbm, ⟨9, _⟩ => ⟨S16384x1000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)

variable [Facts₀]

class Facts : Prop extends Facts₀ where

variable [Facts]
-- ==== Proof.Common.lean ====
/-
  The one-hot kernel on the SparseCores, as the launch theorem sees it: the program's configuration, the ghost
  state (the handshakes' rounds beside a copy of the counters: every transfer of a tile is local, one in flight per
  semaphore), the arrays' locations and the memrefs a tile's body is called with.

  The kernel: 32 tiles (2 SparseCores × 16 vector subcores); tile (c, s) is worker w = 2 s + c and owns the 512
  columns [512 w, 512 w + 512) of the transposed one-hot array out : f32[1000, 16384]. It copies its 512 class
  indices into tile memory, and for each of the 25 chunks of 40 classes builds the 40 × 512 block
  B_k[r, j] = (idx[j] = 40 k + r ? 1 : 0) in one of two buffers (chunk k in buffer k mod 2) and copies it to
  out[40 k .. 40 k + 40, 512 w .. 512 w + 512). @main then transposes out.
-/
import proofs.«200183_g76879914599096_cont_sun_c4_587_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200183_g76879914599096_cont_sun_c4_587_30_alg».proof.Proof.Gen.KernelIdeal
import proofs.«200183_g76879914599096_cont_sun_c4_587_30_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the memrefs -/

/-- The class indices `c`, the transposed one-hot array `out`, the result, as locations of device `d`. -/
abbrev cLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

abbrev cV : Memref sig .scVector .hbm S16384 .i32 := Memref.whole main_arg0_scv
abbrev oV : Memref sig .scVector .hbm S1000x16384 .f32 := Memref.whole main_v0_scv
/-- A tile's scratch: its 512 class indices, and the two chunk buffers. -/
abbrev sI : Memref sig .scVector .vmem S512 .i32 := Memref.whole cc0_scratch0
abbrev b0 : Memref sig .scVector .vmem S40x512 .f32 := Memref.whole cc0_scratch1
abbrev b1 : Memref sig .scVector .vmem S40x512 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

abbrev cV' (L : grid0.Coords) : Fin τ.nSC := (L 0).castLE hcore0
abbrev jV' (L : grid0.Coords) : Fin τ.nSub := (L 1).castLE hsub0

end Cert.Proof.KI

end
-- ==== Proof.Spec.lean ====
/-
  What the kernel computes, as one function of the class indices: the transposed one-hot array. Entry (r, col) is
  one where class word `col` of `c` is the number `r`, zero elsewhere; the program's result is its transpose.
-/
import Idealize.ShloMosaic.PureOps
import Idealize.ShloMosaic.Lib.ValueIdx

noncomputable section

namespace Cert.Spec

open Idealize.ShloMosaic

/-- The class indices, the transposed one-hot array, the result. -/
abbrev SC : Shape := ⟨1, ![16384]⟩
abbrev SO : Shape := ⟨2, ![1000, 16384]⟩
abbrev SR : Shape := ⟨2, ![16384, 1000]⟩

variable {F : FTy → Type} [FloatOps F]

/-- Zero and one, as the kernel's float constants. -/
abbrev zF : F .f32 := Scalar.ofBits .f32 0x00000000#32
abbrev oF : F .f32 := Scalar.ofBits .f32 0x3F800000#32

/-- Column `col` of the transposed array's index, as an index of `c`. -/
def colIdx (j : SO.Idx) : SC.Idx := ValueIdx.ix1 (n := 16384) (j 1)

/-- The transposed one-hot array of the class words `x`: entry (r, col) is one exactly when word `col` is the number `r`. -/
def oneHotT (x : SC.Idx → BitVec 32) : SO.Idx → F .f32 :=
  fun j => if x (colIdx j) = BitVec.ofNat 32 (j 0).val then (oF : F .f32) else (zF : F .f32)

end Cert.Spec

end
-- ==== Proof.Pay.lean ====
/-
  What the launch hands each tile and takes back. Tile (c, s) is worker w = 2 s + c: it is handed its 512 words of
  the class indices `c` (to read) and its band of 512 columns of the transposed array `out` (to fill), and hands
  back the words unchanged and the band holding the transposed one-hot array of `c`.
-/
import proofs.«200183_g76879914599096_cont_sun_c4_587_30_alg».proof.Proof.Common
import proofs.«200183_g76879914599096_cont_sun_c4_587_30_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The first column of the tile's band: 512 · (2 s + c). -/
def colOff (L : grid0.Coords) : Nat := 1024 * (L 1).val + 512 * (L 0).val

theorem colOff_le (L : grid0.Coords) : colOff L + 512 ≤ 16384 := by
  have h0 : (L 0).val < 2 := (L 0).isLt
  have h1 : (L 1).val < 16 := (L 1).isLt
  unfold colOff; omega

/-- The tile's 512 words of `c`. -/
def cRect (L : grid0.Coords) : Rect S16384 :=
  Rect.unit (s := S16384) ![colOff L] ![512] (fun a => by
    have := colOff_le L
    match a with
    | 0 => show colOff L + 512 ≤ 16384; omega)
def cSet (L : grid0.Coords) : Finset S16384.Idx := (cRect L).set

/-- The tile's band of `out`: all 1000 rows of its 512 columns. -/
def oRect (L : grid0.Coords) : Rect S1000x16384 :=
  Rect.unit (s := S1000x16384) ![0, colOff L] ![1000, 512] (fun a => by
    have := colOff_le L
    match a with
    | 0 => show 0 + 1000 ≤ 1000; omega
    | 1 => show colOff L + 512 ≤ 16384; omega)
def oBand (L : grid0.Coords) : Finset S1000x16384.Idx := (oRect L).set

/-- The grid point of SparseCore `c`, vector subcore `i` of call 0. -/
def tileAt (c : Fin ((K (F := F)).nCore 0)) (i : Fin ((K (F := F)).nSub 0)) : grid0.Coords :=
  coordsV (Fin.cast nCore_zero c) (Fin.cast nSub_zero i)

variable [FloatOps F]

/-- What a tile is handed: its words of `c`, its band of `out` at whatever it holds. -/
def goA (d : Dev nD) (L : grid0.Coords) : sProp 𝕄 :=
  iprop((cLoc d ↦[cSet L]{fullShare} m (cLoc d)) ∗ ∃ fo, oLoc d ↦[oBand L]{fullShare} fo)

/-- What it hands back: the words, and the band at the transposed one-hot array of `c`. -/
def tdA (d : Dev nD) (L : grid0.Coords) : sProp 𝕄 :=
  iprop((cLoc d ↦[cSet L]{fullShare} m (cLoc d)) ∗ oLoc d ↦[oBand L]{fullShare} (Cert.Spec.oneHotT (F := F) (m (cLoc d))))

/-- The call's payloads: a SparseCore is handed its sixteen tiles' parts and hands their results back. -/
def P : (K (F := F)).Pay (nD := nD) (Val := Elt F) (Name := ℕ) (U := UU) where
  st := fun q d c => match q with | 0 => bigSep Finset.univ fun i : Fin ((K (F := F)).nSub 0) => goA m d (tileAt c i)
  dn := fun q d c => match q with | 0 => bigSep Finset.univ fun i : Fin ((K (F := F)).nSub 0) => tdA m d (tileAt c i)
  go := fun q d c i => match q with | 0 => goA m d (tileAt c i)
  td := fun q d c i => match q with | 0 => tdA m d (tileAt c i)
  x := fun _ _ => iprop(emp)

instance goA_storable (d : Dev nD) (L : grid0.Coords) : BI.Storable (upEmb : UEmb _ 𝕄) (goA m d L) := by
  unfold goA; infer_instance
instance tdA_storable (d : Dev nD) (L : grid0.Coords) : BI.Storable (upEmb : UEmb _ 𝕄) (tdA m d L) := by
  unfold tdA; infer_instance

instance P_storable : (P (F := F) m).IsStorable where
  st q d c := match q with
    | 0 => (inferInstance : BI.Storable (upEmb : UEmb _ 𝕄) (bigSep Finset.univ fun i : Fin ((K (F := F)).nSub 0) => goA m d (tileAt c i)))
  dn q d c := match q with
    | 0 => (inferInstance : BI.Storable (upEmb : UEmb _ 𝕄) (bigSep Finset.univ fun i : Fin ((K (F := F)).nSub 0) => tdA m d (tileAt c i)))
  go q d c i := match q with
    | 0 => (inferInstance : BI.Storable (upEmb : UEmb _ 𝕄) (goA m d (tileAt c i)))
  td q d c i := match q with
    | 0 => (inferInstance : BI.Storable (upEmb : UEmb _ 𝕄) (tdA m d (tileAt c i)))

end Cert.Proof.KI

end
-- ==== Proof.Iface.lean ====
/-
  The kernel's run, stated with the strongest post used anywhere: the arguments unchanged and the result named as the
  transpose of the transposed one-hot array of the class indices.
-/
import proofs.«200183_g76879914599096_cont_sun_c4_587_30_alg».proof.Defs
import proofs.«200183_g76879914599096_cont_sun_c4_587_30_alg».proof.Proof.Gen.KernelIdeal
import proofs.«200183_g76879914599096_cont_sun_c4_587_30_alg».proof.Proof.Gen.Kernel
import proofs.«200183_g76879914599096_cont_sun_c4_587_30_alg».proof.Proof.Spec

noncomputable section

namespace Cert.Proof

open Idealize.ShloMosaic Idealize.SL.Sem

/-- What the idealized kernel's result holds, from the class indices `x`: the one-hot array. -/
def resultOf {F : FTy → Type} [FloatOps F] (x : Cert.Spec.SC.Idx → BitVec 32) : Cert.Spec.SR.Idx → F .f32 :=
  transpose Cert.KernelIdeal.S16384x1000 [1, 0] (Cert.Spec.oneHotT (F := F) x) Cert.KernelIdeal.Gen.transposes_S1000x16384_S16384x1000_1_0

/-- The idealized kernel's run: every weakly fair execution ends, the result at `resultOf` of the class indices, these unchanged. -/
def KIRun : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v1)
          = resultOf (F := Ideal) (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

end Cert.Proof

end
-- ==== Proof.Launch.lean ====
/-
  The launch: from "every tile's task is proved" to the run of the whole program.

  The 32 tiles' word sets of the class indices are pairwise disjoint and cover the array: tile (c, i) holds the 512
  words from 1024 i + 512 c, and every word j lies in the set of the tile with i = j / 1024, c = (j / 512) mod 2; the
  same for the bands of 512 columns of the transposed one-hot array. So the whole arrays split into the tiles' parts
  before the call and the parts join again after it, the bands all at one contents (the transposed one-hot array of
  the class indices). @main then transposes that array into the result; the final memory reads the result and the
  unchanged class indices off the two whole arrays.
-/
import proofs.«200183_g76879914599096_cont_sun_c4_587_30_alg».proof.Proof.Pay
import proofs.«200183_g76879914599096_cont_sun_c4_587_30_alg».proof.Proof.Iface
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' parts are a partition -/

/-- The tiles of call 0: SparseCore and vector subcore. -/
abbrev TI (F : FTy → Type) : Type := Fin ((K (F := F)).nCore 0) × Fin ((K (F := F)).nSub 0)

theorem colOff_tileAt (c : Fin ((K (F := F)).nCore 0)) (i : Fin ((K (F := F)).nSub 0)) :
    colOff (tileAt (F := F) c i) = 1024 * i.val + 512 * c.val := rfl

/-- The words and the band of tile `p`. -/
def cPart (p : TI F) : Finset S16384.Idx := cSet (tileAt (F := F) p.1 p.2)
def oPart (p : TI F) : Finset S1000x16384.Idx := oBand (tileAt (F := F) p.1 p.2)

/-- Two different tiles' first columns are at least 512 apart. -/
theorem colOff_sep {p p' : TI F} (h : p ≠ p') :
    colOff (tileAt (F := F) p.1 p.2) + 512 ≤ colOff (tileAt (F := F) p'.1 p'.2)
      ∨ colOff (tileAt (F := F) p'.1 p'.2) + 512 ≤ colOff (tileAt (F := F) p.1 p.2) := by
  have h1 : p.1.val < 2 := p.1.isLt
  have h2 : p'.1.val < 2 := p'.1.isLt
  have hne : ¬ (p.1.val = p'.1.val ∧ p.2.val = p'.2.val) := fun ⟨e1, e2⟩ => h (Prod.ext (Fin.ext e1) (Fin.ext e2))
  rw [colOff_tileAt, colOff_tileAt]
  omega

theorem cParts_disjoint : ∀ p ∈ (Finset.univ : Finset (TI F)), ∀ p' ∈ (Finset.univ : Finset (TI F)), p ≠ p' → Disjoint (cPart p) (cPart p') :=
  fun p _ p' _ h => Rect.unit_disjoint (s := S16384) (0 : Fin 1) (colOff_sep h)

theorem oParts_disjoint : ∀ p ∈ (Finset.univ : Finset (TI F)), ∀ p' ∈ (Finset.univ : Finset (TI F)), p ≠ p' → Disjoint (oPart p) (oPart p') :=
  fun p _ p' _ h => Rect.unit_disjoint (s := S1000x16384) (1 : Fin 2) (colOff_sep h)

/-- The tile whose parts hold column `j`. -/
def tileOf (j : Nat) (hj : j < 16384) : TI F :=
  (⟨j / 512 % 2, Nat.mod_lt _ (by decide)⟩, ⟨j / 1024, (Nat.div_lt_iff_lt_mul (by decide)).mpr hj⟩)

theorem colOff_tileOf (j : Nat) (hj : j < 16384) :
    colOff (tileAt (F := F) (tileOf (F := F) j hj).1 (tileOf (F := F) j hj).2) ≤ j
      ∧ j < colOff (tileAt (F := F) (tileOf (F := F) j hj).1 (tileOf (F := F) j hj).2) + 512 := by
  rw [colOff_tileAt]
  show 1024 * (j / 1024) + 512 * (j / 512 % 2) ≤ j ∧ j < 1024 * (j / 1024) + 512 * (j / 512 % 2) + 512
  omega

theorem cParts_cover : (Finset.univ : Finset (TI F)).biUnion cPart = Finset.univ := by
  ext j
  simp only [Finset.mem_biUnion, Finset.mem_univ, true_and, iff_true]
  have hj : (j 0).val < 16384 := (j 0).isLt
  refine ⟨tileOf (F := F) (j 0).val hj, Rect.mem_set_unit.mpr fun a => ?_⟩
  match a with
  | 0 => exact colOff_tileOf (F := F) (j 0).val hj

theorem oParts_cover : (Finset.univ : Finset (TI F)).biUnion oPart = Finset.univ := by
  ext j
  simp only [Finset.mem_biUnion, Finset.mem_univ, true_and, iff_true]
  have hj : (j 1).val < 16384 := (j 1).isLt
  have hr : (j 0).val < 1000 := (j 0).isLt
  refine ⟨tileOf (F := F) (j 1).val hj, Rect.mem_set_unit.mpr fun a => ?_⟩
  match a with
  | 0 => exact ⟨Nat.zero_le _, by show (j 0).val < 0 + 1000; omega⟩
  | 1 => exact colOff_tileOf (F := F) (j 1).val hj

/-- A whole array of class indices is its 32 tiles' words; a whole transposed array its 32 bands. -/
theorem cPts_tiles (d : Dev nD) (f : Buf (Elt F) (cLoc d)) :
    (cLoc d ↦{fullShare} f : sProp 𝕄)
      = bigSep Finset.univ fun c : Fin ((K (F := F)).nCore 0) => bigSep Finset.univ fun i : Fin ((K (F := F)).nSub 0) =>
          cLoc d ↦[cSet (tileAt c i)]{fullShare} f := by
  refine Eq.trans ?_ (bigSep_univ_prod (fun p : TI F => (cLoc d ↦[cPart p]{fullShare} f : sProp 𝕄)))
  rw [← pointsTo_biUnion Finset.univ (ℓ := cLoc d) cPart cParts_disjoint, cParts_cover]; try rfl

theorem oPts_tiles (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[oBand (tileAt c i)]{fullShare} f := by
  refine Eq.trans ?_ (bigSep_univ_prod (fun p : TI F => (oLoc d ↦[oPart p]{fullShare} f : sProp 𝕄)))
  rw [← pointsTo_biUnion Finset.univ (ℓ := oLoc d) oPart oParts_disjoint, oParts_cover]; try rfl

variable (m : (ℓ : Loc nD τ sig) → Buf (Elt F) ℓ) (ρ : Dev nD → PrngReg)

variable [FloatOps F]

/-! ## The payloads, as equations -/

theorem P_st (d : Dev nD) (c : Fin ((K (F := F)).nCore 0)) :
    (P m).st 0 d c = bigSep Finset.univ fun i : Fin ((K (F := F)).nSub 0) => goA m d (tileAt c i) := rfl
theorem P_dn (d : Dev nD) (c : Fin ((K (F := F)).nCore 0)) :
    (P m).dn 0 d c = bigSep Finset.univ fun i : Fin ((K (F := F)).nSub 0) => tdA m d (tileAt c i) := rfl
theorem P_go (d : Dev nD) (c : Fin ((K (F := F)).nCore 0)) (i : Fin ((K (F := F)).nSub 0)) :
    (P m).go 0 d c i = goA m d (tileAt c i) := rfl
theorem P_td (d : Dev nD) (c : Fin ((K (F := F)).nCore 0)) (i : Fin ((K (F := F)).nSub 0)) :
    (P m).td 0 d c i = tdA m d (tileAt c i) := rfl

/-- A SparseCore's operands are its tiles' already; so are its results. -/
theorem vecSplit : (K (F := F)).VecSplit' (P m) 0 := by
  intro d c
  simp only [P_st, P_dn, P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev c' : DevRef τ sig := Proc.devRef .tc (main_arg0 : Ref sig .tc)
abbrev o' : DevRef τ sig := Proc.devRef .tc (main_v0 : Ref sig .tc)
abbrev r' : DevRef τ sig := Proc.devRef .tc (main_v1 : Ref sig .tc)

/-- The transposition after the call. -/
abbrev opT : HloOp τ sig (Elt F) :=
  StableHlo.unary main_v0 main_v1 ((transpose S16384x1000 [1, 0] · transposes_S1000x16384_S16384x1000_1_0) : (⟨S1000x16384, .f32⟩ : BufTy).Contents (Elt F) → (⟨S16384x1000, .f32⟩ : BufTy).Contents (Elt F))

/-- The TensorCore's arrays, all unscoped: the class indices, the transposed array, the result. -/
abbrev S3 : Finset (DevRef τ sig) := {c', o', r'}

omit [FloatOps F] in
theorem held_S3 (d : Dev nD) (W : Valuation τ sig (Elt F)) :
    (held (T d) S3 W : sProp 𝕄) = iprop((cLoc d ↦{fullShare} W c') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((cLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the transposed array at what the tiles left. -/
def V0 (d : Dev nD) : Valuation τ sig (Elt F) := fun b => m (d, b)
def V1 (d : Dev nD) (f : Buf (Elt F) (oLoc d)) : Valuation τ sig (Elt F) := Function.update (V0 m d) o' f

omit [FloatOps F] in
theorem unscoped_held (d : Dev nD) : (unscopedBufs d (fun b => m ((SparseCore.T d).loc b)) : sProp 𝕄) = held (T d) S3 (V0 m d) := by
  rw [unscopedBufs_eq, held_S3]; rfl

omit [FloatOps F] in
theorem V1_c (d : Dev nD) (f : Buf (Elt F) (oLoc d)) : V1 m d f c' = m (cLoc d) := Function.update_of_ne (show c' ≠ o' by decide) _ _
omit [FloatOps F] in
theorem V1_o (d : Dev nD) (f : Buf (Elt F) (oLoc d)) : V1 m d f o' = f := Function.update_self _ _ _
omit [FloatOps F] in
theorem V1_r (d : Dev nD) (f : Buf (Elt F) (oLoc d)) : V1 m d f r' = V0 m d r' := Function.update_of_ne (show r' ≠ o' by decide) _ _

/-- The transpose of the transposed one-hot array is the result the claim names. -/
theorem res_eq (x : Cert.Spec.SC.Idx → BitVec 32) :
    transpose S16384x1000 [1, 0] (Cert.Spec.oneHotT (F := F) x) transposes_S1000x16384_S16384x1000_1_0 = Cert.Proof.resultOf (F := F) x := rfl

/-- After the transposition: the class indices and the transposed array as they were, the result at the transpose. -/
theorem held_V2 (d : Dev nD) :
    (held (T d) S3 ((opT (F := F)).result (V1 m d (Cert.Spec.oneHotT (F := F) (m (cLoc d))))) : sProp 𝕄)
      = iprop((cLoc d ↦{fullShare} m (cLoc d)) ∗ (oLoc d ↦{fullShare} Cert.Spec.oneHotT (F := F) (m (cLoc d)))
          ∗ rLoc d ↦{fullShare} Cert.Proof.resultOf (F := F) (m (cLoc d))) := by
  rw [held_S3, StableHlo.unary_result_ne main_v0 main_v1 _ _ _ _ (show (main_arg0 : Ref sig .tc) ≠ main_v1 by decide),
    StableHlo.unary_result_ne main_v0 main_v1 _ _ _ _ (show (main_v0 : Ref sig .tc) ≠ main_v1 by decide),
    StableHlo.unary_result, V1_c, V1_o, res_eq]

/-- A tile's operands, from its words and its band at any contents. -/
theorem goA_intro (d : Dev nD) (L : grid0.Coords) (f : Buf (Elt F) (oLoc d)) :
    iprop((cLoc d ↦[cSet L]{fullShare} m (cLoc d)) ∗ oLoc d ↦[oBand L]{fullShare} f) ⊢ goA m d L := by
  unfold goA
  iintro ⟨Hc, Ho⟩
  isplitl [Hc]; · iexact Hc
  iexists f; iexact Ho

/-- What the call takes for the two SparseCores: the whole arrays, as the 32 tiles' parts. -/
theorem st0_intro (d : Dev nD) (f : Buf (Elt F) (oLoc d)) :
    iprop((cLoc d ↦{fullShare} m (cLoc d)) ∗ oLoc d ↦{fullShare} f)
      ⊢ (bigSep Finset.univ fun c : Fin ((K (F := F)).nCore 0) => (P m).st 0 d c : sProp 𝕄) := by
  rw [cPts_tiles, oPts_tiles, ← bigSep_sep']
  refine bigSep_mono fun c _ => ?_
  rw [P_st, ← bigSep_sep']
  exact bigSep_mono fun i _ => goA_intro m d (tileAt c i) f

/-- What it hands back: the parts, every band at the transposed one-hot array, join into the whole arrays. -/
theorem dn0_eq (d : Dev nD) :
    (bigSep Finset.univ fun c : Fin ((K (F := F)).nCore 0) => (P m).dn 0 d c)
      = iprop((cLoc d ↦{fullShare} m (cLoc d)) ∗ oLoc d ↦{fullShare} Cert.Spec.oneHotT (F := F) (m (cLoc d))) := by
  rw [cPts_tiles, oPts_tiles, ← bigSep_sep']
  refine bigSep_congr fun c _ => ?_
  rw [P_dn, ← bigSep_sep']
  rfl

theorem hT3 : (opT (F := F)).bufs ⊆ S3 := show ({o', r'} : Finset (DevRef τ sig)) ⊆ S3 by decide

/-- What @main leaves the claim: the class indices at their launch contents, the result at the one-hot array. -/
abbrev FIN (d : Dev nD) : sProp 𝕄 :=
  iprop((cLoc d ↦{fullShare} m (cLoc d)) ∗ rLoc d ↦{fullShare} Cert.Proof.resultOf (F := F) (m (cLoc d)))

/-- @main on device `d`'s TensorCore: the call, from the two whole arrays split among the tiles; the transposition,
    over the transposed array at what came back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S3 (F := F) d _)) $$ Hheld
  icases Hh with ⟨Hc, Ho, Hr⟩
  iapply ((K (F := F)).wp_run (D (F := F)) 𝒱 (EH := EH) (P := P m) κ d 0) $$ [Hst Hc Ho Hb Hr]
  isplitr; · iexact Hctx
  isplitl [Hst]; · iexact Hst
  isplitl [Hc Ho]
  · iapply (st0_intro m d _)
    isplitl [Hc]; · iexact Hc
    iexact Ho
  iintro ⟨Hst, Hdn⟩
  ihave Hdn' := (Entails.of_eq (dn0_eq m d)) $$ Hdn
  icases Hdn' with ⟨Hc, Ho⟩
  iapply (wp_hlo_within 𝒱 (SparseCore.T d) none Set.univ (op := opT) (S := S3) hT3
    (V := V1 m d (Cert.Spec.oneHotT (F := F) (m (cLoc d))))) $$ [Hb Hc Ho Hr]
  · isplitl [Hb]; · iexact Hb
    rw [held_S3, V1_c, V1_o, V1_r]
    isplitl [Hc]; · iexact Hc
    isplitl [Ho]; · iexact Ho
    iexact Hr
  iintro ⟨Hb, Hheld⟩
  ihave Hh := (Entails.of_eq (held_V2 (F := F) m d)) $$ Hheld
  icases Hh with ⟨Hc, -, Hr⟩
  rw [wp_ret]; imodintro; imodintro
  isplitl [Hst]; · iexact Hst
  isplitl [Hc]; · iexact Hc
  iexact Hr

def fq (d : Dev nD) (s' : Phys nD τ sig (Elt F)) : Prop :=
  s'.mem.mem (rLoc d) = Cert.Proof.resultOf (F := F) (m (cLoc d)) ∧ s'.mem.mem (cLoc d) = m (cLoc d)

theorem hfin (d : Dev nD) (s' : Phys nD τ sig (Elt F)) : iprop(FIN m d ∗ SI s') ⊢ (⌜fq m d s'⌝ : sProp 𝕄) := by
  iintro ⟨⟨Hc, Hr⟩, HSI⟩
  ihave H := (persistent_entails_right (SI_pointsTo_agree (st := s') (ℓ := cLoc d) (I := Finset.univ) (q := fullShare) (f := m (cLoc d)))) $$ [HSI Hc]
  · isplitl [HSI] <;> iassumption
  icases H with ⟨%h1, HSI, -⟩
  ihave H := (SI_pointsTo_agree (st := s') (ℓ := rLoc d) (I := Finset.univ) (q := fullShare) (f := Cert.Proof.resultOf (F := F) (m (cLoc d)))) $$ [HSI Hr]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (hT : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (rLoc c) = Cert.Proof.resultOf (F := F) (m (cLoc c)) ∧ r.2.mem (cLoc c) = m (cLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.CommonB.lean ====
/-
  The one-hot kernel on the SparseCores, as the launch theorem sees it: the program's configuration, the ghost
  state (the handshakes' rounds beside a copy of the counters: every transfer of a tile is local, one in flight per
  semaphore), the arrays' locations and the memrefs a tile's body is called with.

  The kernel: 32 tiles (2 SparseCores × 16 vector subcores); tile (c, s) is worker w = 2 s + c and owns the 512
  columns [512 w, 512 w + 512) of the transposed one-hot array out : f32[1000, 16384]. It copies its 512 class
  indices into tile memory, and for each of the 25 chunks of 40 classes builds the 40 × 512 block
  B_k[r, j] = (idx[j] = 40 k + r ? 1 : 0) in one of two buffers (chunk k in buffer k mod 2) and copies it to
  out[40 k .. 40 k + 40, 512 w .. 512 w + 512). @main then transposes out.
-/
import proofs.«200183_g76879914599096_cont_sun_c4_587_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200183_g76879914599096_cont_sun_c4_587_30_alg».proof.Proof.Gen.Kernel
import proofs.«200183_g76879914599096_cont_sun_c4_587_30_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the memrefs -/

/-- The class indices `c`, the transposed one-hot array `out`, the result, as locations of device `d`. -/
abbrev cLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

abbrev cV : Memref sig .scVector .hbm S16384 .i32 := Memref.whole main_arg0_scv
abbrev oV : Memref sig .scVector .hbm S1000x16384 .f32 := Memref.whole main_v0_scv
/-- A tile's scratch: its 512 class indices, and the two chunk buffers. -/
abbrev sI : Memref sig .scVector .vmem S512 .i32 := Memref.whole cc0_scratch0
abbrev b0 : Memref sig .scVector .vmem S40x512 .f32 := Memref.whole cc0_scratch1
abbrev b1 : Memref sig .scVector .vmem S40x512 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

abbrev cV' (L : grid0.Coords) : Fin τ.nSC := (L 0).castLE hcore0
abbrev jV' (L : grid0.Coords) : Fin τ.nSub := (L 1).castLE hsub0

end Cert.Proof.KB

end
-- ==== Proof.PayB.lean ====
/-
  What the launch hands each tile and takes back. Tile (c, s) is worker w = 2 s + c: it is handed its 512 words of
  the class indices `c` (to read) and its band of 512 columns of the transposed array `out` (to fill), and hands
  back the words unchanged and the band holding the transposed one-hot array of `c`.
-/
import proofs.«200183_g76879914599096_cont_sun_c4_587_30_alg».proof.Proof.CommonB
import proofs.«200183_g76879914599096_cont_sun_c4_587_30_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The first column of the tile's band: 512 · (2 s + c). -/
def colOff (L : grid0.Coords) : Nat := 1024 * (L 1).val + 512 * (L 0).val

theorem colOff_le (L : grid0.Coords) : colOff L + 512 ≤ 16384 := by
  have h0 : (L 0).val < 2 := (L 0).isLt
  have h1 : (L 1).val < 16 := (L 1).isLt
  unfold colOff; omega

/-- The tile's 512 words of `c`. -/
def cRect (L : grid0.Coords) : Rect S16384 :=
  Rect.unit (s := S16384) ![colOff L] ![512] (fun a => by
    have := colOff_le L
    match a with
    | 0 => show colOff L + 512 ≤ 16384; omega)
def cSet (L : grid0.Coords) : Finset S16384.Idx := (cRect L).set

/-- The tile's band of `out`: all 1000 rows of its 512 columns. -/
def oRect (L : grid0.Coords) : Rect S1000x16384 :=
  Rect.unit (s := S1000x16384) ![0, colOff L] ![1000, 512] (fun a => by
    have := colOff_le L
    match a with
    | 0 => show 0 + 1000 ≤ 1000; omega
    | 1 => show colOff L + 512 ≤ 16384; omega)
def oBand (L : grid0.Coords) : Finset S1000x16384.Idx := (oRect L).set

/-- The grid point of SparseCore `c`, vector subcore `i` of call 0. -/
def tileAt (c : Fin ((K (F := F)).nCore 0)) (i : Fin ((K (F := F)).nSub 0)) : grid0.Coords :=
  coordsV (Fin.cast nCore_zero c) (Fin.cast nSub_zero i)

variable [FloatOps F]

/-- What a tile is handed: its words of `c`, its band of `out` at whatever it holds. -/
def goA (d : Dev nD) (L : grid0.Coords) : sProp 𝕄 :=
  iprop((cLoc d ↦[cSet L]{fullShare} m (cLoc d)) ∗ ∃ fo, oLoc d ↦[oBand L]{fullShare} fo)

/-- What it hands back: the words, and the band at the transposed one-hot array of `c`. -/
def tdA (d : Dev nD) (L : grid0.Coords) : sProp 𝕄 :=
  iprop((cLoc d ↦[cSet L]{fullShare} m (cLoc d)) ∗ oLoc d ↦[oBand L]{fullShare} (Cert.Spec.oneHotT (F := F) (m (cLoc d))))

/-- The call's payloads: a SparseCore is handed its sixteen tiles' parts and hands their results back. -/
def P : (K (F := F)).Pay (nD := nD) (Val := Elt F) (Name := ℕ) (U := UU) where
  st := fun q d c => match q with | 0 => bigSep Finset.univ fun i : Fin ((K (F := F)).nSub 0) => goA m d (tileAt c i)
  dn := fun q d c => match q with | 0 => bigSep Finset.univ fun i : Fin ((K (F := F)).nSub 0) => tdA m d (tileAt c i)
  go := fun q d c i => match q with | 0 => goA m d (tileAt c i)
  td := fun q d c i => match q with | 0 => tdA m d (tileAt c i)
  x := fun _ _ => iprop(emp)

instance goA_storable (d : Dev nD) (L : grid0.Coords) : BI.Storable (upEmb : UEmb _ 𝕄) (goA m d L) := by
  unfold goA; infer_instance
instance tdA_storable (d : Dev nD) (L : grid0.Coords) : BI.Storable (upEmb : UEmb _ 𝕄) (tdA m d L) := by
  unfold tdA; infer_instance

instance P_storable : (P (F := F) m).IsStorable where
  st q d c := match q with
    | 0 => (inferInstance : BI.Storable (upEmb : UEmb _ 𝕄) (bigSep Finset.univ fun i : Fin ((K (F := F)).nSub 0) => goA m d (tileAt c i)))
  dn q d c := match q with
    | 0 => (inferInstance : BI.Storable (upEmb : UEmb _ 𝕄) (bigSep Finset.univ fun i : Fin ((K (F := F)).nSub 0) => tdA m d (tileAt c i)))
  go q d c i := match q with
    | 0 => (inferInstance : BI.Storable (upEmb : UEmb _ 𝕄) (goA m d (tileAt c i)))
  td q d c i := match q with
    | 0 => (inferInstance : BI.Storable (upEmb : UEmb _ 𝕄) (tdA m d (tileAt c i)))

end Cert.Proof.KB

end
-- ==== Proof.LaunchB.lean ====
/-
  The launch: from "every tile's task is proved" to the run of the whole program.

  The 32 tiles' word sets of the class indices are pairwise disjoint and cover the array: tile (c, i) holds the 512
  words from 1024 i + 512 c, and every word j lies in the set of the tile with i = j / 1024, c = (j / 512) mod 2; the
  same for the bands of 512 columns of the transposed one-hot array. So the whole arrays split into the tiles' parts
  before the call and the parts join again after it, the bands all at one contents (the transposed one-hot array of
  the class indices). @main then transposes that array into the result; the final memory reads the result and the
  unchanged class indices off the two whole arrays.
-/
import proofs.«200183_g76879914599096_cont_sun_c4_587_30_alg».proof.Proof.PayB
import proofs.«200183_g76879914599096_cont_sun_c4_587_30_alg».proof.Proof.Iface
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' parts are a partition -/

/-- The tiles of call 0: SparseCore and vector subcore. -/
abbrev TI (F : FTy → Type) : Type := Fin ((K (F := F)).nCore 0) × Fin ((K (F := F)).nSub 0)

theorem colOff_tileAt (c : Fin ((K (F := F)).nCore 0)) (i : Fin ((K (F := F)).nSub 0)) :
    colOff (tileAt (F := F) c i) = 1024 * i.val + 512 * c.val := rfl

/-- The words and the band of tile `p`. -/
def cPart (p : TI F) : Finset S16384.Idx := cSet (tileAt (F := F) p.1 p.2)
def oPart (p : TI F) : Finset S1000x16384.Idx := oBand (tileAt (F := F) p.1 p.2)

/-- Two different tiles' first columns are at least 512 apart. -/
theorem colOff_sep {p p' : TI F} (h : p ≠ p') :
    colOff (tileAt (F := F) p.1 p.2) + 512 ≤ colOff (tileAt (F := F) p'.1 p'.2)
      ∨ colOff (tileAt (F := F) p'.1 p'.2) + 512 ≤ colOff (tileAt (F := F) p.1 p.2) := by
  have h1 : p.1.val < 2 := p.1.isLt
  have h2 : p'.1.val < 2 := p'.1.isLt
  have hne : ¬ (p.1.val = p'.1.val ∧ p.2.val = p'.2.val) := fun ⟨e1, e2⟩ => h (Prod.ext (Fin.ext e1) (Fin.ext e2))
  rw [colOff_tileAt, colOff_tileAt]
  omega

theorem cParts_disjoint : ∀ p ∈ (Finset.univ : Finset (TI F)), ∀ p' ∈ (Finset.univ : Finset (TI F)), p ≠ p' → Disjoint (cPart p) (cPart p') :=
  fun p _ p' _ h => Rect.unit_disjoint (s := S16384) (0 : Fin 1) (colOff_sep h)

theorem oParts_disjoint : ∀ p ∈ (Finset.univ : Finset (TI F)), ∀ p' ∈ (Finset.univ : Finset (TI F)), p ≠ p' → Disjoint (oPart p) (oPart p') :=
  fun p _ p' _ h => Rect.unit_disjoint (s := S1000x16384) (1 : Fin 2) (colOff_sep h)

/-- The tile whose parts hold column `j`. -/
def tileOf (j : Nat) (hj : j < 16384) : TI F :=
  (⟨j / 512 % 2, Nat.mod_lt _ (by decide)⟩, ⟨j / 1024, (Nat.div_lt_iff_lt_mul (by decide)).mpr hj⟩)

theorem colOff_tileOf (j : Nat) (hj : j < 16384) :
    colOff (tileAt (F := F) (tileOf (F := F) j hj).1 (tileOf (F := F) j hj).2) ≤ j
      ∧ j < colOff (tileAt (F := F) (tileOf (F := F) j hj).1 (tileOf (F := F) j hj).2) + 512 := by
  rw [colOff_tileAt]
  show 1024 * (j / 1024) + 512 * (j / 512 % 2) ≤ j ∧ j < 1024 * (j / 1024) + 512 * (j / 512 % 2) + 512
  omega

theorem cParts_cover : (Finset.univ : Finset (TI F)).biUnion cPart = Finset.univ := by
  ext j
  simp only [Finset.mem_biUnion, Finset.mem_univ, true_and, iff_true]
  have hj : (j 0).val < 16384 := (j 0).isLt
  refine ⟨tileOf (F := F) (j 0).val hj, Rect.mem_set_unit.mpr fun a => ?_⟩
  match a with
  | 0 => exact colOff_tileOf (F := F) (j 0).val hj

theorem oParts_cover : (Finset.univ : Finset (TI F)).biUnion oPart = Finset.univ := by
  ext j
  simp only [Finset.mem_biUnion, Finset.mem_univ, true_and, iff_true]
  have hj : (j 1).val < 16384 := (j 1).isLt
  have hr : (j 0).val < 1000 := (j 0).isLt
  refine ⟨tileOf (F := F) (j 1).val hj, Rect.mem_set_unit.mpr fun a => ?_⟩
  match a with
  | 0 => exact ⟨Nat.zero_le _, by show (j 0).val < 0 + 1000; omega⟩
  | 1 => exact colOff_tileOf (F := F) (j 1).val hj

/-- A whole array of class indices is its 32 tiles' words; a whole transposed array its 32 bands. -/
theorem cPts_tiles (d : Dev nD) (f : Buf (Elt F) (cLoc d)) :
    (cLoc d ↦{fullShare} f : sProp 𝕄)
      = bigSep Finset.univ fun c : Fin ((K (F := F)).nCore 0) => bigSep Finset.univ fun i : Fin ((K (F := F)).nSub 0) =>
          cLoc d ↦[cSet (tileAt c i)]{fullShare} f := by
  refine Eq.trans ?_ (bigSep_univ_prod (fun p : TI F => (cLoc d ↦[cPart p]{fullShare} f : sProp 𝕄)))
  rw [← pointsTo_biUnion Finset.univ (ℓ := cLoc d) cPart cParts_disjoint, cParts_cover]; try rfl

theorem oPts_tiles (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[oBand (tileAt c i)]{fullShare} f := by
  refine Eq.trans ?_ (bigSep_univ_prod (fun p : TI F => (oLoc d ↦[oPart p]{fullShare} f : sProp 𝕄)))
  rw [← pointsTo_biUnion Finset.univ (ℓ := oLoc d) oPart oParts_disjoint, oParts_cover]; try rfl

variable (m : (ℓ : Loc nD τ sig) → Buf (Elt F) ℓ) (ρ : Dev nD → PrngReg)

variable [FloatOps F]

/-! ## The payloads, as equations -/

theorem P_st (d : Dev nD) (c : Fin ((K (F := F)).nCore 0)) :
    (P m).st 0 d c = bigSep Finset.univ fun i : Fin ((K (F := F)).nSub 0) => goA m d (tileAt c i) := rfl
theorem P_dn (d : Dev nD) (c : Fin ((K (F := F)).nCore 0)) :
    (P m).dn 0 d c = bigSep Finset.univ fun i : Fin ((K (F := F)).nSub 0) => tdA m d (tileAt c i) := rfl
theorem P_go (d : Dev nD) (c : Fin ((K (F := F)).nCore 0)) (i : Fin ((K (F := F)).nSub 0)) :
    (P m).go 0 d c i = goA m d (tileAt c i) := rfl
theorem P_td (d : Dev nD) (c : Fin ((K (F := F)).nCore 0)) (i : Fin ((K (F := F)).nSub 0)) :
    (P m).td 0 d c i = tdA m d (tileAt c i) := rfl

/-- A SparseCore's operands are its tiles' already; so are its results. -/
theorem vecSplit : (K (F := F)).VecSplit' (P m) 0 := by
  intro d c
  simp only [P_st, P_dn, P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev c' : DevRef τ sig := Proc.devRef .tc (main_arg0 : Ref sig .tc)
abbrev o' : DevRef τ sig := Proc.devRef .tc (main_v0 : Ref sig .tc)
abbrev r' : DevRef τ sig := Proc.devRef .tc (main_v1 : Ref sig .tc)

/-- The transposition after the call. -/
abbrev opT : HloOp τ sig (Elt F) :=
  StableHlo.unary main_v0 main_v1 ((transpose S16384x1000 [1, 0] · transposes_S1000x16384_S16384x1000_1_0) : (⟨S1000x16384, .f32⟩ : BufTy).Contents (Elt F) → (⟨S16384x1000, .f32⟩ : BufTy).Contents (Elt F))

/-- The TensorCore's arrays, all unscoped: the class indices, the transposed array, the result. -/
abbrev S3 : Finset (DevRef τ sig) := {c', o', r'}

omit [FloatOps F] in
theorem held_S3 (d : Dev nD) (W : Valuation τ sig (Elt F)) :
    (held (T d) S3 W : sProp 𝕄) = iprop((cLoc d ↦{fullShare} W c') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((cLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the transposed array at what the tiles left. -/
def V0 (d : Dev nD) : Valuation τ sig (Elt F) := fun b => m (d, b)
def V1 (d : Dev nD) (f : Buf (Elt F) (oLoc d)) : Valuation τ sig (Elt F) := Function.update (V0 m d) o' f

omit [FloatOps F] in
theorem unscoped_held (d : Dev nD) : (unscopedBufs d (fun b => m ((SparseCore.T d).loc b)) : sProp 𝕄) = held (T d) S3 (V0 m d) := by
  rw [unscopedBufs_eq, held_S3]; rfl

omit [FloatOps F] in
theorem V1_c (d : Dev nD) (f : Buf (Elt F) (oLoc d)) : V1 m d f c' = m (cLoc d) := Function.update_of_ne (show c' ≠ o' by decide) _ _
omit [FloatOps F] in
theorem V1_o (d : Dev nD) (f : Buf (Elt F) (oLoc d)) : V1 m d f o' = f := Function.update_self _ _ _
omit [FloatOps F] in
theorem V1_r (d : Dev nD) (f : Buf (Elt F) (oLoc d)) : V1 m d f r' = V0 m d r' := Function.update_of_ne (show r' ≠ o' by decide) _ _

/-- The transpose of the transposed one-hot array is the result the claim names. -/
theorem res_eq (x : Cert.Spec.SC.Idx → BitVec 32) :
    transpose S16384x1000 [1, 0] (Cert.Spec.oneHotT (F := F) x) transposes_S1000x16384_S16384x1000_1_0 = Cert.Proof.resultOf (F := F) x := rfl

/-- After the transposition: the class indices and the transposed array as they were, the result at the transpose. -/
theorem held_V2 (d : Dev nD) :
    (held (T d) S3 ((opT (F := F)).result (V1 m d (Cert.Spec.oneHotT (F := F) (m (cLoc d))))) : sProp 𝕄)
      = iprop((cLoc d ↦{fullShare} m (cLoc d)) ∗ (oLoc d ↦{fullShare} Cert.Spec.oneHotT (F := F) (m (cLoc d)))
          ∗ rLoc d ↦{fullShare} Cert.Proof.resultOf (F := F) (m (cLoc d))) := by
  rw [held_S3, StableHlo.unary_result_ne main_v0 main_v1 _ _ _ _ (show (main_arg0 : Ref sig .tc) ≠ main_v1 by decide),
    StableHlo.unary_result_ne main_v0 main_v1 _ _ _ _ (show (main_v0 : Ref sig .tc) ≠ main_v1 by decide),
    StableHlo.unary_result, V1_c, V1_o, res_eq]

/-- A tile's operands, from its words and its band at any contents. -/
theorem goA_intro (d : Dev nD) (L : grid0.Coords) (f : Buf (Elt F) (oLoc d)) :
    iprop((cLoc d ↦[cSet L]{fullShare} m (cLoc d)) ∗ oLoc d ↦[oBand L]{fullShare} f) ⊢ goA m d L := by
  unfold goA
  iintro ⟨Hc, Ho⟩
  isplitl [Hc]; · iexact Hc
  iexists f; iexact Ho

/-- What the call takes for the two SparseCores: the whole arrays, as the 32 tiles' parts. -/
theorem st0_intro (d : Dev nD) (f : Buf (Elt F) (oLoc d)) :
    iprop((cLoc d ↦{fullShare} m (cLoc d)) ∗ oLoc d ↦{fullShare} f)
      ⊢ (bigSep Finset.univ fun c : Fin ((K (F := F)).nCore 0) => (P m).st 0 d c : sProp 𝕄) := by
  rw [cPts_tiles, oPts_tiles, ← bigSep_sep']
  refine bigSep_mono fun c _ => ?_
  rw [P_st, ← bigSep_sep']
  exact bigSep_mono fun i _ => goA_intro m d (tileAt c i) f

/-- What it hands back: the parts, every band at the transposed one-hot array, join into the whole arrays. -/
theorem dn0_eq (d : Dev nD) :
    (bigSep Finset.univ fun c : Fin ((K (F := F)).nCore 0) => (P m).dn 0 d c)
      = iprop((cLoc d ↦{fullShare} m (cLoc d)) ∗ oLoc d ↦{fullShare} Cert.Spec.oneHotT (F := F) (m (cLoc d))) := by
  rw [cPts_tiles, oPts_tiles, ← bigSep_sep']
  refine bigSep_congr fun c _ => ?_
  rw [P_dn, ← bigSep_sep']
  rfl

theorem hT3 : (opT (F := F)).bufs ⊆ S3 := show ({o', r'} : Finset (DevRef τ sig)) ⊆ S3 by decide

/-- What @main leaves the claim: the class indices at their launch contents, the result at the one-hot array. -/
abbrev FIN (d : Dev nD) : sProp 𝕄 :=
  iprop((cLoc d ↦{fullShare} m (cLoc d)) ∗ rLoc d ↦{fullShare} Cert.Proof.resultOf (F := F) (m (cLoc d)))

/-- @main on device `d`'s TensorCore: the call, from the two whole arrays split among the tiles; the transposition,
    over the transposed array at what came back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S3 (F := F) d _)) $$ Hheld
  icases Hh with ⟨Hc, Ho, Hr⟩
  iapply ((K (F := F)).wp_run (D (F := F)) 𝒱 (EH := EH) (P := P m) κ d 0) $$ [Hst Hc Ho Hb Hr]
  isplitr; · iexact Hctx
  isplitl [Hst]; · iexact Hst
  isplitl [Hc Ho]
  · iapply (st0_intro m d _)
    isplitl [Hc]; · iexact Hc
    iexact Ho
  iintro ⟨Hst, Hdn⟩
  ihave Hdn' := (Entails.of_eq (dn0_eq m d)) $$ Hdn
  icases Hdn' with ⟨Hc, Ho⟩
  iapply (wp_hlo_within 𝒱 (SparseCore.T d) none Set.univ (op := opT) (S := S3) hT3
    (V := V1 m d (Cert.Spec.oneHotT (F := F) (m (cLoc d))))) $$ [Hb Hc Ho Hr]
  · isplitl [Hb]; · iexact Hb
    rw [held_S3, V1_c, V1_o, V1_r]
    isplitl [Hc]; · iexact Hc
    isplitl [Ho]; · iexact Ho
    iexact Hr
  iintro ⟨Hb, Hheld⟩
  ihave Hh := (Entails.of_eq (held_V2 (F := F) m d)) $$ Hheld
  icases Hh with ⟨Hc, -, Hr⟩
  rw [wp_ret]; imodintro; imodintro
  isplitl [Hst]; · iexact Hst
  isplitl [Hc]; · iexact Hc
  iexact Hr

def fq (d : Dev nD) (s' : Phys nD τ sig (Elt F)) : Prop :=
  s'.mem.mem (rLoc d) = Cert.Proof.resultOf (F := F) (m (cLoc d)) ∧ s'.mem.mem (cLoc d) = m (cLoc d)

theorem hfin (d : Dev nD) (s' : Phys nD τ sig (Elt F)) : iprop(FIN m d ∗ SI s') ⊢ (⌜fq m d s'⌝ : sProp 𝕄) := by
  iintro ⟨⟨Hc, Hr⟩, HSI⟩
  ihave H := (persistent_entails_right (SI_pointsTo_agree (st := s') (ℓ := cLoc d) (I := Finset.univ) (q := fullShare) (f := m (cLoc d)))) $$ [HSI Hc]
  · isplitl [HSI] <;> iassumption
  icases H with ⟨%h1, HSI, -⟩
  ihave H := (SI_pointsTo_agree (st := s') (ℓ := rLoc d) (I := Finset.univ) (q := fullShare) (f := Cert.Proof.resultOf (F := F) (m (cLoc d)))) $$ [HSI Hr]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (hT : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (rLoc c) = Cert.Proof.resultOf (F := F) (m (cLoc c)) ∧ r.2.mem (cLoc c) = m (cLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.TileObl.lean ====
/-
  The launch theorem's obligation for a tile, from the body proved once at a symbolic grid point: the body table's
  entry for a vector subcore inside the grid is the kernel's function at that subcore's coordinates on the whole
  arrays and its own scratch, and the kernel owes nothing for a protocol of its own.
-/
import proofs.«200183_g76879914599096_cont_sun_c4_587_30_alg».proof.Proof.Pay
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The body table at a vector subcore: the kernel's function at the subcore's grid point. -/
theorem defs₀_vector (c : Fin τ.nSC) (s : Fin τ.nSub) :
    defs₀ (F := F) (.scVector c s) 0 ()
      = SparseCore.onTile hcore0 hsub0 (fun c s => cc0__onehot_t_body (coordsV c s)
          cV (Memref.isWhole_whole _) oV (Memref.isWhole_whole _)
          sI (Memref.isWhole_whole _) b0 (Memref.isWhole_whole _) b1 (Memref.isWhole_whole _) cc0_scratch3 cc0_scratch4 cc0_scoped0) ⟨⟩ c s := rfl

omit [FloatOps F] in
/-- Waits recorded for no call are waits recorded for no call or for this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation at call 0, from the body at every grid point. -/
theorem tileObl_of_body (hF : (K (F := F)).Facts)
    (hbody : ∀ (d : Dev nD) (L : grid0.Coords) (O : CellTallies nD τ sig (HIx 1)) (W : Waits sig (HIx 1)), (∀ g, O g none = 0) →
      iprop(levAts (K (F := F)).L (K (F := F)).lev ∗ emp ∗ goA m d L ∗ scopedBufs (V d (cV' L) (jV' L)) ∗ scopedSems0 (V d (cV' L) (jV' L)) ∗ owes (V d (cV' L) (jV' L)) O W)
        ⊢ wp frame (wpE (defs₀ (F := F)) 𝒱₀ (V d (cV' L) (jV' L)) none) Set.univ
            (cc0__onehot_t_body L cV (Memref.isWhole_whole _) oV (Memref.isWhole_whole _) sI (Memref.isWhole_whole _) b0 (Memref.isWhole_whole _) b1 (Memref.isWhole_whole _) cc0_scratch3 cc0_scratch4 cc0_scoped0)
            fun _ => iprop(tdA m d L ∗ scopedBufs (V d (cV' L) (jV' L)) ∗ scopedSems0 (V d (cV' L) (jV' L)) ∗ ∃ W', ⌜∀ p ∈ W', p ∈ W ∨ p.2 = none⌝ ∗ owes (V d (cV' L) (jV' L)) O W')) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KI

end
-- ==== Proof.TileOblB.lean ====
/-
  The launch theorem's obligation for a tile, from the body proved once at a symbolic grid point: the body table's
  entry for a vector subcore inside the grid is the kernel's function at that subcore's coordinates on the whole
  arrays and its own scratch, and the kernel owes nothing for a protocol of its own.
-/
import proofs.«200183_g76879914599096_cont_sun_c4_587_30_alg».proof.Proof.PayB
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The body table at a vector subcore: the kernel's function at the subcore's grid point. -/
theorem defs₀_vector (c : Fin τ.nSC) (s : Fin τ.nSub) :
    defs₀ (F := F) (.scVector c s) 0 ()
      = SparseCore.onTile hcore0 hsub0 (fun c s => cc0__onehot_t_body (coordsV c s)
          cV (Memref.isWhole_whole _) oV (Memref.isWhole_whole _)
          sI (Memref.isWhole_whole _) b0 (Memref.isWhole_whole _) b1 (Memref.isWhole_whole _) cc0_scratch3 cc0_scratch4 cc0_scoped0) ⟨⟩ c s := rfl

omit [FloatOps F] in
/-- Waits recorded for no call are waits recorded for no call or for this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation at call 0, from the body at every grid point. -/
theorem tileObl_of_body (hF : (K (F := F)).Facts)
    (hbody : ∀ (d : Dev nD) (L : grid0.Coords) (O : CellTallies nD τ sig (HIx 1)) (W : Waits sig (HIx 1)), (∀ g, O g none = 0) →
      iprop(levAts (K (F := F)).L (K (F := F)).lev ∗ emp ∗ goA m d L ∗ scopedBufs (V d (cV' L) (jV' L)) ∗ scopedSems0 (V d (cV' L) (jV' L)) ∗ owes (V d (cV' L) (jV' L)) O W)
        ⊢ wp frame (wpE (defs₀ (F := F)) 𝒱₀ (V d (cV' L) (jV' L)) none) Set.univ
            (cc0__onehot_t_body L cV (Memref.isWhole_whole _) oV (Memref.isWhole_whole _) sI (Memref.isWhole_whole _) b0 (Memref.isWhole_whole _) b1 (Memref.isWhole_whole _) cc0_scratch3 cc0_scratch4 cc0_scoped0)
            fun _ => iprop(tdA m d L ∗ scopedBufs (V d (cV' L) (jV' L)) ∗ scopedSems0 (V d (cV' L) (jV' L)) ∗ ∃ W', ⌜∀ p ∈ W', p ∈ W ∨ p.2 = none⌝ ∗ owes (V d (cV' L) (jV' L)) O W')) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KB

end
-- ==== Proof.RefSide.lean ====
/-
  The reference's side of the value claim. The reference compares each class index, broadcast along the rows, with the
  row's number, turns the one-bit answer into a float and multiplies by the constant one. On the extended reals the bit
  one is the real one and the bit zero the real zero, and one times either is itself: entry (col, r) of the reference's
  result is one exactly where class word `col` is the number `r`, zero elsewhere. That is the transpose of the transposed
  one-hot array, so with the kernel's run both programs end at one array.
-/
import proofs.«200183_g76879914599096_cont_sun_c4_587_30_alg».proof.Proof.Iface
import proofs.«200183_g76879914599096_cont_sun_c4_587_30_alg».proof.Proof.Gen.Pre_input_domain
import proofs.«200183_g76879914599096_cont_sun_c4_587_30_alg».proof.Proof.Gen.ReferenceIdeal.Run
import proofs.«200183_g76879914599096_cont_sun_c4_587_30_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Affine

noncomputable section

namespace Cert.Proof.RefSide

open Idealize.ShloMosaic Idealize.SL.Sem Idealize.ShloMosaic.ValueIdx
open Cert.ReferenceIdeal Cert.ReferenceIdeal.Read

/-! ## One entry -/

/-- One times the float of the comparison's bit: the bit is one exactly when the two words are equal, its float is then
    the real one and otherwise the real zero, and one times either is itself. -/
theorem entry (a b : BitVec 32) :
    FloatOps.mulf (F := Ideal) (FloatOps.ofBits .f32 0x3F800000#32) (FloatOps.uitofp .f32 (IntOp.cmpi .eq a b))
      = if a = b then (Cert.Spec.oF : Ideal .f32) else (Cert.Spec.zF : Ideal .f32) := by
  by_cases h : a = b
  · rw [if_pos h]
    have e : IntOp.cmpi .eq a b = 1#1 := IntOp.cmpi_eq.mpr h
    rw [e]
    show Ideal.ofBits .f32 0x3F800000#32 * (((1#1 : BitVec 1).toNat : ℝ) : EReal) = Ideal.ofBits .f32 0x3F800000#32
    rw [show ((1#1 : BitVec 1).toNat : ℝ) = 1 from by norm_num, EReal.coe_one, mul_one]
  · rw [if_neg h]
    have e : IntOp.cmpi .eq a b = 0#1 := by
      show BitVec.ofBool (a == b) = 0#1
      rw [beq_eq_false_iff_ne.mpr h]
      rfl
    rw [e]
    show Ideal.ofBits .f32 0x3F800000#32 * (((0#1 : BitVec 1).toNat : ℝ) : EReal) = Ideal.ofBits .f32 0x00000000#32
    rw [Ideal.ofBits_zero_f32, show ((0#1 : BitVec 1).toNat : ℝ) = 0 from by norm_num, EReal.coe_zero, mul_zero]

/-! ## The reference's result, index by index -/

/-- The reference's result is the one-hot array of the class words: at (col, r) the comparison reads class word `col`
    (the two broadcasts keep the first coordinate) against the number `r` (the iota along the second axis, broadcast
    along the first), and the transpose reads the transposed array at (r, col). -/
theorem ref_eq (x : Cert.Spec.SC.Idx → BitVec 32) :
    Cert.ReferenceIdeal.Read.val_main_v2 (F := Ideal) x = Cert.Proof.resultOf (F := Ideal) x := by
  funext j
  obtain ⟨p, q, rfl⟩ : ∃ (p : Fin 16384) (q : Fin 1000), j = ix2 p q := ⟨j 0, j 1, eq_ix2 j⟩
  have ht : Cert.Proof.resultOf (F := Ideal) x (ix2 p q) = Cert.Spec.oneHotT (F := Ideal) x (ix2 q p) := by
    unfold Cert.Proof.resultOf
    exact transpose_ix2_apply (Cert.Spec.oneHotT (F := Ideal) x) _ p q
  have hi : idx_main_call0_v0 (idx_main_call0_v2 (ix2 p q)) = ix1 p :=
    funext fun a => match a with | ⟨0, _⟩ => rfl
  rw [ht, val_main_v2_apply, val_main_v1_apply, val_main_cst_apply, val_main_v0_apply, val_main_call0_v4_apply,
    val_main_call0_v2_apply, val_main_call0_v0_apply, val_main_call0_v3_apply, val_main_call0_v1_apply, hi]
  exact entry (x (ix1 p)) (BitVec.ofNat 32 q.val)

/-! ## The claims about the reference -/

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the class indices both programs end at the one-hot array of those indices: the kernel by
    its run, the reference by its run read index by index. -/
theorem algebraic (h : Cert.Proof.KIRun) : Cert.algebraic_KernelIdeal_ReferenceIdeal := by
  intro m g m' g' _ hagree
  refine ⟨_, h m g, ?_⟩
  refine (θ_run Cert.ReferenceIdeal.defs _ _).mono (fun _ hr c => ⟨(hr c).1.trans ?_, (hr c).2⟩)
    (Cert.ReferenceIdeal.Value.run (F := Ideal) m' g')
  rw [hagree c]
  exact (Cert.ReferenceIdeal.Read.val_main_v2_eq _).trans (ref_eq _)

end Cert.Proof.RefSide

end
-- ==== Proof.Assemble.lean ====
/-
  The claim, from the two tile bodies. A tile's body proved at a symbolic grid point gives the launch its obligation for
  every tile; the launch gives the program's run — every execution ends, the class indices unchanged, the result the
  one-hot array of the class indices —, for the program as printed and for its idealization. The frames are those runs with
  the result dropped; the reference's frame is its own run; the idealization rewrote nothing; and the two idealized programs
  end at one array because the reference computes the same one-hot array index by index.
-/
import proofs.«200183_g76879914599096_cont_sun_c4_587_30_alg».proof.Proof.Launch
import proofs.«200183_g76879914599096_cont_sun_c4_587_30_alg».proof.Proof.LaunchB
import proofs.«200183_g76879914599096_cont_sun_c4_587_30_alg».proof.Proof.TileObl
import proofs.«200183_g76879914599096_cont_sun_c4_587_30_alg».proof.Proof.TileOblB
import proofs.«200183_g76879914599096_cont_sun_c4_587_30_alg».proof.Proof.RefSide
import proofs.«200183_g76879914599096_cont_sun_c4_587_30_alg».proof.Proof.Iface
import proofs.«200183_g76879914599096_cont_sun_c4_587_30_alg».proof.Proof.Gen.Kernel
import proofs.«200183_g76879914599096_cont_sun_c4_587_30_alg».proof.Proof.Gen.KernelIdeal
import proofs.«200183_g76879914599096_cont_sun_c4_587_30_alg».proof.Proof.Gen.ReferenceIdeal
import proofs.«200183_g76879914599096_cont_sun_c4_587_30_alg».proof.Proof.Gen.Pre_input_domain

noncomputable section

/-! ## What is asked of a tile's body -/

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- The tile's body, proved at every memory, device and grid point: from the tile's words and its band at any contents
    (with its own scratch and nothing owed for a call), the kernel's function at that grid point ends with the band at the
    transposed one-hot array of the class indices. -/
abbrev BodyAll (F : FTy → Type) [FloatOps F] : Prop :=
  ∀ (m : (ℓ : Loc nD τ sig) → Buf (Elt F) ℓ) (d : Dev nD) (L : grid0.Coords) (O : CellTallies nD τ sig (HIx 1)) (W : Waits sig (HIx 1)),
    (∀ g, O g none = 0) →
      iprop(levAts (K (F := F)).L (K (F := F)).lev ∗ emp ∗ goA m d L ∗ scopedBufs (V d (cV' L) (jV' L)) ∗ scopedSems0 (V d (cV' L) (jV' L)) ∗ owes (V d (cV' L) (jV' L)) O W)
        ⊢ wp frame (wpE (defs₀ (F := F)) 𝒱₀ (V d (cV' L) (jV' L)) none) Set.univ
            (cc0__onehot_t_body L cV (Memref.isWhole_whole _) oV (Memref.isWhole_whole _) sI (Memref.isWhole_whole _) b0 (Memref.isWhole_whole _) b1 (Memref.isWhole_whole _) cc0_scratch3 cc0_scratch4 cc0_scoped0)
            fun _ => iprop(tdA m d L ∗ scopedBufs (V d (cV' L) (jV' L)) ∗ scopedSems0 (V d (cV' L) (jV' L)) ∗ ∃ W', ⌜∀ p ∈ W', p ∈ W ∨ p.2 = none⌝ ∗ owes (V d (cV' L) (jV' L)) O W')

end Cert.Proof.KI

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-- The tile's body, proved at every memory, device and grid point: from the tile's words and its band at any contents
    (with its own scratch and nothing owed for a call), the kernel's function at that grid point ends with the band at the
    transposed one-hot array of the class indices. -/
abbrev BodyAll (F : FTy → Type) [FloatOps F] : Prop :=
  ∀ (m : (ℓ : Loc nD τ sig) → Buf (Elt F) ℓ) (d : Dev nD) (L : grid0.Coords) (O : CellTallies nD τ sig (HIx 1)) (W : Waits sig (HIx 1)),
    (∀ g, O g none = 0) →
      iprop(levAts (K (F := F)).L (K (F := F)).lev ∗ emp ∗ goA m d L ∗ scopedBufs (V d (cV' L) (jV' L)) ∗ scopedSems0 (V d (cV' L) (jV' L)) ∗ owes (V d (cV' L) (jV' L)) O W)
        ⊢ wp frame (wpE (defs₀ (F := F)) 𝒱₀ (V d (cV' L) (jV' L)) none) Set.univ
            (cc0__onehot_t_body L cV (Memref.isWhole_whole _) oV (Memref.isWhole_whole _) sI (Memref.isWhole_whole _) b0 (Memref.isWhole_whole _) b1 (Memref.isWhole_whole _) cc0_scratch3 cc0_scratch4 cc0_scoped0)
            fun _ => iprop(tdA m d L ∗ scopedBufs (V d (cV' L) (jV' L)) ∗ scopedSems0 (V d (cV' L) (jV' L)) ∗ ∃ W', ⌜∀ p ∈ W', p ∈ W ∨ p.2 = none⌝ ∗ owes (V d (cV' L) (jV' L)) O W')

end Cert.Proof.KB

/-! ## The claims -/

namespace Cert.Proof

open Idealize.ShloMosaic Idealize.SL.Sem

/-- The idealized kernel's run, from its tile body: the result at the one-hot array of the class indices, these unchanged. -/
theorem kirun (hI : KI.BodyAll Ideal) : Cert.Proof.KIRun := fun m g =>
  (θ_run (Cert.KernelIdeal.defs (F := Ideal)) _ _).mono (fun _ h c => h c)
    (KI.run_main (F := Ideal) m g (KI.tileObl_of_body m KI.facts (hI m)))

/-- The idealized kernel runs and leaves the class indices unchanged: its run with the result dropped. -/
theorem frame_KernelIdeal (hI : KI.BodyAll Ideal) : Cert.frame_KernelIdeal := fun m g _ =>
  (θ_run (Cert.KernelIdeal.defs (F := Ideal)) _ _).mono (fun _ h c => (h c).2)
    (KI.run_main (F := Ideal) m g (KI.tileObl_of_body m KI.facts (hI m)))

/-- The kernel as printed runs and leaves the class indices unchanged: its run with the result dropped. -/
theorem frame_Kernel (hB : KB.BodyAll Bits) : Cert.frame_Kernel := fun m g _ =>
  (θ_run (Cert.Kernel.defs (F := Bits)) _ _).mono (fun _ h c => (h c).2)
    (KB.run_main (F := Bits) m g (KB.tileObl_of_body m KB.facts (hB m)))

/-- Everything the certificate claims, from the tile body of the idealized kernel and of the kernel as printed. -/
theorem claim_of (hI : KI.BodyAll Ideal) (hB : KB.BodyAll Bits) : Cert.Claim :=
  ⟨Cert.Kernel.Gen.facts, Cert.KernelIdeal.Gen.facts, Cert.ReferenceIdeal.Gen.facts, Cert.Pre_input_domain.Gen.facts,
    frame_Kernel hB, frame_KernelIdeal hI, RefSide.frame_ri, trivial, RefSide.algebraic (kirun hI)⟩

end Cert.Proof

end
-- ==== Proof.Fill.lean ====
/-
  Filling a chunk buffer with zeros, a row at a time: one trip of the fill loop stores sixteen zeros at each of
  the 32 column offsets of its row. Read back as functions of the buffer's index: a row whose first `c` columns
  are zero (`zrow`), a buffer whose first `k` rows are zero (`zfill`).
-/
import proofs.«200183_g76879914599096_cont_sun_c4_587_30_alg».proof.Proof.Common

noncomputable section

namespace Cert.Proof.KI

open Cert.KernelIdeal Cert.KernelIdeal.Gen
open Idealize.ShloMosaic

variable {F : FTy → Type} [FloatOps F]

/-- Zero and one, as the kernel's float constants. -/
abbrev zF : F .f32 := Scalar.ofBits .f32 0x00000000#32
abbrev oF : F .f32 := Scalar.ofBits .f32 0x3F800000#32

/-- A chunk buffer whose first `k` rows are zero. -/
def zfill (f : S40x512.Idx → Elt F .f32) (k : Nat) : S40x512.Idx → Elt F .f32 :=
  fun j => if (j 0).val < k then (zF : F .f32) else f j

/-- A chunk buffer whose row `k` is zero in its first `c` columns. -/
def zrow (f : S40x512.Idx → Elt F .f32) (k c : Nat) : S40x512.Idx → Elt F .f32 :=
  fun j => if (j 0).val = k ∧ (j 1).val < c then (zF : F .f32) else f j

theorem zrow_zero (f : S40x512.Idx → Elt F .f32) (k : Nat) : zrow f k 0 = f := by
  funext j; unfold zrow; rw [if_neg]; omega

theorem zfill_zero (f : S40x512.Idx → Elt F .f32) : zfill f 0 = f := by
  funext j; unfold zfill; rw [if_neg]; omega

/-- A whole row of zeros under the first `k` rows of zeros: the first `k + 1` rows. -/
theorem zrow_zfill (f : S40x512.Idx → Elt F .f32) (k : Nat) : zrow (zfill f k) k 512 = zfill f (k + 1) := by
  funext j
  have h1 : (j 1).val < 512 := (j 1).isLt
  unfold zrow zfill
  by_cases h0 : (j 0).val = k
  · rw [if_pos ⟨h0, h1⟩, if_pos (by omega)]
  · rw [if_neg (fun hh => h0 hh.1)]
    by_cases h2 : (j 0).val < k
    · rw [if_pos h2, if_pos (by omega)]
    · rw [if_neg h2, if_neg (by omega)]

section B0

/-- One 16-lane store of zeros at columns `c … c + 16` of row `k`, over a row whose columns before `c` are zero. -/
theorem B0_write_row_piece (f : S40x512.Idx → Elt F .f32) (off : Fin 2 → Nat) (k c c' : Nat)
    (h0 : off 0 = k) (h1 : off 1 = c) (hc' : c + 16 = c')
    (h : ∀ a, off a + S1x16.size a ≤ S40x512.size a) (hc : S16.ShapeCasts S1x16) :
    View.write (Elt F) ((View.whole (cc0_scratch1 : Ref sig .scVector)).slice (Rect.unit (s := S40x512) off S1x16.size h)) (zrow f k c)
        (shapeCast S1x16 (k0_pay16 (F := F)) hc) Finset.univ
      = zrow f k c' := by
  subst h0 h1 hc'
  funext y
  have hr : ∀ g : S40x512.Idx → Elt F .f32, (View.whole (cc0_scratch1 : Ref sig .scVector)).read (Elt F) g = g := fun _ => rfl
  by_cases hy : y ∈ (Rect.unit (s := S40x512) off S1x16.size h).set
  · obtain ⟨x, rfl⟩ := (Rect.unit (s := S40x512) off S1x16.size h).exists_idx_of_mem hy
    have e := View.read_slice_write_emb (v := View.whole (cc0_scratch1 : Ref sig .scVector)) (Val := Elt F)
      (Rect.unit (s := S40x512) off S1x16.size h) (zrow f (off 0) (off 1)) (shapeCast S1x16 (k0_pay16 (F := F)) hc) (Finset.mem_univ x)
    rw [hr] at e
    refine e.trans ?_
    have h0 : (x 0).val < 1 := (x 0).isLt
    have h1 : (x 1).val < 16 := (x 1).isLt
    unfold zrow
    rw [if_pos]
    · rfl
    · constructor
      · show off 0 + 1 * (x 0).val = off 0
        omega
      · show off 1 + 1 * (x 1).val < off 1 + 16
        omega
  · have e := View.read_slice_write_of_not_mem (v := View.whole (cc0_scratch1 : Ref sig .scVector)) (Val := Elt F)
      (Rect.unit (s := S40x512) off S1x16.size h) (zrow f (off 0) (off 1)) (shapeCast S1x16 (k0_pay16 (F := F)) hc) Finset.univ
      (y := y) (by rwa [Rect.map_emb_univ])
    rw [hr, hr] at e
    refine e.trans ?_
    have hy' : ¬ ((y 0).val = off 0 ∧ off 1 ≤ (y 1).val ∧ (y 1).val < off 1 + 16) := by
      intro ⟨h0, h1, h2⟩
      refine hy (Rect.mem_set_unit.mpr fun a => ?_)
      match a with
      | 0 => exact ⟨by show off 0 ≤ (y 0).val; omega, by show (y 0).val < off 0 + 1; omega⟩
      | 1 => exact ⟨by show off 1 ≤ (y 1).val; omega, by show (y 1).val < off 1 + 16; omega⟩
    unfold zrow
    by_cases h0 : (y 0).val = off 0
    · by_cases h1 : (y 1).val < off 1
      · rw [if_pos ⟨h0, h1⟩, if_pos ⟨h0, by omega⟩]
      · rw [if_neg (fun hh => h1 hh.2), if_neg (fun hh => hy' ⟨h0, by omega, hh.2⟩)]
    · rw [if_neg (fun hh => h0 hh.1), if_neg (fun hh => h0 hh.1)]

end B0

section B1

/-- One 16-lane store of zeros at columns `c … c + 16` of row `k`, over a row whose columns before `c` are zero. -/
theorem B1_write_row_piece (f : S40x512.Idx → Elt F .f32) (off : Fin 2 → Nat) (k c c' : Nat)
    (h0 : off 0 = k) (h1 : off 1 = c) (hc' : c + 16 = c')
    (h : ∀ a, off a + S1x16.size a ≤ S40x512.size a) (hc : S16.ShapeCasts S1x16) :
    View.write (Elt F) ((View.whole (cc0_scratch2 : Ref sig .scVector)).slice (Rect.unit (s := S40x512) off S1x16.size h)) (zrow f k c)
        (shapeCast S1x16 (k0_pay16 (F := F)) hc) Finset.univ
      = zrow f k c' := by
  subst h0 h1 hc'
  funext y
  have hr : ∀ g : S40x512.Idx → Elt F .f32, (View.whole (cc0_scratch2 : Ref sig .scVector)).read (Elt F) g = g := fun _ => rfl
  by_cases hy : y ∈ (Rect.unit (s := S40x512) off S1x16.size h).set
  · obtain ⟨x, rfl⟩ := (Rect.unit (s := S40x512) off S1x16.size h).exists_idx_of_mem hy
    have e := View.read_slice_write_emb (v := View.whole (cc0_scratch2 : Ref sig .scVector)) (Val := Elt F)
      (Rect.unit (s := S40x512) off S1x16.size h) (zrow f (off 0) (off 1)) (shapeCast S1x16 (k0_pay16 (F := F)) hc) (Finset.mem_univ x)
    rw [hr] at e
    refine e.trans ?_
    have h0 : (x 0).val < 1 := (x 0).isLt
    have h1 : (x 1).val < 16 := (x 1).isLt
    unfold zrow
    rw [if_pos]
    · rfl
    · constructor
      · show off 0 + 1 * (x 0).val = off 0
        omega
      · show off 1 + 1 * (x 1).val < off 1 + 16
        omega
  · have e := View.read_slice_write_of_not_mem (v := View.whole (cc0_scratch2 : Ref sig .scVector)) (Val := Elt F)
      (Rect.unit (s := S40x512) off S1x16.size h) (zrow f (off 0) (off 1)) (shapeCast S1x16 (k0_pay16 (F := F)) hc) Finset.univ
      (y := y) (by rwa [Rect.map_emb_univ])
    rw [hr, hr] at e
    refine e.trans ?_
    have hy' : ¬ ((y 0).val = off 0 ∧ off 1 ≤ (y 1).val ∧ (y 1).val < off 1 + 16) := by
      intro ⟨h0, h1, h2⟩
      refine hy (Rect.mem_set_unit.mpr fun a => ?_)
      match a with
      | 0 => exact ⟨by show off 0 ≤ (y 0).val; omega, by show (y 0).val < off 0 + 1; omega⟩
      | 1 => exact ⟨by show off 1 ≤ (y 1).val; omega, by show (y 1).val < off 1 + 16; omega⟩
    unfold zrow
    by_cases h0 : (y 0).val = off 0
    · by_cases h1 : (y 1).val < off 1
      · rw [if_pos ⟨h0, h1⟩, if_pos ⟨h0, by omega⟩]
      · rw [if_neg (fun hh => h1 hh.2), if_neg (fun hh => hy' ⟨h0, by omega, hh.2⟩)]
    · rw [if_neg (fun hh => h0 hh.1), if_neg (fun hh => h0 hh.1)]

end B1

end Cert.Proof.KI

end
-- ==== Proof.LibStoreIdx.lean ====
/-
  A masked indexed store into tile memory (`storeIdx`, no accumulation) read back at an element, when the lanes
  whose mask bit is set name pairwise distinct elements: the element a set lane names holds that lane's value,
  and an element no set lane names keeps what it held. (The store takes the lanes in ascending order; with
  distinct targets the order does not matter.)
-/
import Idealize.ShloMosaic.PureOps

namespace Idealize.ShloMosaic.LibStoreIdx

variable {F : FTy → Type} [FloatOps F] {s : Shape} {e : EltTy} {d : Fin 1 → Nat}

/-- One lane's part of the store: lane `k`, if its mask bit is set, overwrites the element it names. -/
def lane (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  let x := Shape.ofLane k
  if mask x = 1 then
    let i := idxAt idxs h x
    let y := if false then Elt.idxAdd e (g i) (v x) else v x
    fun j => if (∀ a, (j a).val = (i a).val) then y else g j
  else g

theorem storeIdx_eq_foldl (f : Vec F s e) (idxs : Fin s.rank → IVec ⟨1, d⟩ 32) (v : Vec F ⟨1, d⟩ e) (mask : IVec ⟨1, d⟩ 1)
    (h : ∀ a x, (idxs a x).toNat < s.size a) :
    storeIdx f idxs v mask false h = (List.finRange (d 0)).foldl (lane idxs v mask h) f := rfl

theorem coords_eq_iff {j i : s.Idx} : (∀ a, (j a).val = (i a).val) ↔ j = i :=
  ⟨fun hji => funext fun a => Fin.ext (hji a), fun hji a => by rw [hji]⟩

variable (idxs : Fin s.rank → IVec ⟨1, d⟩ 32) (v : Vec F ⟨1, d⟩ e) (mask : IVec ⟨1, d⟩ 1)
  (h : ∀ a x, (idxs a x).toNat < s.size a)

theorem lane_apply (g : Vec F s e) (k : Fin (d 0)) (j : s.Idx) :
    lane idxs v mask h g k j
      = if mask (Shape.ofLane k) = 1 ∧ j = idxAt idxs h (Shape.ofLane k) then v (Shape.ofLane k) else g j := by
  unfold lane
  by_cases hm : mask (Shape.ofLane k) = 1
  · simp only [hm, if_true, true_and, Bool.false_eq_true, if_false, coords_eq_iff]
  · simp only [hm, if_false, false_and]

/-- Lanes that do not name `j` leave it alone. -/
theorem foldl_miss (j : s.Idx) : ∀ (l : List (Fin (d 0))) (g : Vec F s e),
    (∀ k ∈ l, mask (Shape.ofLane k) = 1 → idxAt idxs h (Shape.ofLane k) ≠ j) → (l.foldl (lane idxs v mask h) g) j = g j
  | [], _, _ => rfl
  | a :: t, g, hm => by
    rw [List.foldl_cons, foldl_miss j t _ (fun k hk => hm k (List.mem_cons_of_mem _ hk)), lane_apply]
    rw [if_neg]
    rintro ⟨h1, h2⟩
    exact hm a List.mem_cons_self h1 h2.symm

/-- The one set lane naming `j` gives it its value. -/
theorem foldl_hit (j : s.Idx) (k : Fin (d 0)) (hk1 : mask (Shape.ofLane k) = 1) (hkj : idxAt idxs h (Shape.ofLane k) = j) :
    ∀ (l : List (Fin (d 0))) (g : Vec F s e), k ∈ l → l.Nodup →
      (∀ k' ∈ l, k' ≠ k → mask (Shape.ofLane k') = 1 → idxAt idxs h (Shape.ofLane k') ≠ j) →
      (l.foldl (lane idxs v mask h) g) j = v (Shape.ofLane k)
  | [], _, hk, _, _ => absurd hk List.not_mem_nil
  | a :: t, g, hk, hnd, hothers => by
    rw [List.foldl_cons]
    have hnd' := List.nodup_cons.mp hnd
    by_cases hak : a = k
    · subst hak
      rw [foldl_miss idxs v mask h j t _ (fun k' hk' => hothers k' (List.mem_cons_of_mem _ hk') (fun e => hnd'.1 (e ▸ hk'))),
        lane_apply, if_pos ⟨hk1, hkj.symm⟩]
    · have hkt : k ∈ t := by
        rcases List.mem_cons.mp hk with e | e
        · exact absurd e.symm hak
        · exact e
      exact foldl_hit j k hk1 hkj t _ hkt hnd'.2 (fun k' hk' => hothers k' (List.mem_cons_of_mem _ hk'))

/-- **The store read at an element a set lane names**, the set lanes' targets pairwise distinct. -/
theorem storeIdx_apply_hit (f : Vec F s e) (j : s.Idx) (k : Fin (d 0)) (hk1 : mask (Shape.ofLane k) = 1)
    (hkj : idxAt idxs h (Shape.ofLane k) = j)
    (hinj : ∀ k', k' ≠ k → mask (Shape.ofLane k') = 1 → idxAt idxs h (Shape.ofLane k') ≠ j) :
    storeIdx f idxs v mask false h j = v (Shape.ofLane k) := by
  rw [storeIdx_eq_foldl]
  exact foldl_hit idxs v mask h j k hk1 hkj _ f (List.mem_finRange k) (List.nodup_finRange _) (fun k' _ => hinj k')

/-- **The store read at an element no set lane names.** -/
theorem storeIdx_apply_miss (f : Vec F s e) (j : s.Idx)
    (hm : ∀ k, mask (Shape.ofLane k) = 1 → idxAt idxs h (Shape.ofLane k) ≠ j) :
    storeIdx f idxs v mask false h j = f j := by
  rw [storeIdx_eq_foldl]
  exact foldl_miss idxs v mask h j _ f (fun k _ => hm k)

end Idealize.ShloMosaic.LibStoreIdx
-- ==== Proof.Scan.lean ====
import proofs.«200183_g76879914599096_cont_sun_c4_587_30_alg».proof.Proof.Common
import proofs.«200183_g76879914599096_cont_sun_c4_587_30_alg».proof.Proof.Fill
import proofs.«200183_g76879914599096_cont_sun_c4_587_30_alg».proof.Proof.LibStoreIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  One column block of a chunk scan, as mathematics. The scan of a chunk of classes [lo, hi) visits the tile's 512
  class words sixteen at a time; for the sixteen words of block `n` it stores a value at (w - lo, column) for each
  word `w` with lo ≤ w < hi (signed). Columns are distinct lanes, so the store read back at an element is decided
  by the one word of that element's column.
-/

variable [FloatOps F]

open Idealize.ShloMosaic.LibStoreIdx

/-- The scan's mask and row vector for sixteen class words, as the kernel computes them. -/
def maskV (lo hi : BitVec 32) (cls : IVec S16 32) : IVec S16 1 :=
  andi (cmpi .sge cls (broadcast S16 lo)) (cmpi .slt cls (broadcast S16 hi))
def rowV (lo hi : BitVec 32) (cls : IVec S16 32) : IVec S16 32 :=
  select (maskV lo hi cls) (subi cls (broadcast S16 lo)) (broadcast S16 0#32)

/-- Word `w` is class `lo + r` of the chunk [lo, hi). -/
def sel (lo hi w : BitVec 32) (r : Nat) : Prop := lo.sle w = true ∧ w.slt hi = true ∧ (w - lo).toNat = r

instance (lo hi w : BitVec 32) (r : Nat) : Decidable (sel lo hi w r) := by unfold sel; infer_instance

omit [FloatOps F] in
theorem maskV_eq_one (lo hi : BitVec 32) (cls : IVec S16 32) (x : S16.Idx) :
    maskV lo hi cls x = 1 ↔ lo.sle (cls x) = true ∧ (cls x).slt hi = true := by
  have andi_ofBool (p q : Bool) : IntOp.andi (BitVec.ofBool p) (BitVec.ofBool q) = BitVec.ofBool (p && q) := by
    cases p <;> cases q <;> decide
  have ofBool_eq_one (p : Bool) : (BitVec.ofBool p = (1 : BitVec 1)) ↔ p = true := by cases p <;> decide
  show IntOp.andi (IntOp.cmpi .sge (cls x) lo) (IntOp.cmpi .slt (cls x) hi) = 1 ↔ _
  simp only [IntOp.cmpi, andi_ofBool, ofBool_eq_one, Bool.and_eq_true]

omit [FloatOps F] in
theorem rowV_of_mask (lo hi : BitVec 32) (cls : IVec S16 32) (x : S16.Idx) (hm : maskV lo hi cls x = 1) :
    rowV lo hi cls x = cls x - lo := by
  show (if maskV lo hi cls x = 1 then IntOp.subi (cls x) lo else 0#32) = _
  rw [if_pos hm]; rfl

omit [FloatOps F] in
theorem rowV_of_not_mask (lo hi : BitVec 32) (cls : IVec S16 32) (x : S16.Idx) (hm : ¬ maskV lo hi cls x = 1) :
    rowV lo hi cls x = 0#32 := by
  show (if maskV lo hi cls x = 1 then IntOp.subi (cls x) lo else 0#32) = _
  rw [if_neg hm]

omit [FloatOps F] in
/-- Within a chunk of 40 classes starting at a non-negative class, the row is below 40. -/
theorem rowV_lt (lo hi : BitVec 32) (hlo : 0 ≤ lo.toInt) (hhi : hi.toInt = lo.toInt + 40) (cls : IVec S16 32) (x : S16.Idx) :
    (rowV lo hi cls x).toNat < 40 := by
  by_cases hm : maskV lo hi cls x = 1
  · rw [rowV_of_mask lo hi cls x hm]
    obtain ⟨h1, h2⟩ := (maskV_eq_one lo hi cls x).mp hm
    rw [BitVec.sle_eq_decide, decide_eq_true_eq] at h1
    rw [BitVec.slt_eq_decide, decide_eq_true_eq] at h2
    rw [BitVec.toNat_sub]
    simp only [BitVec.toInt_eq_toNat_cond] at h1 h2 hlo hhi
    have := (cls x).isLt
    have := lo.isLt
    have := hi.isLt
    omega
  · rw [rowV_of_not_mask lo hi cls x hm]; decide

omit [FloatOps F] in
/-- The rows and columns a scan's store names are inside the chunk buffer. -/
theorem scan_inb (lo hi : BitVec 32) (hlo : 0 ≤ lo.toInt) (hhi : hi.toInt = lo.toInt + 40) (cls colv : IVec S16 32)
    (hcol : ∀ x : S16.Idx, (colv x).toNat < 512) :
    ∀ a x, ((![rowV lo hi cls, colv] : Fin 2 → IVec S16 32) a x).toNat < S40x512.size a := by
  intro a x
  match a with
  | 0 => exact rowV_lt lo hi hlo hhi cls x
  | 1 => exact hcol x

/-- Lane `k` as an index of a sixteen-lane vector. -/
abbrev laneIdx (k : Fin 16) : S16.Idx := Shape.ofLane (d := ![16]) k

omit [FloatOps F] in
theorem laneIdx_val (k : Fin 16) : ((laneIdx k) 0).val = k.val := rfl

/-- **One masked scatter of `val` for the sixteen columns of block `n`, read at an element**: an element of one
    of those columns takes `val` when its column's word is the class of its row; every other element is kept. -/
theorem scatter_apply (g : S40x512.Idx → Elt F .f32) (lo hi : BitVec 32) (cls colv : IVec S16 32) (val : F .f32) (n : Nat)
    (hcol : ∀ x : S16.Idx, (colv x).toNat = 16 * n + (x 0).val)
    (h : ∀ a x, ((![rowV lo hi cls, colv] : Fin 2 → IVec S16 32) a x).toNat < S40x512.size a) (j : S40x512.Idx) :
    storeIdx (F := F) (e := .f32) g ![rowV lo hi cls, colv] (broadcast S16 val) (maskV lo hi cls) false h j
      = if hb : 16 * n ≤ (j 1).val ∧ (j 1).val < 16 * n + 16 then
          (if sel lo hi (cls (laneIdx ⟨(j 1).val - 16 * n, by omega⟩)) (j 0).val then val else g j)
        else g j := by
  have hidx0 : ∀ x : S16.Idx, ((idxAt (s := S40x512) (![rowV lo hi cls, colv] : Fin 2 → IVec S16 32) h x) 0).val = (rowV lo hi cls x).toNat := fun _ => rfl
  have hidx1 : ∀ x : S16.Idx, ((idxAt (s := S40x512) (![rowV lo hi cls, colv] : Fin 2 → IVec S16 32) h x) 1).val = (colv x).toNat := fun _ => rfl
  by_cases hb : 16 * n ≤ (j 1).val ∧ (j 1).val < 16 * n + 16
  · rw [dif_pos hb]
    have hlt : (j 1).val - 16 * n < 16 := by omega
    have hkk : (⟨(j 1).val - 16 * n, by omega⟩ : Fin 16) = ⟨(j 1).val - 16 * n, hlt⟩ := rfl
    by_cases hs : sel lo hi (cls (laneIdx ⟨(j 1).val - 16 * n, hlt⟩)) (j 0).val
    · rw [if_pos hs]
      have hm : maskV lo hi cls (laneIdx ⟨(j 1).val - 16 * n, hlt⟩) = 1 := (maskV_eq_one _ _ _ _).mpr ⟨hs.1, hs.2.1⟩
      refine (storeIdx_apply_hit (F := F) (e := .f32) (d := ![16]) ![rowV lo hi cls, colv] (broadcast S16 val) (maskV lo hi cls) h g j
        (⟨(j 1).val - 16 * n, hlt⟩ : Fin 16) hm ?_ ?_).trans rfl
      · funext a
        match a with
        | 0 => exact Fin.ext (by rw [hidx0, rowV_of_mask _ _ _ _ hm]; exact hs.2.2)
        | 1 => exact Fin.ext (by rw [hidx1, hcol]; show 16 * n + ((j 1).val - 16 * n) = (j 1).val; omega)
      · intro k' hk' _ he
        apply hk'
        have e1 := congrArg (fun i : S40x512.Idx => (i 1).val) he
        simp only [hidx1, hcol] at e1
        have hkv : ((Shape.ofLane (d := ![16]) k') 0).val = k'.val := rfl
        apply Fin.ext
        show k'.val = (j 1).val - 16 * n
        omega
    · rw [if_neg hs]
      refine storeIdx_apply_miss (F := F) (e := .f32) (d := ![16]) ![rowV lo hi cls, colv] (broadcast S16 val) (maskV lo hi cls) h g j ?_
      intro k hk he
      apply hs
      have e1 := congrArg (fun i : S40x512.Idx => (i 1).val) he
      have e0 := congrArg (fun i : S40x512.Idx => (i 0).val) he
      simp only [hidx1, hcol, hidx0] at e1 e0
      have hkv : ((Shape.ofLane (d := ![16]) k) 0).val = k.val := rfl
      have hk' : k = (⟨(j 1).val - 16 * n, hlt⟩ : Fin 16) := Fin.ext (by show k.val = (j 1).val - 16 * n; omega)
      rw [hk'] at hk e0
      obtain ⟨h1, h2⟩ := (maskV_eq_one _ _ _ _).mp hk
      refine ⟨h1, h2, ?_⟩
      rw [rowV_of_mask _ _ _ _ hk] at e0
      exact e0
  · rw [dif_neg hb]
    refine storeIdx_apply_miss (F := F) (e := .f32) (d := ![16]) ![rowV lo hi cls, colv] (broadcast S16 val) (maskV lo hi cls) h g j ?_
    intro k _ he
    apply hb
    have e1 := congrArg (fun i : S40x512.Idx => (i 1).val) he
    simp only [hidx1, hcol] at e1
    have hkv : ((Shape.ofLane (d := ![16]) k) 0).val = k.val := rfl
    have hk16 : k.val < 16 := k.isLt
    constructor <;> omega

end Cert.Proof.KI

end
-- ==== Proof.ScanBlocks.lean ====
import proofs.«200183_g76879914599096_cont_sun_c4_587_30_alg».proof.Proof.Scan

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  A whole chunk scan, block by block. `W col` is the class word of the tile's column `col`. The block of a chunk
  [lo, hi) is one where the column's word is the row's class (`chunkOf`). A scan over a buffer that held zeros,
  or the block of the chunk two before (whose ones the scan clears first), leaves the chunk's block.
-/

variable [FloatOps F]

/-- The chunk's 40 × 512 block. -/
def chunkOf (W : Nat → BitVec 32) (lo hi : BitVec 32) : S40x512.Idx → Elt F .f32 :=
  fun j => if sel lo hi (W (j 1).val) (j 0).val then (oF : F .f32) else (zF : F .f32)

/-- A first scan (nothing to clear) after `n` column blocks, over `g`. -/
def scanTo1 (W : Nat → BitVec 32) (lo hi : BitVec 32) (g : S40x512.Idx → Elt F .f32) (n : Nat) : S40x512.Idx → Elt F .f32 :=
  fun j => if (j 1).val < 16 * n then (if sel lo hi (W (j 1).val) (j 0).val then (oF : F .f32) else g j) else g j

/-- A later scan (clearing the chunk [plo, phi), then setting [lo, hi)) after `n` column blocks, over `g`. -/
def scanTo (W : Nat → BitVec 32) (plo phi lo hi : BitVec 32) (g : S40x512.Idx → Elt F .f32) (n : Nat) : S40x512.Idx → Elt F .f32 :=
  fun j => if (j 1).val < 16 * n then
      (if sel lo hi (W (j 1).val) (j 0).val then (oF : F .f32) else if sel plo phi (W (j 1).val) (j 0).val then (zF : F .f32) else g j)
    else g j

theorem scanTo1_zero (W : Nat → BitVec 32) (lo hi : BitVec 32) (g : S40x512.Idx → Elt F .f32) : scanTo1 W lo hi g 0 = g := by
  funext j; unfold scanTo1; rw [if_neg (by omega)]
theorem scanTo_zero (W : Nat → BitVec 32) (plo phi lo hi : BitVec 32) (g : S40x512.Idx → Elt F .f32) : scanTo W plo phi lo hi g 0 = g := by
  funext j; unfold scanTo; rw [if_neg (by omega)]

/-- All 32 blocks of a first scan over zeros: the chunk's block. -/
theorem scanTo1_full (W : Nat → BitVec 32) (lo hi : BitVec 32) : scanTo1 (F := F) W lo hi (fun _ => (zF : F .f32)) 32 = chunkOf W lo hi := by
  funext j
  have h1 : (j 1).val < 512 := (j 1).isLt
  unfold scanTo1 chunkOf
  rw [if_pos (by omega)]

/-- All 32 blocks of a later scan over the block of the cleared chunk: the new chunk's block. -/
theorem scanTo_full (W : Nat → BitVec 32) (plo phi lo hi : BitVec 32) :
    scanTo (F := F) W plo phi lo hi (chunkOf W plo phi) 32 = chunkOf W lo hi := by
  funext j
  have h1 : (j 1).val < 512 := (j 1).isLt
  unfold scanTo chunkOf
  rw [if_pos (by omega)]
  by_cases hs : sel lo hi (W (j 1).val) (j 0).val
  · rw [if_pos hs, if_pos hs]
  · rw [if_neg hs, if_neg hs]
    by_cases hp : sel plo phi (W (j 1).val) (j 0).val
    · rw [if_pos hp]
    · rw [if_neg hp, if_neg hp]

/-- One block of a first scan. -/
theorem scan1_step (W : Nat → BitVec 32) (lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (h : ∀ a x, ((![rowV lo hi cls, colv] : Fin 2 → IVec S16 32) a x).toNat < S40x512.size a) :
    storeIdx (F := F) (e := .f32) (scanTo1 W lo hi g n) ![rowV lo hi cls, colv] (broadcast S16 (oF : F .f32)) (maskV lo hi cls) false h
      = scanTo1 W lo hi g (n + 1) := by
  funext j
  rw [scatter_apply (scanTo1 W lo hi g n) lo hi cls colv (oF : F .f32) n hcol h j]
  unfold scanTo1
  by_cases hb : 16 * n ≤ (j 1).val ∧ (j 1).val < 16 * n + 16
  · rw [dif_pos hb]
    have hw : cls (laneIdx ⟨(j 1).val - 16 * n, by omega⟩) = W (j 1).val := by
      rw [hcls, laneIdx_val]; exact congrArg W (by show 16 * n + ((j 1).val - 16 * n) = (j 1).val; omega)
    rw [hw, if_neg (by omega : ¬ (j 1).val < 16 * n), if_pos (by omega : (j 1).val < 16 * (n + 1))]
  · rw [dif_neg hb]
    by_cases h1 : (j 1).val < 16 * n
    · rw [if_pos h1, if_pos (by omega : (j 1).val < 16 * (n + 1))]
    · rw [if_neg h1, if_neg (by omega : ¬ (j 1).val < 16 * (n + 1))]

/-- One block of a later scan: the clearing store, then the setting store. -/
theorem scan2_step (W : Nat → BitVec 32) (plo phi lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (hp : ∀ a x, ((![rowV plo phi cls, colv] : Fin 2 → IVec S16 32) a x).toNat < S40x512.size a)
    (h : ∀ a x, ((![rowV lo hi cls, colv] : Fin 2 → IVec S16 32) a x).toNat < S40x512.size a) :
    storeIdx (F := F) (e := .f32)
        (storeIdx (F := F) (e := .f32) (scanTo W plo phi lo hi g n) ![rowV plo phi cls, colv] (broadcast S16 (zF : F .f32)) (maskV plo phi cls) false hp)
        ![rowV lo hi cls, colv] (broadcast S16 (oF : F .f32)) (maskV lo hi cls) false h
      = scanTo W plo phi lo hi g (n + 1) := by
  funext j
  rw [scatter_apply _ lo hi cls colv (oF : F .f32) n hcol h j, scatter_apply (scanTo W plo phi lo hi g n) plo phi cls colv (zF : F .f32) n hcol hp j]
  unfold scanTo
  by_cases hb : 16 * n ≤ (j 1).val ∧ (j 1).val < 16 * n + 16
  · rw [dif_pos hb, dif_pos hb]
    have hw : cls (laneIdx ⟨(j 1).val - 16 * n, by omega⟩) = W (j 1).val := by
      rw [hcls, laneIdx_val]; exact congrArg W (by show 16 * n + ((j 1).val - 16 * n) = (j 1).val; omega)
    rw [hw, if_neg (by omega : ¬ (j 1).val < 16 * n), if_pos (by omega : (j 1).val < 16 * (n + 1))]
  · rw [dif_neg hb, dif_neg hb]
    by_cases h1 : (j 1).val < 16 * n
    · rw [if_pos h1, if_pos (by omega : (j 1).val < 16 * (n + 1))]
    · rw [if_neg h1, if_neg (by omega : ¬ (j 1).val < 16 * (n + 1))]

end Cert.Proof.KI

end
-- ==== Proof.TripLemmas.lean ====
import proofs.«200183_g76879914599096_cont_sun_c4_587_30_alg».proof.Proof.ScanBlocks
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  The pieces a scan trip's run is read through: the tile's class word of a column, the sixteen words a trip loads,
  the sixteen columns it addresses.
-/

variable [FloatOps F]
variable (d : Dev nD) (L : grid0.Coords)

/-- The tile's thread. -/
abbrev thr : Thread nD τ := V d (cV' L) (jV' L)

/-- The class word of the tile's column `col` (zero past the 512 columns: never read). -/
def wordAt (ixc : S512.Idx → BitVec 32) (col : Nat) : BitVec 32 :=
  if h : col < 512 then ixc (ValueIdx.ix1 (n := 512) ⟨col, h⟩) else 0#32

omit [FloatOps F] in
/-- The sixteen words a trip loads are the words of its sixteen columns. -/
theorem load_words (ixc : S512.Idx → BitVec 32) (off : Fin 1 → Nat) (n : Nat) (h0 : off 0 = 16 * n)
    (h : ∀ a, off a + S16.size a ≤ S512.size a) (x : S16.Idx) :
    View.readAt (Elt F) (View.whole (cc0_scratch0 : Ref sig .scVector)) (Rect.unit (s := S512) off S16.size h).toLoadRect ixc x
      = wordAt ixc (16 * n + (x 0).val) := by
  have hx : (x 0).val < 16 := (x 0).isLt
  have hb : off 0 + 16 ≤ 512 := h 0
  rw [View.readAt_apply]
  show ixc ((Rect.unit (s := S512) off S16.size h).toLoadRect.idx x) = _
  unfold wordAt
  rw [dif_pos (by omega)]
  congr 1
  funext a
  match a with
  | ⟨0, _⟩ => exact Fin.ext (by show off 0 + 1 * (x 0).val = 16 * n + (x 0).val; omega)

omit [FloatOps F] in
/-- A sixteen-lane index is its lane. -/
theorem eq_laneIdx (x : S16.Idx) : x = laneIdx (x 0) := by
  funext a; match a with | ⟨0, _⟩ => rfl

omit [FloatOps F] in
theorem pts_b0_acc (f : Buf (Elt F) ((thr d L).loc cc0_scratch1)) :
    (((b0 : Memref sig .scVector .vmem S40x512 .f32).access (Rect.whole S40x512)).loc (thr d L)
        ↦[((b0 : Memref sig .scVector .vmem S40x512 .f32).access (Rect.whole S40x512)).set]{fullShare} f : sProp 𝕄)
      = (b0 : Memref sig .scVector .vmem S40x512 .f32).view.loc (thr d L) ↦{fullShare} f := by
  rw [show ((b0 : Memref sig .scVector .vmem S40x512 .f32).access (Rect.whole S40x512)).set = Finset.univ from Memref.set_access_whole (cc0_scratch1 : Ref sig .scVector)]
omit [FloatOps F] in
theorem pts_b1_acc (f : Buf (Elt F) ((thr d L).loc cc0_scratch2)) :
    (((b1 : Memref sig .scVector .vmem S40x512 .f32).access (Rect.whole S40x512)).loc (thr d L)
        ↦[((b1 : Memref sig .scVector .vmem S40x512 .f32).access (Rect.whole S40x512)).set]{fullShare} f : sProp 𝕄)
      = (b1 : Memref sig .scVector .vmem S40x512 .f32).view.loc (thr d L) ↦{fullShare} f := by
  rw [show ((b1 : Memref sig .scVector .vmem S40x512 .f32).access (Rect.whole S40x512)).set = Finset.univ from Memref.set_access_whole (cc0_scratch2 : Ref sig .scVector)]

omit [FloatOps F] in
theorem b0_write_whole (f w : S40x512.Idx → Elt F .f32) :
    View.write (Elt F) ((b0 : Memref sig .scVector .vmem S40x512 .f32).access (Rect.whole S40x512)) f w Finset.univ = w :=
  Memref.write_access_whole_univ (Elt F) (cc0_scratch1 : Ref sig .scVector) f w
omit [FloatOps F] in
theorem b0_read_whole (f : S40x512.Idx → Elt F .f32) :
    View.read (Elt F) ((b0 : Memref sig .scVector .vmem S40x512 .f32).access (Rect.whole S40x512)) f = f :=
  Memref.read_access_whole (Elt F) (cc0_scratch1 : Ref sig .scVector) f
omit [FloatOps F] in
theorem b1_write_whole (f w : S40x512.Idx → Elt F .f32) :
    View.write (Elt F) ((b1 : Memref sig .scVector .vmem S40x512 .f32).access (Rect.whole S40x512)) f w Finset.univ = w :=
  Memref.write_access_whole_univ (Elt F) (cc0_scratch2 : Ref sig .scVector) f w
omit [FloatOps F] in
theorem b1_read_whole (f : S40x512.Idx → Elt F .f32) :
    View.read (Elt F) ((b1 : Memref sig .scVector .vmem S40x512 .f32).access (Rect.whole S40x512)) f = f :=
  Memref.read_access_whole (Elt F) (cc0_scratch2 : Ref sig .scVector) f

omit [FloatOps F] in
/-- The columns trip `k` of the first scan of buffer 0 addresses: 16 k + lane. -/
theorem cols_t2 : ∀ k : Fin k0_t2_loop.trips, ∀ l : Fin 16, (k0_pay18 k (laneIdx l)).toNat = 16 * k.val + l.val := by decide +kernel
omit [FloatOps F] in
theorem cols_t4 : ∀ k : Fin k0_t4_loop.trips, ∀ l : Fin 16, (k0_pay21 k (laneIdx l)).toNat = 16 * k.val + l.val := by decide +kernel
omit [FloatOps F] in
theorem cols_t6 : ∀ k : Fin k0_t6_loop.trips, ∀ l : Fin 16,
    (k0_pay1 (iota .scVector S16 32 [0] iota_S16_d0_w32_scVector) k (laneIdx l)).toNat = 16 * k.val + l.val := by decide +kernel
omit [FloatOps F] in
theorem cols_t7 : ∀ k : Fin k0_t7_loop.trips, ∀ l : Fin 16,
    (k0_pay6 (iota .scVector S16 32 [0] iota_S16_d0_w32_scVector) k (laneIdx l)).toNat = 16 * k.val + l.val := by decide +kernel
omit [FloatOps F] in
theorem cols_t8 : ∀ k : Fin k0_t8_loop.trips, ∀ l : Fin 16,
    (k0_pay11 (iota .scVector S16 32 [0] iota_S16_d0_w32_scVector) k (laneIdx l)).toNat = 16 * k.val + l.val := by decide +kernel

omit [FloatOps F] in
theorem trips_t2 : k0_t2_loop.trips = 32 := by decide +kernel
omit [FloatOps F] in
theorem trips_t1 : k0_t1_loop.trips = 40 := by decide +kernel
omit [FloatOps F] in
theorem trips_t3 : k0_t3_loop.trips = 40 := by decide +kernel
omit [FloatOps F] in
theorem trips_t4 : k0_t4_loop.trips = 32 := by decide +kernel
omit [FloatOps F] in
theorem trips_t5 : k0_t5_loop.trips = 11 := by decide +kernel
omit [FloatOps F] in
theorem trips_t6 : k0_t6_loop.trips = 32 := by decide +kernel
omit [FloatOps F] in
theorem trips_t7 : k0_t7_loop.trips = 32 := by decide +kernel
omit [FloatOps F] in
theorem trips_t8 : k0_t8_loop.trips = 32 := by decide +kernel

end Cert.Proof.KI

end
-- ==== Proof.FillTrips.lean ====
import proofs.«200183_g76879914599096_cont_sun_c4_587_30_alg».proof.Proof.TripLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The zero fills of the two chunk buffers, a row per trip: 32 stores of sixteen zeros. -/

variable [FloatOps F]
variable (d : Dev nD) (L : grid0.Coords)

/-- Before trip `k` of the fill: the first `k` rows zero. -/
def inv1 (f0 : Buf (Elt F) ((thr d L).loc cc0_scratch1)) (k : Nat) (_ : BitVec 32) : sProp 𝕄 :=
  iprop((b0 : Memref sig .scVector .vmem S40x512 .f32).view.loc (thr d L) ↦{fullShare} zfill f0 k)

theorem t1_trip (f0 : Buf (Elt F) ((thr d L).loc cc0_scratch1)) (k : Fin k0_t1_loop.trips) (acc : BitVec 32) :
    inv1 d L f0 k acc ⊢ wp frame (wpE (defs₀ (F := F)) 𝒱₀ (thr d L) none) Set.univ
      (k0_t1_body L cV (Memref.isWhole_whole _) oV (Memref.isWhole_whole _) sI (Memref.isWhole_whole _) b0 (Memref.isWhole_whole _)
        b1 (Memref.isWhole_whole _) cc0_scratch3 cc0_scratch4 cc0_scoped0 k acc) (inv1 d L f0 (k + 1)) := by
  unfold inv1 k0_t1_body
  iintro Hb
  sl_exec
  sl_step
  simp only [View.writes_cons, View.writes_nil]
  rw [← zrow_zero (zfill f0 ↑k) ↑k]
  rw [B0_write_row_piece (zfill f0 ↑k) (k0_off2 k) ↑k 0 16 (by rw [k0_off2_eq]; rfl) (by rw [k0_off2_eq]; rfl) rfl]
  rw [B0_write_row_piece (zfill f0 ↑k) (k0_off3 k) ↑k 16 32 (by rw [k0_off3_eq]; rfl) (by rw [k0_off3_eq]; rfl) rfl]
  rw [B0_write_row_piece (zfill f0 ↑k) (k0_off4 k) ↑k 32 48 (by rw [k0_off4_eq]; rfl) (by rw [k0_off4_eq]; rfl) rfl]
  rw [B0_write_row_piece (zfill f0 ↑k) (k0_off5 k) ↑k 48 64 (by rw [k0_off5_eq]; rfl) (by rw [k0_off5_eq]; rfl) rfl]
  rw [B0_write_row_piece (zfill f0 ↑k) (k0_off6 k) ↑k 64 80 (by rw [k0_off6_eq]; rfl) (by rw [k0_off6_eq]; rfl) rfl]
  rw [B0_write_row_piece (zfill f0 ↑k) (k0_off7 k) ↑k 80 96 (by rw [k0_off7_eq]; rfl) (by rw [k0_off7_eq]; rfl) rfl]
  rw [B0_write_row_piece (zfill f0 ↑k) (k0_off8 k) ↑k 96 112 (by rw [k0_off8_eq]; rfl) (by rw [k0_off8_eq]; rfl) rfl]
  rw [B0_write_row_piece (zfill f0 ↑k) (k0_off9 k) ↑k 112 128 (by rw [k0_off9_eq]; rfl) (by rw [k0_off9_eq]; rfl) rfl]
  rw [B0_write_row_piece (zfill f0 ↑k) (k0_off10 k) ↑k 128 144 (by rw [k0_off10_eq]; rfl) (by rw [k0_off10_eq]; rfl) rfl]
  rw [B0_write_row_piece (zfill f0 ↑k) (k0_off11 k) ↑k 144 160 (by rw [k0_off11_eq]; rfl) (by rw [k0_off11_eq]; rfl) rfl]
  rw [B0_write_row_piece (zfill f0 ↑k) (k0_off12 k) ↑k 160 176 (by rw [k0_off12_eq]; rfl) (by rw [k0_off12_eq]; rfl) rfl]
  rw [B0_write_row_piece (zfill f0 ↑k) (k0_off13 k) ↑k 176 192 (by rw [k0_off13_eq]; rfl) (by rw [k0_off13_eq]; rfl) rfl]
  rw [B0_write_row_piece (zfill f0 ↑k) (k0_off14 k) ↑k 192 208 (by rw [k0_off14_eq]; rfl) (by rw [k0_off14_eq]; rfl) rfl]
  rw [B0_write_row_piece (zfill f0 ↑k) (k0_off15 k) ↑k 208 224 (by rw [k0_off15_eq]; rfl) (by rw [k0_off15_eq]; rfl) rfl]
  rw [B0_write_row_piece (zfill f0 ↑k) (k0_off16 k) ↑k 224 240 (by rw [k0_off16_eq]; rfl) (by rw [k0_off16_eq]; rfl) rfl]
  rw [B0_write_row_piece (zfill f0 ↑k) (k0_off17 k) ↑k 240 256 (by rw [k0_off17_eq]; rfl) (by rw [k0_off17_eq]; rfl) rfl]
  rw [B0_write_row_piece (zfill f0 ↑k) (k0_off18 k) ↑k 256 272 (by rw [k0_off18_eq]; rfl) (by rw [k0_off18_eq]; rfl) rfl]
  rw [B0_write_row_piece (zfill f0 ↑k) (k0_off19 k) ↑k 272 288 (by rw [k0_off19_eq]; rfl) (by rw [k0_off19_eq]; rfl) rfl]
  rw [B0_write_row_piece (zfill f0 ↑k) (k0_off20 k) ↑k 288 304 (by rw [k0_off20_eq]; rfl) (by rw [k0_off20_eq]; rfl) rfl]
  rw [B0_write_row_piece (zfill f0 ↑k) (k0_off21 k) ↑k 304 320 (by rw [k0_off21_eq]; rfl) (by rw [k0_off21_eq]; rfl) rfl]
  rw [B0_write_row_piece (zfill f0 ↑k) (k0_off22 k) ↑k 320 336 (by rw [k0_off22_eq]; rfl) (by rw [k0_off22_eq]; rfl) rfl]
  rw [B0_write_row_piece (zfill f0 ↑k) (k0_off23 k) ↑k 336 352 (by rw [k0_off23_eq]; rfl) (by rw [k0_off23_eq]; rfl) rfl]
  rw [B0_write_row_piece (zfill f0 ↑k) (k0_off24 k) ↑k 352 368 (by rw [k0_off24_eq]; rfl) (by rw [k0_off24_eq]; rfl) rfl]
  rw [B0_write_row_piece (zfill f0 ↑k) (k0_off25 k) ↑k 368 384 (by rw [k0_off25_eq]; rfl) (by rw [k0_off25_eq]; rfl) rfl]
  rw [B0_write_row_piece (zfill f0 ↑k) (k0_off26 k) ↑k 384 400 (by rw [k0_off26_eq]; rfl) (by rw [k0_off26_eq]; rfl) rfl]
  rw [B0_write_row_piece (zfill f0 ↑k) (k0_off27 k) ↑k 400 416 (by rw [k0_off27_eq]; rfl) (by rw [k0_off27_eq]; rfl) rfl]
  rw [B0_write_row_piece (zfill f0 ↑k) (k0_off28 k) ↑k 416 432 (by rw [k0_off28_eq]; rfl) (by rw [k0_off28_eq]; rfl) rfl]
  rw [B0_write_row_piece (zfill f0 ↑k) (k0_off29 k) ↑k 432 448 (by rw [k0_off29_eq]; rfl) (by rw [k0_off29_eq]; rfl) rfl]
  rw [B0_write_row_piece (zfill f0 ↑k) (k0_off30 k) ↑k 448 464 (by rw [k0_off30_eq]; rfl) (by rw [k0_off30_eq]; rfl) rfl]
  rw [B0_write_row_piece (zfill f0 ↑k) (k0_off31 k) ↑k 464 480 (by rw [k0_off31_eq]; rfl) (by rw [k0_off31_eq]; rfl) rfl]
  rw [B0_write_row_piece (zfill f0 ↑k) (k0_off32 k) ↑k 480 496 (by rw [k0_off32_eq]; rfl) (by rw [k0_off32_eq]; rfl) rfl]
  rw [B0_write_row_piece (zfill f0 ↑k) (k0_off33 k) ↑k 496 512 (by rw [k0_off33_eq]; rfl) (by rw [k0_off33_eq]; rfl) rfl]
  rw [zrow_zfill]
  iexact Hb

/-- Before trip `k` of the fill: the first `k` rows zero. -/
def inv3 (f0 : Buf (Elt F) ((thr d L).loc cc0_scratch2)) (k : Nat) (_ : BitVec 32) : sProp 𝕄 :=
  iprop((b1 : Memref sig .scVector .vmem S40x512 .f32).view.loc (thr d L) ↦{fullShare} zfill f0 k)

theorem t3_trip (f0 : Buf (Elt F) ((thr d L).loc cc0_scratch2)) (k : Fin k0_t3_loop.trips) (acc : BitVec 32) :
    inv3 d L f0 k acc ⊢ wp frame (wpE (defs₀ (F := F)) 𝒱₀ (thr d L) none) Set.univ
      (k0_t3_body L cV (Memref.isWhole_whole _) oV (Memref.isWhole_whole _) sI (Memref.isWhole_whole _) b0 (Memref.isWhole_whole _)
        b1 (Memref.isWhole_whole _) cc0_scratch3 cc0_scratch4 cc0_scoped0 k acc) (inv3 d L f0 (k + 1)) := by
  unfold inv3 k0_t3_body
  iintro Hb
  sl_exec
  sl_step
  simp only [View.writes_cons, View.writes_nil]
  rw [← zrow_zero (zfill f0 ↑k) ↑k]
  rw [B1_write_row_piece (zfill f0 ↑k) (k0_off36 k) ↑k 0 16 (by rw [k0_off36_eq]; rfl) (by rw [k0_off36_eq]; rfl) rfl]
  rw [B1_write_row_piece (zfill f0 ↑k) (k0_off37 k) ↑k 16 32 (by rw [k0_off37_eq]; rfl) (by rw [k0_off37_eq]; rfl) rfl]
  rw [B1_write_row_piece (zfill f0 ↑k) (k0_off38 k) ↑k 32 48 (by rw [k0_off38_eq]; rfl) (by rw [k0_off38_eq]; rfl) rfl]
  rw [B1_write_row_piece (zfill f0 ↑k) (k0_off39 k) ↑k 48 64 (by rw [k0_off39_eq]; rfl) (by rw [k0_off39_eq]; rfl) rfl]
  rw [B1_write_row_piece (zfill f0 ↑k) (k0_off40 k) ↑k 64 80 (by rw [k0_off40_eq]; rfl) (by rw [k0_off40_eq]; rfl) rfl]
  rw [B1_write_row_piece (zfill f0 ↑k) (k0_off41 k) ↑k 80 96 (by rw [k0_off41_eq]; rfl) (by rw [k0_off41_eq]; rfl) rfl]
  rw [B1_write_row_piece (zfill f0 ↑k) (k0_off42 k) ↑k 96 112 (by rw [k0_off42_eq]; rfl) (by rw [k0_off42_eq]; rfl) rfl]
  rw [B1_write_row_piece (zfill f0 ↑k) (k0_off43 k) ↑k 112 128 (by rw [k0_off43_eq]; rfl) (by rw [k0_off43_eq]; rfl) rfl]
  rw [B1_write_row_piece (zfill f0 ↑k) (k0_off44 k) ↑k 128 144 (by rw [k0_off44_eq]; rfl) (by rw [k0_off44_eq]; rfl) rfl]
  rw [B1_write_row_piece (zfill f0 ↑k) (k0_off45 k) ↑k 144 160 (by rw [k0_off45_eq]; rfl) (by rw [k0_off45_eq]; rfl) rfl]
  rw [B1_write_row_piece (zfill f0 ↑k) (k0_off46 k) ↑k 160 176 (by rw [k0_off46_eq]; rfl) (by rw [k0_off46_eq]; rfl) rfl]
  rw [B1_write_row_piece (zfill f0 ↑k) (k0_off47 k) ↑k 176 192 (by rw [k0_off47_eq]; rfl) (by rw [k0_off47_eq]; rfl) rfl]
  rw [B1_write_row_piece (zfill f0 ↑k) (k0_off48 k) ↑k 192 208 (by rw [k0_off48_eq]; rfl) (by rw [k0_off48_eq]; rfl) rfl]
  rw [B1_write_row_piece (zfill f0 ↑k) (k0_off49 k) ↑k 208 224 (by rw [k0_off49_eq]; rfl) (by rw [k0_off49_eq]; rfl) rfl]
  rw [B1_write_row_piece (zfill f0 ↑k) (k0_off50 k) ↑k 224 240 (by rw [k0_off50_eq]; rfl) (by rw [k0_off50_eq]; rfl) rfl]
  rw [B1_write_row_piece (zfill f0 ↑k) (k0_off51 k) ↑k 240 256 (by rw [k0_off51_eq]; rfl) (by rw [k0_off51_eq]; rfl) rfl]
  rw [B1_write_row_piece (zfill f0 ↑k) (k0_off52 k) ↑k 256 272 (by rw [k0_off52_eq]; rfl) (by rw [k0_off52_eq]; rfl) rfl]
  rw [B1_write_row_piece (zfill f0 ↑k) (k0_off53 k) ↑k 272 288 (by rw [k0_off53_eq]; rfl) (by rw [k0_off53_eq]; rfl) rfl]
  rw [B1_write_row_piece (zfill f0 ↑k) (k0_off54 k) ↑k 288 304 (by rw [k0_off54_eq]; rfl) (by rw [k0_off54_eq]; rfl) rfl]
  rw [B1_write_row_piece (zfill f0 ↑k) (k0_off55 k) ↑k 304 320 (by rw [k0_off55_eq]; rfl) (by rw [k0_off55_eq]; rfl) rfl]
  rw [B1_write_row_piece (zfill f0 ↑k) (k0_off56 k) ↑k 320 336 (by rw [k0_off56_eq]; rfl) (by rw [k0_off56_eq]; rfl) rfl]
  rw [B1_write_row_piece (zfill f0 ↑k) (k0_off57 k) ↑k 336 352 (by rw [k0_off57_eq]; rfl) (by rw [k0_off57_eq]; rfl) rfl]
  rw [B1_write_row_piece (zfill f0 ↑k) (k0_off58 k) ↑k 352 368 (by rw [k0_off58_eq]; rfl) (by rw [k0_off58_eq]; rfl) rfl]
  rw [B1_write_row_piece (zfill f0 ↑k) (k0_off59 k) ↑k 368 384 (by rw [k0_off59_eq]; rfl) (by rw [k0_off59_eq]; rfl) rfl]
  rw [B1_write_row_piece (zfill f0 ↑k) (k0_off60 k) ↑k 384 400 (by rw [k0_off60_eq]; rfl) (by rw [k0_off60_eq]; rfl) rfl]
  rw [B1_write_row_piece (zfill f0 ↑k) (k0_off61 k) ↑k 400 416 (by rw [k0_off61_eq]; rfl) (by rw [k0_off61_eq]; rfl) rfl]
  rw [B1_write_row_piece (zfill f0 ↑k) (k0_off62 k) ↑k 416 432 (by rw [k0_off62_eq]; rfl) (by rw [k0_off62_eq]; rfl) rfl]
  rw [B1_write_row_piece (zfill f0 ↑k) (k0_off63 k) ↑k 432 448 (by rw [k0_off63_eq]; rfl) (by rw [k0_off63_eq]; rfl) rfl]
  rw [B1_write_row_piece (zfill f0 ↑k) (k0_off64 k) ↑k 448 464 (by rw [k0_off64_eq]; rfl) (by rw [k0_off64_eq]; rfl) rfl]
  rw [B1_write_row_piece (zfill f0 ↑k) (k0_off65 k) ↑k 464 480 (by rw [k0_off65_eq]; rfl) (by rw [k0_off65_eq]; rfl) rfl]
  rw [B1_write_row_piece (zfill f0 ↑k) (k0_off66 k) ↑k 480 496 (by rw [k0_off66_eq]; rfl) (by rw [k0_off66_eq]; rfl) rfl]
  rw [B1_write_row_piece (zfill f0 ↑k) (k0_off67 k) ↑k 496 512 (by rw [k0_off67_eq]; rfl) (by rw [k0_off67_eq]; rfl) rfl]
  rw [zrow_zfill]
  iexact Hb

/-- Forty rows of zeros: the whole buffer. -/
theorem zfill_full (f : S40x512.Idx → Elt F .f32) : zfill f 40 = fun _ => (zF : F .f32) := by
  funext j
  have h0 : (j 0).val < 40 := (j 0).isLt
  unfold zfill; rw [if_pos h0]

end Cert.Proof.KI

end
-- ==== Proof.ScanTrips.lean ====
import proofs.«200183_g76879914599096_cont_sun_c4_587_30_alg».proof.Proof.TripLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-! ## The first scan of buffer 0 (chunk 0, classes 0 … 39) -/

/-- Before trip `k`: the index scratch at the tile's words, buffer 0 scanned in its first `k` column blocks. -/
def inv2 (ixc : Buf (Elt F) ((thr d L).loc cc0_scratch0)) (g0 : Buf (Elt F) ((thr d L).loc cc0_scratch1)) (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo1 (wordAt ixc) 0#32 40#32 g0 k)

omit [FloatOps F] in
theorem hcol_t2 (k : Fin k0_t2_loop.trips) (x : S16.Idx) : (k0_pay18 k x).toNat = 16 * k.val + (x 0).val := by
  have := cols_t2 k (x 0); rwa [← eq_laneIdx x] at this

theorem chk_t2 (k : Fin k0_t2_loop.trips) (v33 : IVec S16 32) : k0_chk1 (k0_pay18 k) (k0_pay20 (F := F) v33) :=
  scan_inb 0#32 40#32 (by decide) (by decide) v33 (k0_pay18 k) (fun x => by
    have hk : k.val < 32 := lt_of_lt_of_eq k.isLt trips_t2
    have hx : (x 0).val < 16 := (x 0).isLt
    rw [hcol_t2]; omega)

theorem t2_trip (ixc : Buf (Elt F) ((thr d L).loc cc0_scratch0)) (g0 : Buf (Elt F) ((thr d L).loc cc0_scratch1))
    (k : Fin k0_t2_loop.trips) (acc : BitVec 32) :
    inv2 d L ixc g0 k acc ⊢ wp frame (wpE (defs₀ (F := F)) 𝒱₀ (thr d L) none) Set.univ
      (k0_t2_body L cV (Memref.isWhole_whole _) oV (Memref.isWhole_whole _) sI (Memref.isWhole_whole _) b0 (Memref.isWhole_whole _)
        b1 (Memref.isWhole_whole _) cc0_scratch3 cc0_scratch4 cc0_scoped0 k acc) (inv2 d L ixc g0 (k + 1)) := by
  unfold inv2 k0_t2_body
  iintro ⟨Hs, Hb⟩
  sl_exec (disch := exact chk_t2 (F := F) _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole]
  sl_step
  isplitl [Hs]; · iexact Hs
  rw [← scan1_step (F := F) (wordAt ixc) 0#32 40#32 g0 k
    (View.readAt (Elt F) (View.whole (cc0_scratch0 : Ref sig .scVector)) (Rect.unit (s := S512) (k0_off34 k) S16.size (k0_off34_inb k)).toLoadRect ixc)
    (k0_pay18 k) (fun x => load_words (F := F) ixc (k0_off34 k) k (by rw [k0_off34_eq]; rfl) (k0_off34_inb k) x) (hcol_t2 k) (chk_t2 (F := F) k _)]
  iexact Hb

/-! ## The first scan of buffer 1 (chunk 1, classes 40 … 79) -/

/-- Before trip `k`: the index scratch at the tile's words, buffer 1 scanned in its first `k` column blocks. -/
def inv4 (ixc : Buf (Elt F) ((thr d L).loc cc0_scratch0)) (g0 : Buf (Elt F) ((thr d L).loc cc0_scratch2)) (k : Nat) (_ : BitVec 32) : sProp 𝕄 :=
  iprop(((sI : Memref sig .scVector .vmem S512 .i32).view.loc (thr d L) ↦{fullShare} ixc)
    ∗ (b1 : Memref sig .scVector .vmem S40x512 .f32).view.loc (thr d L) ↦{fullShare} scanTo1 (wordAt ixc) 40#32 80#32 g0 k)

omit [FloatOps F] in
theorem hcol_t4 (k : Fin k0_t4_loop.trips) (x : S16.Idx) : (k0_pay21 k x).toNat = 16 * k.val + (x 0).val := by
  have := cols_t4 k (x 0); rwa [← eq_laneIdx x] at this

theorem chk_t4 (k : Fin k0_t4_loop.trips) (v33 : IVec S16 32) : k0_chk2 (k0_pay21 k) (k0_pay23 (F := F) v33) :=
  scan_inb 40#32 80#32 (by decide) (by decide) v33 (k0_pay21 k) (fun x => by
    have hk : k.val < 32 := lt_of_lt_of_eq k.isLt trips_t4
    have hx : (x 0).val < 16 := (x 0).isLt
    rw [hcol_t4]; omega)

theorem t4_trip (ixc : Buf (Elt F) ((thr d L).loc cc0_scratch0)) (g0 : Buf (Elt F) ((thr d L).loc cc0_scratch2))
    (k : Fin k0_t4_loop.trips) (acc : BitVec 32) :
    inv4 d L ixc g0 k acc ⊢ wp frame (wpE (defs₀ (F := F)) 𝒱₀ (thr d L) none) Set.univ
      (k0_t4_body L cV (Memref.isWhole_whole _) oV (Memref.isWhole_whole _) sI (Memref.isWhole_whole _) b0 (Memref.isWhole_whole _)
        b1 (Memref.isWhole_whole _) cc0_scratch3 cc0_scratch4 cc0_scoped0 k acc) (inv4 d L ixc g0 (k + 1)) := by
  unfold inv4 k0_t4_body
  iintro ⟨Hs, Hb⟩
  sl_exec (disch := exact chk_t4 (F := F) _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  rw [b1_write_whole, b1_read_whole]
  sl_step
  isplitl [Hs]; · iexact Hs
  rw [← scan1_step (F := F) (wordAt ixc) 40#32 80#32 g0 k
    (View.readAt (Elt F) (View.whole (cc0_scratch0 : Ref sig .scVector)) (Rect.unit (s := S512) (k0_off68 k) S16.size (k0_off68_inb k)).toLoadRect ixc)
    (k0_pay21 k) (fun x => load_words (F := F) ixc (k0_off68 k) k (by rw [k0_off68_eq]; rfl) (k0_off68_inb k) x) (hcol_t4 k) (chk_t4 (F := F) k _)]
  iexact Hb

end Cert.Proof.KI

end
-- ==== Proof.PayForms.lean ====
/-
  The scans' payloads as the mask and row vectors of a chunk. Chunk `q` of the classes is [40 q, 40 q + 40), for
  q below 25; a word lies in it at row `r` exactly when it is the number 40 q + r. Each mask / row payload of the
  program is the mask / row vector of one chunk: the first scans at chunks 0 and 1, trip `k` of the main loop clearing
  chunk 2 k and setting chunk 2 k + 2 in the first buffer, clearing 2 k + 1 and setting 2 k + 3 in the second, the
  last scan clearing chunk 22 and setting chunk 24.
-/
import proofs.«200183_g76879914599096_cont_sun_c4_587_30_alg».proof.Proof.Scan
import proofs.«200183_g76879914599096_cont_sun_c4_587_30_alg».proof.Proof.Fill

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The chunks' bounds -/

/-- Chunk `q` is the classes [40 q, 40 q + 40). -/
def cLo (q : Nat) : BitVec 32 := BitVec.ofNat 32 (40 * q)
def cHi (q : Nat) : BitVec 32 := BitVec.ofNat 32 (40 * q + 40)

omit [FloatOps F] in
/-- A chunk starts at a non-negative class. -/
theorem cLo_nonneg (q : Nat) (hq : q < 25) : 0 ≤ (cLo q).toInt := by
  unfold cLo
  have e1 : (40 * q) % 2 ^ 32 = 40 * q := Nat.mod_eq_of_lt (by omega)
  simp only [BitVec.toInt_eq_toNat_cond, BitVec.toNat_ofNat, e1]
  omega

omit [FloatOps F] in
/-- A chunk is 40 classes long, read signed. -/
theorem cHi_toInt (q : Nat) (hq : q < 25) : (cHi q).toInt = (cLo q).toInt + 40 := by
  unfold cLo cHi
  have e1 : (40 * q) % 2 ^ 32 = 40 * q := Nat.mod_eq_of_lt (by omega)
  have e2 : (40 * q + 40) % 2 ^ 32 = 40 * q + 40 := Nat.mod_eq_of_lt (by omega)
  simp only [BitVec.toInt_eq_toNat_cond, BitVec.toNat_ofNat, e1, e2]
  omega

omit [FloatOps F] in
/-- A word is class `r` of chunk `q` exactly when it is the number 40 q + r. -/
theorem sel_iff (q r : Nat) (hq : q < 25) (hr : r < 40) (w : BitVec 32) :
    sel (cLo q) (cHi q) w r ↔ w = BitVec.ofNat 32 (40 * q + r) := by
  unfold sel cLo cHi
  have e1 : (40 * q) % 2 ^ 32 = 40 * q := Nat.mod_eq_of_lt (by omega)
  have e2 : (40 * q + 40) % 2 ^ 32 = 40 * q + 40 := Nat.mod_eq_of_lt (by omega)
  have e3 : (40 * q + r) % 2 ^ 32 = 40 * q + r := Nat.mod_eq_of_lt (by omega)
  rw [BitVec.sle_eq_decide, decide_eq_true_eq, BitVec.slt_eq_decide, decide_eq_true_eq]
  constructor
  · rintro ⟨h1, h2, h3⟩
    apply BitVec.eq_of_toNat_eq
    rw [BitVec.toNat_sub] at h3
    simp only [BitVec.toInt_eq_toNat_cond, BitVec.toNat_ofNat, e1, e2, e3] at h1 h2 h3 ⊢
    have := w.isLt
    omega
  · rintro rfl
    rw [BitVec.toNat_sub]
    simp only [BitVec.toInt_eq_toNat_cond, BitVec.toNat_ofNat, e1, e2, e3]
    omega

/-! ## The first scans and the last: literal bounds -/

theorem pay19_eq (v : Vec F S16 .i32) : k0_pay19 (F := F) v = maskV (cLo 0) (cHi 0) v := rfl
theorem pay20_eq (v : Vec F S16 .i32) : k0_pay20 (F := F) v = rowV (cLo 0) (cHi 0) v := rfl
theorem pay22_eq (v : Vec F S16 .i32) : k0_pay22 (F := F) v = maskV (cLo 1) (cHi 1) v := rfl
theorem pay23_eq (v : Vec F S16 .i32) : k0_pay23 (F := F) v = rowV (cLo 1) (cHi 1) v := rfl
theorem pay12_eq (v : Vec F S16 .i32) : k0_pay12 (F := F) v = maskV (cLo 22) (cHi 22) v := rfl
theorem pay13_eq (v : Vec F S16 .i32) : k0_pay13 (F := F) v = rowV (cLo 22) (cHi 22) v := rfl
theorem pay14_eq (v : Vec F S16 .i32) : k0_pay14 (F := F) v = maskV (cLo 24) (cHi 24) v := rfl
theorem pay15_eq (v : Vec F S16 .i32) : k0_pay15 (F := F) v = rowV (cLo 24) (cHi 24) v := rfl

/-! ## The main loop's trips: the bounds computed from the trip's number -/

omit [FloatOps F] in
/-- Trip `k` clears chunk 2 k of the first buffer: ((2 k + 2 + 0) · 40) − 80 = 40 · (2 k). -/
theorem lo_clr0 : ∀ k5 : Fin k0_t5_loop.trips,
    Scalar.subi (Scalar.muli (Scalar.addi (Scalar.addi (Scalar.muli 2#32 (Scf.iv 0#32 1#32 k5)) 2#32) 0#32) 40#32) 80#32
      = cLo (2 * k5.val) := by decide +kernel
omit [FloatOps F] in
theorem hi_clr0 : ∀ k5 : Fin k0_t5_loop.trips,
    Scalar.addi (Scalar.subi (Scalar.muli (Scalar.addi (Scalar.addi (Scalar.muli 2#32 (Scf.iv 0#32 1#32 k5)) 2#32) 0#32) 40#32) 80#32) 40#32
      = cHi (2 * k5.val) := by decide +kernel
omit [FloatOps F] in
/-- Trip `k` sets chunk 2 k + 2 of the first buffer: (2 k + 2 + 0) · 40. -/
theorem lo_set0 : ∀ k5 : Fin k0_t5_loop.trips,
    Scalar.muli (Scalar.addi (Scalar.addi (Scalar.muli 2#32 (Scf.iv 0#32 1#32 k5)) 2#32) 0#32) 40#32
      = cLo (2 * k5.val + 2) := by decide +kernel
omit [FloatOps F] in
theorem hi_set0 : ∀ k5 : Fin k0_t5_loop.trips,
    Scalar.addi (Scalar.muli (Scalar.addi (Scalar.addi (Scalar.muli 2#32 (Scf.iv 0#32 1#32 k5)) 2#32) 0#32) 40#32) 40#32
      = cHi (2 * k5.val + 2) := by decide +kernel
omit [FloatOps F] in
/-- Trip `k` clears chunk 2 k + 1 of the second buffer: ((2 k + 2 + 1) · 40) − 80 = 40 · (2 k + 1). -/
theorem lo_clr1 : ∀ k5 : Fin k0_t5_loop.trips,
    Scalar.subi (Scalar.muli (Scalar.addi (Scalar.addi (Scalar.muli 2#32 (Scf.iv 0#32 1#32 k5)) 2#32) 1#32) 40#32) 80#32
      = cLo (2 * k5.val + 1) := by decide +kernel
omit [FloatOps F] in
theorem hi_clr1 : ∀ k5 : Fin k0_t5_loop.trips,
    Scalar.addi (Scalar.subi (Scalar.muli (Scalar.addi (Scalar.addi (Scalar.muli 2#32 (Scf.iv 0#32 1#32 k5)) 2#32) 1#32) 40#32) 80#32) 40#32
      = cHi (2 * k5.val + 1) := by decide +kernel
omit [FloatOps F] in
/-- Trip `k` sets chunk 2 k + 3 of the second buffer: (2 k + 2 + 1) · 40. -/
theorem lo_set1 : ∀ k5 : Fin k0_t5_loop.trips,
    Scalar.muli (Scalar.addi (Scalar.addi (Scalar.muli 2#32 (Scf.iv 0#32 1#32 k5)) 2#32) 1#32) 40#32
      = cLo (2 * k5.val + 3) := by decide +kernel
omit [FloatOps F] in
theorem hi_set1 : ∀ k5 : Fin k0_t5_loop.trips,
    Scalar.addi (Scalar.muli (Scalar.addi (Scalar.addi (Scalar.muli 2#32 (Scf.iv 0#32 1#32 k5)) 2#32) 1#32) 40#32) 40#32
      = cHi (2 * k5.val + 3) := by decide +kernel

theorem pay2_eq (k5 : Fin k0_t5_loop.trips) (v : Vec F S16 .i32) :
    k0_pay2 (F := F) 0#32 k5 v = maskV (cLo (2 * k5.val)) (cHi (2 * k5.val)) v := by
  rw [← lo_clr0 k5, ← hi_clr0 k5]; rfl
theorem pay3_eq (k5 : Fin k0_t5_loop.trips) (v : Vec F S16 .i32) :
    k0_pay3 (F := F) 0#32 k5 v = rowV (cLo (2 * k5.val)) (cHi (2 * k5.val)) v := by
  rw [← lo_clr0 k5, ← hi_clr0 k5]; rfl
theorem pay4_eq (k5 : Fin k0_t5_loop.trips) (v : Vec F S16 .i32) :
    k0_pay4 (F := F) 0#32 k5 v = maskV (cLo (2 * k5.val + 2)) (cHi (2 * k5.val + 2)) v := by
  rw [← lo_set0 k5, ← hi_set0 k5]; rfl
theorem pay5_eq (k5 : Fin k0_t5_loop.trips) (v : Vec F S16 .i32) :
    k0_pay5 (F := F) 0#32 k5 v = rowV (cLo (2 * k5.val + 2)) (cHi (2 * k5.val + 2)) v := by
  rw [← lo_set0 k5, ← hi_set0 k5]; rfl
theorem pay7_eq (k5 : Fin k0_t5_loop.trips) (v : Vec F S16 .i32) :
    k0_pay7 (F := F) 0#32 k5 v = maskV (cLo (2 * k5.val + 1)) (cHi (2 * k5.val + 1)) v := by
  rw [← lo_clr1 k5, ← hi_clr1 k5]; rfl
theorem pay8_eq (k5 : Fin k0_t5_loop.trips) (v : Vec F S16 .i32) :
    k0_pay8 (F := F) 0#32 k5 v = rowV (cLo (2 * k5.val + 1)) (cHi (2 * k5.val + 1)) v := by
  rw [← lo_clr1 k5, ← hi_clr1 k5]; rfl
theorem pay9_eq (k5 : Fin k0_t5_loop.trips) (v : Vec F S16 .i32) :
    k0_pay9 (F := F) 0#32 k5 v = maskV (cLo (2 * k5.val + 3)) (cHi (2 * k5.val + 3)) v := by
  rw [← lo_set1 k5, ← hi_set1 k5]; rfl
theorem pay10_eq (k5 : Fin k0_t5_loop.trips) (v : Vec F S16 .i32) :
    k0_pay10 (F := F) 0#32 k5 v = rowV (cLo (2 * k5.val + 3)) (cHi (2 * k5.val + 3)) v := by
  rw [← lo_set1 k5, ← hi_set1 k5]; rfl

/-! ## The stored values -/

theorem pay16_eq : k0_pay16 (F := F) = broadcast S16 (zF : F .f32) := rfl
theorem pay17_eq : k0_pay17 (F := F) = broadcast S16 (oF : F .f32) := rfl

end Cert.Proof.KI

end
-- ==== Proof.ScanSteps.lean ====
import proofs.«200183_g76879914599096_cont_sun_c4_587_30_alg».proof.Proof.ScanBlocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-- One block of a later scan, the stores' masks, rows and values given up to equations. -/
theorem scan2_step' (W : Nat → BitVec 32) (plo phi lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (mp : IVec S16 1) (rp : IVec S16 32) (mc : IVec S16 1) (rc : IVec S16 32) (zs os : S16.Idx → Elt F .f32)
    (hmp : mp = maskV plo phi cls) (hrp : rp = rowV plo phi cls) (hmc : mc = maskV lo hi cls) (hrc : rc = rowV lo hi cls)
    (hzs : zs = broadcast S16 (zF : F .f32)) (hos : os = broadcast S16 (oF : F .f32))
    (hp : ∀ a x, ((![rp, colv] : Fin 2 → IVec S16 32) a x).toNat < S40x512.size a)
    (h : ∀ a x, ((![rc, colv] : Fin 2 → IVec S16 32) a x).toNat < S40x512.size a) :
    storeIdx (F := F) (e := .f32)
        (storeIdx (F := F) (e := .f32) (scanTo W plo phi lo hi g n) ![rp, colv] zs mp false hp)
        ![rc, colv] os mc false h
      = scanTo W plo phi lo hi g (n + 1) := by
  subst hmp hrp hmc hrc hzs hos
  exact scan2_step W plo phi lo hi g n cls colv hcls hcol hp h

end Cert.Proof.KI

end
-- ==== Proof.ScanTrips2.lean ====
import proofs.«200183_g76879914599096_cont_sun_c4_587_30_alg».proof.Proof.TripLemmas
import proofs.«200183_g76879914599096_cont_sun_c4_587_30_alg».proof.Proof.PayForms
import proofs.«200183_g76879914599096_cont_sun_c4_587_30_alg».proof.Proof.ScanSteps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The scans that clear one chunk's ones and set the next: two masked stores per column block. -/

variable [FloatOps F]
variable (d : Dev nD) (L : grid0.Coords)

/-! ## The main loop's scan of buffer 0: trip k5 clears chunk 2 k5 and sets chunk 2 k5 + 2 -/

/-- Before trip `k`: the index scratch at the tile's words, the buffer scanned in its first `k` column blocks. -/
def inv6 (ixc : Buf (Elt F) ((thr d L).loc cc0_scratch0)) (g0 : Buf (Elt F) ((thr d L).loc cc0_scratch1)) (k5 : Fin k0_t5_loop.trips) (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo (wordAt ixc) (cLo (2 * k5.val)) (cHi (2 * k5.val)) (cLo (2 * k5.val + 2)) (cHi (2 * k5.val + 2)) g0 k)

omit [FloatOps F] in
theorem hcol_t6 (k : Fin k0_t6_loop.trips) (x : S16.Idx) : (k0_pay1 (iota .scVector S16 32 [0] iota_S16_d0_w32_scVector) k x).toNat = 16 * k.val + (x 0).val := by
  have := cols_t6 k (x 0); rwa [← eq_laneIdx x] at this

omit [FloatOps F] in
theorem hcol512_t6 (k : Fin k0_t6_loop.trips) (x : S16.Idx) : (k0_pay1 (iota .scVector S16 32 [0] iota_S16_d0_w32_scVector) k x).toNat < 512 := by
  have hk : k.val < 32 := lt_of_lt_of_eq k.isLt trips_t6
  have hx : (x 0).val < 16 := (x 0).isLt
  rw [hcol_t6]; omega

theorem chkp_t6 (k5 : Fin k0_t5_loop.trips) (k : Fin k0_t6_loop.trips) (v : IVec S16 32) : k0_chk3 (k0_pay1 (iota .scVector S16 32 [0] iota_S16_d0_w32_scVector) k) (k0_pay3 (F := F) 0#32 k5 v) := by
  show ∀ a x, ((![k0_pay3 (F := F) 0#32 k5 v, k0_pay1 (iota .scVector S16 32 [0] iota_S16_d0_w32_scVector) k] : Fin 2 → IVec S16 32) a x).toNat < S40x512.size a
  rw [pay3_eq k5]
  exact scan_inb _ _ (cLo_nonneg _ (by have := lt_of_lt_of_eq k5.isLt trips_t5; omega)) (cHi_toInt _ (by have := lt_of_lt_of_eq k5.isLt trips_t5; omega)) v _ (hcol512_t6 k)

theorem chkc_t6 (k5 : Fin k0_t5_loop.trips) (k : Fin k0_t6_loop.trips) (v : IVec S16 32) : k0_chk4 (k0_pay1 (iota .scVector S16 32 [0] iota_S16_d0_w32_scVector) k) (k0_pay5 (F := F) 0#32 k5 v) := by
  show ∀ a x, ((![k0_pay5 (F := F) 0#32 k5 v, k0_pay1 (iota .scVector S16 32 [0] iota_S16_d0_w32_scVector) k] : Fin 2 → IVec S16 32) a x).toNat < S40x512.size a
  rw [pay5_eq k5]
  exact scan_inb _ _ (cLo_nonneg _ (by have := lt_of_lt_of_eq k5.isLt trips_t5; omega)) (cHi_toInt _ (by have := lt_of_lt_of_eq k5.isLt trips_t5; omega)) v _ (hcol512_t6 k)

theorem t6_trip (ixc : Buf (Elt F) ((thr d L).loc cc0_scratch0)) (g0 : Buf (Elt F) ((thr d L).loc cc0_scratch1)) (k5 : Fin k0_t5_loop.trips)
    (k : Fin k0_t6_loop.trips) (acc : BitVec 32) :
    inv6 d L ixc g0 k5 k acc ⊢ wp frame (wpE (defs₀ (F := F)) 𝒱₀ (thr d L) none) Set.univ
      (k0_t6_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 k acc) (inv6 d L ixc g0 k5 (k + 1)) := by
  unfold inv6 k0_t6_body
  iintro ⟨Hs, Hb⟩
  sl_exec (disch := exact chkp_t6 (F := F) k5 _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  sl_exec (disch := exact chkc_t6 (F := F) k5 _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole, b0_write_whole, b0_read_whole]
  sl_step
  isplitl [Hs]; · iexact Hs
  delta t6_trip.sl.v63 t6_trip.sl.v72 t6_trip.sl.v81
  rw [← scan2_step' (F := F) (wordAt ixc) (cLo (2 * k5.val)) (cHi (2 * k5.val)) (cLo (2 * k5.val + 2)) (cHi (2 * k5.val + 2)) g0 k
    (View.readAt (Elt F) (View.whole (cc0_scratch0 : Ref sig .scVector)) (Rect.unit (s := S512) (k0_off71 k) S16.size (k0_off71_inb k)).toLoadRect ixc)
    (k0_pay1 (iota .scVector S16 32 [0] iota_S16_d0_w32_scVector) k) (fun x => load_words (F := F) ixc (k0_off71 k) k (by rw [k0_off71_eq]; rfl) (k0_off71_inb k) x) (hcol_t6 k)
    _ _ _ _ _ _ (pay2_eq k5 _) (pay3_eq k5 _) (pay4_eq k5 _) (pay5_eq k5 _) pay16_eq pay17_eq
    (chkp_t6 (F := F) k5 k _) (chkc_t6 (F := F) k5 k _)]
  iexact Hb

/-! ## The main loop's scan of buffer 1: trip k5 clears chunk 2 k5 + 1 and sets chunk 2 k5 + 3 -/

/-- Before trip `k`: the index scratch at the tile's words, the buffer scanned in its first `k` column blocks. -/
def inv7 (ixc : Buf (Elt F) ((thr d L).loc cc0_scratch0)) (g0 : Buf (Elt F) ((thr d L).loc cc0_scratch2)) (k5 : Fin k0_t5_loop.trips) (k : Nat) (_ : BitVec 32) : sProp 𝕄 :=
  iprop(((sI : Memref sig .scVector .vmem S512 .i32).view.loc (thr d L) ↦{fullShare} ixc)
    ∗ (b1 : Memref sig .scVector .vmem S40x512 .f32).view.loc (thr d L) ↦{fullShare} scanTo (wordAt ixc) (cLo (2 * k5.val + 1)) (cHi (2 * k5.val + 1)) (cLo (2 * k5.val + 3)) (cHi (2 * k5.val + 3)) g0 k)

omit [FloatOps F] in
theorem hcol_t7 (k : Fin k0_t7_loop.trips) (x : S16.Idx) : (k0_pay6 (iota .scVector S16 32 [0] iota_S16_d0_w32_scVector) k x).toNat = 16 * k.val + (x 0).val := by
  have := cols_t7 k (x 0); rwa [← eq_laneIdx x] at this

omit [FloatOps F] in
theorem hcol512_t7 (k : Fin k0_t7_loop.trips) (x : S16.Idx) : (k0_pay6 (iota .scVector S16 32 [0] iota_S16_d0_w32_scVector) k x).toNat < 512 := by
  have hk : k.val < 32 := lt_of_lt_of_eq k.isLt trips_t7
  have hx : (x 0).val < 16 := (x 0).isLt
  rw [hcol_t7]; omega

theorem chkp_t7 (k5 : Fin k0_t5_loop.trips) (k : Fin k0_t7_loop.trips) (v : IVec S16 32) : k0_chk5 (k0_pay6 (iota .scVector S16 32 [0] iota_S16_d0_w32_scVector) k) (k0_pay8 (F := F) 0#32 k5 v) := by
  show ∀ a x, ((![k0_pay8 (F := F) 0#32 k5 v, k0_pay6 (iota .scVector S16 32 [0] iota_S16_d0_w32_scVector) k] : Fin 2 → IVec S16 32) a x).toNat < S40x512.size a
  rw [pay8_eq k5]
  exact scan_inb _ _ (cLo_nonneg _ (by have := lt_of_lt_of_eq k5.isLt trips_t5; omega)) (cHi_toInt _ (by have := lt_of_lt_of_eq k5.isLt trips_t5; omega)) v _ (hcol512_t7 k)

theorem chkc_t7 (k5 : Fin k0_t5_loop.trips) (k : Fin k0_t7_loop.trips) (v : IVec S16 32) : k0_chk6 (k0_pay6 (iota .scVector S16 32 [0] iota_S16_d0_w32_scVector) k) (k0_pay10 (F := F) 0#32 k5 v) := by
  show ∀ a x, ((![k0_pay10 (F := F) 0#32 k5 v, k0_pay6 (iota .scVector S16 32 [0] iota_S16_d0_w32_scVector) k] : Fin 2 → IVec S16 32) a x).toNat < S40x512.size a
  rw [pay10_eq k5]
  exact scan_inb _ _ (cLo_nonneg _ (by have := lt_of_lt_of_eq k5.isLt trips_t5; omega)) (cHi_toInt _ (by have := lt_of_lt_of_eq k5.isLt trips_t5; omega)) v _ (hcol512_t7 k)

theorem t7_trip (ixc : Buf (Elt F) ((thr d L).loc cc0_scratch0)) (g0 : Buf (Elt F) ((thr d L).loc cc0_scratch2)) (k5 : Fin k0_t5_loop.trips)
    (k : Fin k0_t7_loop.trips) (acc : BitVec 32) :
    inv7 d L ixc g0 k5 k acc ⊢ wp frame (wpE (defs₀ (F := F)) 𝒱₀ (thr d L) none) Set.univ
      (k0_t7_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 k acc) (inv7 d L ixc g0 k5 (k + 1)) := by
  unfold inv7 k0_t7_body
  iintro ⟨Hs, Hb⟩
  sl_exec (disch := exact chkp_t7 (F := F) k5 _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  sl_exec (disch := exact chkc_t7 (F := F) k5 _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  rw [b1_write_whole, b1_read_whole, b1_write_whole, b1_read_whole]
  sl_step
  isplitl [Hs]; · iexact Hs
  delta t7_trip.sl.v63 t7_trip.sl.v72 t7_trip.sl.v81
  rw [← scan2_step' (F := F) (wordAt ixc) (cLo (2 * k5.val + 1)) (cHi (2 * k5.val + 1)) (cLo (2 * k5.val + 3)) (cHi (2 * k5.val + 3)) g0 k
    (View.readAt (Elt F) (View.whole (cc0_scratch0 : Ref sig .scVector)) (Rect.unit (s := S512) (k0_off72 k) S16.size (k0_off72_inb k)).toLoadRect ixc)
    (k0_pay6 (iota .scVector S16 32 [0] iota_S16_d0_w32_scVector) k) (fun x => load_words (F := F) ixc (k0_off72 k) k (by rw [k0_off72_eq]; rfl) (k0_off72_inb k) x) (hcol_t7 k)
    _ _ _ _ _ _ (pay7_eq k5 _) (pay8_eq k5 _) (pay9_eq k5 _) (pay10_eq k5 _) pay16_eq pay17_eq
    (chkp_t7 (F := F) k5 k _) (chkc_t7 (F := F) k5 k _)]
  iexact Hb

/-! ## The last scan of buffer 0: clears chunk 22 and sets chunk 24 -/

/-- Before trip `k`: the index scratch at the tile's words, the buffer scanned in its first `k` column blocks. -/
def inv8 (ixc : Buf (Elt F) ((thr d L).loc cc0_scratch0)) (g0 : Buf (Elt F) ((thr d L).loc cc0_scratch1))  (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo (wordAt ixc) (cLo (22)) (cHi (22)) (cLo (24)) (cHi (24)) g0 k)

omit [FloatOps F] in
theorem hcol_t8 (k : Fin k0_t8_loop.trips) (x : S16.Idx) : (k0_pay11 (iota .scVector S16 32 [0] iota_S16_d0_w32_scVector) k x).toNat = 16 * k.val + (x 0).val := by
  have := cols_t8 k (x 0); rwa [← eq_laneIdx x] at this

omit [FloatOps F] in
theorem hcol512_t8 (k : Fin k0_t8_loop.trips) (x : S16.Idx) : (k0_pay11 (iota .scVector S16 32 [0] iota_S16_d0_w32_scVector) k x).toNat < 512 := by
  have hk : k.val < 32 := lt_of_lt_of_eq k.isLt trips_t8
  have hx : (x 0).val < 16 := (x 0).isLt
  rw [hcol_t8]; omega

theorem chkp_t8  (k : Fin k0_t8_loop.trips) (v : IVec S16 32) : k0_chk7 (k0_pay11 (iota .scVector S16 32 [0] iota_S16_d0_w32_scVector) k) (k0_pay13 (F := F) v) := by
  show ∀ a x, ((![k0_pay13 (F := F) v, k0_pay11 (iota .scVector S16 32 [0] iota_S16_d0_w32_scVector) k] : Fin 2 → IVec S16 32) a x).toNat < S40x512.size a
  rw [pay13_eq]
  exact scan_inb _ _ (cLo_nonneg _ (by omega)) (cHi_toInt _ (by omega)) v _ (hcol512_t8 k)

theorem chkc_t8  (k : Fin k0_t8_loop.trips) (v : IVec S16 32) : k0_chk8 (k0_pay11 (iota .scVector S16 32 [0] iota_S16_d0_w32_scVector) k) (k0_pay15 (F := F) v) := by
  show ∀ a x, ((![k0_pay15 (F := F) v, k0_pay11 (iota .scVector S16 32 [0] iota_S16_d0_w32_scVector) k] : Fin 2 → IVec S16 32) a x).toNat < S40x512.size a
  rw [pay15_eq]
  exact scan_inb _ _ (cLo_nonneg _ (by omega)) (cHi_toInt _ (by omega)) v _ (hcol512_t8 k)

theorem t8_trip (ixc : Buf (Elt F) ((thr d L).loc cc0_scratch0)) (g0 : Buf (Elt F) ((thr d L).loc cc0_scratch1))
    (k : Fin k0_t8_loop.trips) (acc : BitVec 32) :
    inv8 d L ixc g0  k acc ⊢ wp frame (wpE (defs₀ (F := F)) 𝒱₀ (thr d L) none) Set.univ
      (k0_t8_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector)  k acc) (inv8 d L ixc g0  (k + 1)) := by
  unfold inv8 k0_t8_body
  iintro ⟨Hs, Hb⟩
  sl_exec (disch := exact chkp_t8 (F := F)  _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  sl_exec (disch := exact chkc_t8 (F := F)  _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole, b0_write_whole, b0_read_whole]
  sl_step
  isplitl [Hs]; · iexact Hs
  delta t8_trip.sl.v35 t8_trip.sl.v44 t8_trip.sl.v53
  rw [← scan2_step' (F := F) (wordAt ixc) (cLo (22)) (cHi (22)) (cLo (24)) (cHi (24)) g0 k
    (View.readAt (Elt F) (View.whole (cc0_scratch0 : Ref sig .scVector)) (Rect.unit (s := S512) (k0_off74 k) S16.size (k0_off74_inb k)).toLoadRect ixc)
    (k0_pay11 (iota .scVector S16 32 [0] iota_S16_d0_w32_scVector) k) (fun x => load_words (F := F) ixc (k0_off74 k) k (by rw [k0_off74_eq]; rfl) (k0_off74_inb k) x) (hcol_t8 k)
    _ _ _ _ _ _ (pay12_eq _) (pay13_eq _) (pay14_eq _) (pay15_eq _) pay16_eq pay17_eq
    (chkp_t8 (F := F)  k _) (chkc_t8 (F := F)  k _)]
  iexact Hb

end Cert.Proof.KI

end
-- ==== Proof.Chunks.lean ====
/-
  The tile's band of the transposed array, by rows: rows [a, a + n) of the tile's 512 columns as a set of indices
  stated without any in-bounds evidence; every unit rectangle at those offsets and sizes is that set, so the band is
  rows [0, 1000), and each chunk's destination is its 40 rows; consecutive row ranges split and join. The tile's 512
  class words are the set of the slice the body copies them from.
-/
import proofs.«200183_g76879914599096_cont_sun_c4_587_30_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Rows [a, a + n) of the tile's 512 columns. -/
def rowsSet (L : grid0.Coords) (a n : Nat) : Finset S1000x16384.Idx :=
  Finset.univ.filter fun i => a ≤ (i 0).val ∧ (i 0).val < a + n ∧ colOff L ≤ (i 1).val ∧ (i 1).val < colOff L + 512

theorem mem_rowsSet {L : grid0.Coords} {a n : Nat} {i : S1000x16384.Idx} :
    i ∈ rowsSet L a n ↔ a ≤ (i 0).val ∧ (i 0).val < a + n ∧ colOff L ≤ (i 1).val ∧ (i 1).val < colOff L + 512 := by
  unfold rowsSet; simp only [Finset.mem_filter, Finset.mem_univ, true_and]

/-- A unit rectangle from row a, n rows, over the tile's columns is those rows' set, whatever its in-bounds evidence. -/
theorem rows_unit (L : grid0.Coords) {a n : Nat} {off size : Fin S1000x16384.rank → Nat} (h : ∀ x, off x + size x ≤ S1000x16384.size x)
    (h0 : off 0 = a) (h1 : off 1 = colOff L) (s0 : size 0 = n) (s1 : size 1 = 512) :
    (Rect.unit (s := S1000x16384) off size h).set = rowsSet L a n := by
  ext i
  rw [Rect.mem_set_unit, mem_rowsSet]
  constructor
  · intro H
    have H0 := H 0
    have H1 := H 1
    rw [h0, s0] at H0; rw [h1, s1] at H1
    exact ⟨H0.1, H0.2, H1.1, H1.2⟩
  · rintro ⟨a1, a2, b1, b2⟩ x
    match x with
    | 0 => rw [h0, s0]; exact ⟨a1, a2⟩
    | 1 => rw [h1, s1]; exact ⟨b1, b2⟩

/-- The band is all 1000 rows. -/
theorem oBand_eq (L : grid0.Coords) : oBand L = rowsSet L 0 1000 := rows_unit L _ rfl rfl rfl rfl

/-! ## The chunks' destinations, as the body slices them -/

theorem view_off35 (L : grid0.Coords) :
    ((oV.slice (Rect.unit (s := S1000x16384) (k0_off35 L) S40x512.size (k0_off35_inb L)) (fun _ => rfl)).view.set) = rowsSet L 0 40 := by
  show ((View.whole (main_v0_scv : Ref sig .scVector)).slice _).set = _
  rw [View.set_slice_whole]
  exact rows_unit L _ (by rw [k0_off35_eq]; rfl) (by rw [k0_off35_eq]; rfl) rfl rfl

theorem view_off69 (L : grid0.Coords) :
    ((oV.slice (Rect.unit (s := S1000x16384) (k0_off69 L) S40x512.size (k0_off69_inb L)) (fun _ => rfl)).view.set) = rowsSet L 40 40 := by
  show ((View.whole (main_v0_scv : Ref sig .scVector)).slice _).set = _
  rw [View.set_slice_whole]
  exact rows_unit L _ (by rw [k0_off69_eq]; rfl) (by rw [k0_off69_eq]; rfl) rfl rfl

theorem view_off73 (L : grid0.Coords) :
    ((oV.slice (Rect.unit (s := S1000x16384) (k0_off73 L) S40x512.size (k0_off73_inb L)) (fun _ => rfl)).view.set) = rowsSet L 960 40 := by
  show ((View.whole (main_v0_scv : Ref sig .scVector)).slice _).set = _
  rw [View.set_slice_whole]
  exact rows_unit L _ (by rw [k0_off73_eq]; rfl) (by rw [k0_off73_eq]; rfl) rfl rfl

theorem view_off75 (L : grid0.Coords) :
    ((oV.slice (Rect.unit (s := S1000x16384) (k0_off75 L) S40x512.size (k0_off75_inb L)) (fun _ => rfl)).view.set) = rowsSet L 920 40 := by
  show ((View.whole (main_v0_scv : Ref sig .scVector)).slice _).set = _
  rw [View.set_slice_whole]
  exact rows_unit L _ (by rw [k0_off75_eq]; rfl) (by rw [k0_off75_eq]; rfl) rfl rfl

theorem view_off70 (L : grid0.Coords) (k5 : Fin k0_t5_loop.trips) (r : Fin 2) :
    ((oV.slice (Rect.unit (s := S1000x16384) (k0_off70 L k5 (BitVec.ofNat 32 r.val)) S40x512.size (k0_off70_inb L k5 r)) (fun _ => rfl)).view.set)
      = rowsSet L (80 * k5.val + 40 * r.val + 80) 40 := by
  show ((View.whole (main_v0_scv : Ref sig .scVector)).slice _).set = _
  rw [View.set_slice_whole]
  exact rows_unit L _ (by rw [k0_off70_eq]; rfl) (by rw [k0_off70_eq]; rfl) rfl rfl

/-- The tile's class words are the set of the slice they are copied from. -/
theorem cSet_eq (L : grid0.Coords) :
    cSet L = ((cV.slice (Rect.unit (s := S16384) (k0_off1 L) S512.size (k0_off1_inb L)) (fun _ => rfl)).view.set) := by
  symm
  show ((View.whole (main_arg0_scv : Ref sig .scVector)).slice _).set = _
  rw [View.set_slice_whole]
  ext i
  rw [cSet, cRect, Rect.mem_set_unit, Rect.mem_set_unit, k0_off1_eq]
  exact Iff.rfl

/-! ## Consecutive row ranges split and join -/

theorem rowsSet_add (L : grid0.Coords) (a n1 n2 : Nat) : rowsSet L a (n1 + n2) = rowsSet L a n1 ∪ rowsSet L (a + n1) n2 := by
  ext i
  simp only [Finset.mem_union, mem_rowsSet]
  omega

theorem rowsSet_disjoint (L : grid0.Coords) (a n1 n2 : Nat) : Disjoint (rowsSet L a n1) (rowsSet L (a + n1) n2) :=
  Finset.disjoint_left.mpr fun i h1 h2 => by
    rw [mem_rowsSet] at h1 h2
    omega

theorem rows_split (d : Dev nD) (L : grid0.Coords) (a n1 n2 : Nat) (f : Buf (Elt F) (oLoc d)) :
    (oLoc d ↦[rowsSet L a (n1 + n2)]{fullShare} f : sProp 𝕄)
      = iprop((oLoc d ↦[rowsSet L a n1]{fullShare} f) ∗ oLoc d ↦[rowsSet L (a + n1) n2]{fullShare} f) := by
  rw [rowsSet_add]
  have hu : (oLoc d ↦[rowsSet L a n1 ∪ rowsSet L (a + n1) n2]{fullShare} f : sProp 𝕄)
      ⊣⊢ iprop((oLoc d ↦[rowsSet L a n1]{fullShare} f) ∗ oLoc d ↦[rowsSet L (a + n1) n2]{fullShare} f) :=
    pointsTo_union (rowsSet_disjoint L a n1 n2)
  exact BI.equiv_iff.mp ⟨hu.1, hu.2⟩

end Cert.Proof.KI

end
-- ==== Proof.ChunkSpec.lean ====
/-
  A chunk's block is the transposed one-hot array on the chunk's rows. Row `r` of chunk `q` is row 40 q + r of the
  whole array, and a column's word is class `r` of the chunk exactly when it is the number 40 q + r: the block's entry
  and the array's entry are one where the same condition holds, zero elsewhere.
-/
import proofs.«200183_g76879914599096_cont_sun_c4_587_30_alg».proof.Proof.ScanBlocks
import proofs.«200183_g76879914599096_cont_sun_c4_587_30_alg».proof.Proof.PayForms
import proofs.«200183_g76879914599096_cont_sun_c4_587_30_alg».proof.Proof.Spec

noncomputable section

namespace Cert.Proof.KI

open Cert.KernelIdeal Cert.KernelIdeal.Gen

open Idealize.ShloMosaic

variable {F : FTy → Type} [FloatOps F]

/-- Entry `j` of chunk `q`'s block is entry `i` of the transposed one-hot array of the class words `x`, when `i` is row
    40 q + (row of `j`) and the block's column of `j` holds the class word of `i`'s column. -/
theorem chunk_oneHot (x : Cert.Spec.SC.Idx → BitVec 32) (W : Nat → BitVec 32) (c0 q : Nat) (hq : q < 25)
    (j : S40x512.Idx) (i : S1000x16384.Idx) (hi0 : (i 0).val = 40 * q + (j 0).val) (hi1 : (i 1).val = c0 + (j 1).val)
    (hW : W (j 1).val = x (Cert.Spec.colIdx i)) :
    chunkOf (F := F) W (cLo q) (cHi q) j = Cert.Spec.oneHotT (F := F) x i := by
  unfold chunkOf Cert.Spec.oneHotT
  rw [hW]
  have hj0 : (j 0).val < 40 := (j 0).isLt
  by_cases h : x (Cert.Spec.colIdx i) = BitVec.ofNat 32 (i 0).val
  · have hs : sel (cLo q) (cHi q) (x (Cert.Spec.colIdx i)) (j 0).val :=
      (sel_iff q (j 0).val hq hj0 _).mpr (by rw [h, hi0])
    exact (if_pos hs).trans (if_pos h).symm
  · have hs : ¬ sel (cLo q) (cHi q) (x (Cert.Spec.colIdx i)) (j 0).val :=
      fun hs => h (by rw [(sel_iff q (j 0).val hq hj0 _).mp hs, hi0])
    exact (if_neg hs).trans (if_neg h).symm

end Cert.Proof.KI

end
-- ==== Proof.Landing.lean ====
/-
  What a landed transfer leaves. A chunk's 40 × 512 block copied onto rows [40 q, 40 q + 40) of the tile's columns
  leaves there the transposed one-hot array of the class words: the element at (row, column) is the block's element
  at (row − 40 q, column − first column), and that block entry is the array's entry. The tile's 512 class words,
  copied into the tile's memory, are the words of the tile's columns: word `col` is word (first column + col) of the
  class indices.
-/
import proofs.«200183_g76879914599096_cont_sun_c4_587_30_alg».proof.Proof.TripLemmas
import proofs.«200183_g76879914599096_cont_sun_c4_587_30_alg».proof.Proof.Chunks
import proofs.«200183_g76879914599096_cont_sun_c4_587_30_alg».proof.Proof.ChunkSpec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]
variable (m : (ℓ : Loc nD τ sig) → Buf (Elt F) ℓ)

/-! ## A chunk landed on its rows -/

/-- The rows a chunk's block is copied onto, written with any payload that is the chunk's block, hold the transposed
    one-hot array of the class words. -/
theorem landed_core (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩))
    (w : S40x512.Idx → Elt F .f32) (hw : w = chunkOf (F := F) W (cLo q) (cHi q)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo [⟨Rect.whole S40x512, w⟩]) : sProp 𝕄)
      = oLoc d ↦[rowsSet L (40 * q) 40]{fullShare} (Cert.Spec.oneHotT (F := F) (m (cLoc d))) := by
  subst hw
  have hset : ((oV : Memref sig .scVector .hbm S1000x16384 .f32).slice (Rect.unit (s := S1000x16384) off S40x512.size inb) (fun _ => rfl)).view.set = rowsSet L (40 * q) 40 := by
    show ((View.whole (main_v0_scv : Ref sig .scVector)).slice _).set = _
    rw [View.set_slice_whole]
    exact rows_unit L _ h0 h1 rfl rfl
  rw [hset]
  show (oLoc d ↦[rowsSet L (40 * q) 40]{fullShare} _ : sProp 𝕄) = _
  refine pointsTo_congr (fun i hi => ?_)
  rw [mem_rowsSet] at hi
  obtain ⟨a1, a2, b1, b2⟩ := hi
  -- the block's index under `i`
  have hy0 : (i 0).val - 40 * q < 40 := by omega
  have hy1 : (i 1).val - colOff L < 512 := by omega
  have hemb : (Rect.unit (s := S1000x16384) off S40x512.size inb).emb
      (ValueIdx.ix2 (⟨(i 0).val - 40 * q, hy0⟩ : Fin 40) (⟨(i 1).val - colOff L, hy1⟩ : Fin 512)) = i := by
    funext a
    match a with
    | ⟨0, _⟩ => exact Fin.ext (by show off 0 + 1 * ((i 0).val - 40 * q) = (i 0).val; omega)
    | ⟨1, _⟩ => exact Fin.ext (by show off 1 + 1 * ((i 1).val - colOff L) = (i 1).val; omega)
  -- through the slice's view the written contents read, at that index, the block's entry
  have key : ((oV : Memref sig .scVector .hbm S1000x16384 .f32).slice (Rect.unit (s := S1000x16384) off S40x512.size inb) (fun _ => rfl)).view.read (Elt F) (((oV : Memref sig .scVector .hbm S1000x16384 .f32).slice (Rect.unit (s := S1000x16384) off S40x512.size inb) (fun _ => rfl)).view.writes (Elt F) fo [⟨Rect.whole S40x512, chunkOf (F := F) W (cLo q) (cHi q)⟩]) (ValueIdx.ix2 (⟨(i 0).val - 40 * q, hy0⟩ : Fin 40) (⟨(i 1).val - colOff L, hy1⟩ : Fin 512))
      = chunkOf (F := F) W (cLo q) (cHi q) (ValueIdx.ix2 (⟨(i 0).val - 40 * q, hy0⟩ : Fin 40) (⟨(i 1).val - colOff L, hy1⟩ : Fin 512)) := by
    have e := View.read_writes_cons_emb (s := S40x512) (Val := Elt F)
      (((oV : Memref sig .scVector .hbm S1000x16384 .f32).slice (Rect.unit (s := S1000x16384) off S40x512.size inb) (fun _ => rfl)).view : View sig .scVector .hbm S40x512 .f32) fo (Rect.whole S40x512)
      (chunkOf (F := F) W (cLo q) (cHi q)) [] (ValueIdx.ix2 (⟨(i 0).val - 40 * q, hy0⟩ : Fin 40) (⟨(i 1).val - colOff L, hy1⟩ : Fin 512))
    rw [Rect.emb_whole_apply S40x512] at e
    exact e
  generalize ((oV : Memref sig .scVector .hbm S1000x16384 .f32).slice (Rect.unit (s := S1000x16384) off S40x512.size inb) (fun _ => rfl)).view.writes (Elt F) fo [⟨Rect.whole S40x512, chunkOf (F := F) W (cLo q) (cHi q)⟩] = g at key ⊢
  -- the view reads contents at the rectangle's element
  have key' : g ((Rect.unit (s := S1000x16384) off S40x512.size inb).emb (ValueIdx.ix2 (⟨(i 0).val - 40 * q, hy0⟩ : Fin 40) (⟨(i 1).val - colOff L, hy1⟩ : Fin 512)))
      = chunkOf (F := F) W (cLo q) (cHi q) (ValueIdx.ix2 (⟨(i 0).val - 40 * q, hy0⟩ : Fin 40) (⟨(i 1).val - colOff L, hy1⟩ : Fin 512)) := key
  rw [hemb] at key'
  refine key'.trans ?_
  refine chunk_oneHot (F := F) (m (cLoc d)) W (colOff L) q hq _ i ?_ ?_ ?_
  · show (i 0).val = 40 * q + ((i 0).val - 40 * q); omega
  · show (i 1).val = colOff L + ((i 1).val - colOff L); omega
  · show W ((i 1).val - colOff L) = _
    rw [hW _ hy1]
    refine congrArg (m (cLoc d)) (funext fun a => ?_)
    match a with
    | ⟨0, _⟩ => exact Fin.ext (by show colOff L + ((i 1).val - colOff L) = (i 1).val; omega)

/-- The first buffer's chunk, landed. -/
theorem landed_chunk (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo
          [⟨Rect.whole S40x512, ReadAs.same.apply (View.read (Elt F) (b0 : Memref sig .scVector .vmem S40x512 .f32).view (chunkOf (F := F) W (cLo q) (cHi q)))⟩]) : sProp 𝕄)
      = oLoc d ↦[rowsSet L (40 * q) 40]{fullShare} (Cert.Spec.oneHotT (F := F) (m (cLoc d))) :=
  landed_core m d L q hq off inb h0 h1 fo W hW _ rfl

/-- The second buffer's chunk, landed. -/
theorem landed_chunk1 (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo
          [⟨Rect.whole S40x512, ReadAs.same.apply (View.read (Elt F) (b1 : Memref sig .scVector .vmem S40x512 .f32).view (chunkOf (F := F) W (cLo q) (cHi q)))⟩]) : sProp 𝕄)
      = oLoc d ↦[rowsSet L (40 * q) 40]{fullShare} (Cert.Spec.oneHotT (F := F) (m (cLoc d))) :=
  landed_core m d L q hq off inb h0 h1 fo W hW _ rfl

/-! ## The tile's words, landed -/

/-- The slice of the class indices a tile copies its words from. -/
abbrev cSl (L : grid0.Coords) : Memref sig .scVector .hbm S512 .i32 :=
  (cV : Memref sig .scVector .hbm S16384 .i32).slice (Rect.unit (s := S16384) (k0_off1 L) S512.size (k0_off1_inb L)) (fun _ => rfl)

/-- Word `col` of the tile's copy is word (first column + col) of the class indices. -/
theorem words_landed (d : Dev nD) (L : grid0.Coords) (fs : Buf (Elt F) ((thr d L).loc cc0_scratch0)) (col : Nat) (h : col < 512) :
    wordAt (View.write (Elt F) (sI : Memref sig .scVector .vmem S512 .i32).view fs
        (ReadAs.same.apply (View.read (Elt F) (cSl L).view (m (cLoc d)))) Finset.univ) col
      = m (cLoc d) (ValueIdx.ix1 (n := 16384) ⟨colOff L + col, by have := colOff_le L; omega⟩) := by
  have hwr : View.write (Elt F) (sI : Memref sig .scVector .vmem S512 .i32).view fs
      (ReadAs.same.apply (View.read (Elt F) (cSl L).view (m (cLoc d)))) Finset.univ
        = View.read (Elt F) (cSl L).view (m (cLoc d)) :=
    View.write_whole_univ (cc0_scratch0 : Ref sig .scVector) fs _
  rw [hwr]
  unfold wordAt
  rw [dif_pos h]
  show m (cLoc d) ((Rect.unit (s := S16384) (k0_off1 L) S512.size (k0_off1_inb L)).emb (ValueIdx.ix1 (n := 512) ⟨col, h⟩)) = _
  refine congrArg (m (cLoc d)) (funext fun a => ?_)
  match a with
  | ⟨0, _⟩ =>
    refine Fin.ext ?_
    show k0_off1 L 0 + 1 * col = colOff L + col
    rw [k0_off1_eq]
    show 1024 * (L 1).val + 512 * (L 0).val + 1 * col = colOff L + col
    unfold colOff
    omega

end Cert.Proof.KI

end
-- ==== Proof.MainTrip.lean ====
import proofs.«200183_g76879914599096_cont_sun_c4_587_30_alg».proof.Proof.TripLemmas
import proofs.«200183_g76879914599096_cont_sun_c4_587_30_alg».proof.Proof.PayForms
import proofs.«200183_g76879914599096_cont_sun_c4_587_30_alg».proof.Proof.ScanSteps
import proofs.«200183_g76879914599096_cont_sun_c4_587_30_alg».proof.Proof.ScanTrips2
import proofs.«200183_g76879914599096_cont_sun_c4_587_30_alg».proof.Proof.Chunks
import proofs.«200183_g76879914599096_cont_sun_c4_587_30_alg».proof.Proof.Landing

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  One trip of the main loop. Entering trip k5, chunk 2 k5 is in flight from buffer 0 and chunk 2 k5 + 1 from buffer 1;
  rows 0 … 80 k5 of the tile's band hold the transposed one-hot array already, rows from 80 k5 + 80 on are untouched.
  The trip waits for buffer 0's transfer, scans it for chunk 2 k5 + 2 and sends it, then the same for buffer 1 and
  chunk 2 k5 + 3.
-/

variable (m : (ℓ : Loc nD τ sig) → Buf (Elt F) ℓ)
variable [FloatOps F]
variable (d : Dev nD) (L : grid0.Coords)

/-- The tile's band of the transposed one-hot array. -/
abbrev GG : Buf (Elt F) (oLoc d) := Cert.Spec.oneHotT (F := F) (m (cLoc d))

/-- Chunk `q` in flight from buffer 0: when it lands, rows 40 q … 40 q + 40 of the band hold the one-hot array and
    the buffer is back, holding the chunk's block. -/
def FlA (W : Nat → BitVec 32) (q : Nat) : sProp 𝕄 :=
  Transfers.Flight (countersEmb (U := UU)) (thr d L) (SemLoc.dma cc0_scratch3.sem) (default : HIx 1) 655360
    iprop((oLoc d ↦[rowsSet L (40 * q) 40]{fullShare} GG m d)
      ∗ ((b0 : Memref sig .scVector .vmem S40x512 .f32).view.loc (thr d L) ↦[(b0 : Memref sig .scVector .vmem S40x512 .f32).view.set]{fullShare} chunkOf (F := F) W (cLo q) (cHi q)))
/-- The same from buffer 1. -/
def FlB (W : Nat → BitVec 32) (q : Nat) : sProp 𝕄 :=
  Transfers.Flight (countersEmb (U := UU)) (thr d L) (SemLoc.dma cc0_scratch4.sem) (default : HIx 1) 655360
    iprop((oLoc d ↦[rowsSet L (40 * q) 40]{fullShare} GG m d)
      ∗ ((b1 : Memref sig .scVector .vmem S40x512 .f32).view.loc (thr d L) ↦[(b1 : Memref sig .scVector .vmem S40x512 .f32).view.set]{fullShare} chunkOf (F := F) W (cLo q) (cHi q)))

/-- The main loop's invariant before trip `k5`. -/
def inv5 (O : CellTallies nD τ sig (HIx 1)) (W : Waits sig (HIx 1)) (ixc : Buf (Elt F) ((thr d L).loc cc0_scratch0)) (fo : Buf (Elt F) (oLoc d))
    (k5 : Nat) (_ : BitVec 32) : sProp 𝕄 :=
  iprop(levAts (K (F := F)).L (K (F := F)).lev
    ∗ ((sI : Memref sig .scVector .vmem S512 .i32).view.loc (thr d L) ↦{fullShare} ixc)
    ∗ FlA m d L (wordAt ixc) (2 * k5) ∗ FlB m d L (wordAt ixc) (2 * k5 + 1)
    ∗ (oLoc d ↦[rowsSet L 0 (80 * k5)]{fullShare} GG m d)
    ∗ (oLoc d ↦[rowsSet L (80 * k5 + 80) (920 - 80 * k5)]{fullShare} fo)
    ∗ ∃ W', ⌜∀ p ∈ W', p ∈ W ∨ p.2 = none⌝ ∗ owes (thr d L) O W')

omit [FloatOps F] in
theorem b0_own (f : Buf (Elt F) ((thr d L).loc cc0_scratch1)) :
    ((b0 : Memref sig .scVector .vmem S40x512 .f32).view.loc (thr d L) ↦[(b0 : Memref sig .scVector .vmem S40x512 .f32).view.set]{fullShare} f : sProp 𝕄)
      = (b0 : Memref sig .scVector .vmem S40x512 .f32).view.loc (thr d L) ↦{fullShare} f := by
  rw [show (b0 : Memref sig .scVector .vmem S40x512 .f32).view.set = Finset.univ from View.set_whole (cc0_scratch1 : Ref sig .scVector)]
omit [FloatOps F] in
theorem b1_own (f : Buf (Elt F) ((thr d L).loc cc0_scratch2)) :
    ((b1 : Memref sig .scVector .vmem S40x512 .f32).view.loc (thr d L) ↦[(b1 : Memref sig .scVector .vmem S40x512 .f32).view.set]{fullShare} f : sProp 𝕄)
      = (b1 : Memref sig .scVector .vmem S40x512 .f32).view.loc (thr d L) ↦{fullShare} f := by
  rw [show (b1 : Memref sig .scVector .vmem S40x512 .f32).view.set = Finset.univ from View.set_whole (cc0_scratch2 : Ref sig .scVector)]

/-- The destination of the main loop's transfer `r` of trip `k5`. -/
abbrev sl70 (k5 : Fin k0_t5_loop.trips) (r : Fin 2) : Memref sig .scVector .hbm S40x512 .f32 :=
  (oV : Memref sig .scVector .hbm S1000x16384 .f32).slice (Rect.unit (s := S1000x16384) (k0_off70 L k5 (BitVec.ofNat 32 r.val)) S40x512.size (k0_off70_inb L k5 r)) (fun _ => rfl)

omit [FloatOps F] in
theorem pts_off70 (k5 : Fin k0_t5_loop.trips) (r : Fin 2) (f : Buf (Elt F) (oLoc d)) :
    ((sl70 L k5 r).view.loc (thr d L) ↦[(sl70 L k5 r).view.set]{fullShare} f : sProp 𝕄)
      = oLoc d ↦[rowsSet L (80 * k5.val + 40 * r.val + 80) 40]{fullShare} f := by
  rw [view_off70]

omit [FloatOps F] in
/-- A range of rows of the band splits at any row. -/
theorem rows_split' (a n n1 n2 a' : Nat) (hn : n = n1 + n2) (ha : a' = a + n1) (f : Buf (Elt F) (oLoc d)) :
    (oLoc d ↦[rowsSet L a n]{fullShare} f : sProp 𝕄) = iprop((oLoc d ↦[rowsSet L a n1]{fullShare} f) ∗ oLoc d ↦[rowsSet L a' n2]{fullShare} f) := by
  subst hn ha; exact rows_split d L a n1 n2 f

theorem t5_trip (O : CellTallies nD τ sig (HIx 1)) (W : Waits sig (HIx 1)) (hO : ∀ g, O g none = 0)
    (ixc : Buf (Elt F) ((thr d L).loc cc0_scratch0)) (fo : Buf (Elt F) (oLoc d))
    (hW : ∀ col (h : col < 512), wordAt ixc col = m (cLoc d) (ValueIdx.ix1 (n := 16384) ⟨colOff L + col, by have := colOff_le L; omega⟩))
    (k5 : Fin k0_t5_loop.trips) (acc : BitVec 32) :
    inv5 m d L O W ixc fo k5 acc ⊢ wp frame (wpE (defs₀ (F := F)) 𝒱₀ (thr d L) none) Set.univ
      (k0_t5_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 acc) (inv5 m d L O W ixc fo (k5 + 1)) := by
  have hk5 : k5.val < 11 := lt_of_lt_of_eq k5.isLt trips_t5
  unfold inv5 k0_t5_body FlA FlB
  iintro ⟨#Hlv, Hs, HFA, HFB, Hdone, Htodo, %W', %hW', HO⟩
  simp only [Prog.lift, Prog.bind_op, Prog.bind_ret, Prog.pure_eq_ret]
  -- buffer 0's transfer has landed
  iapply (Transfers.wp_waitLocalO (countersEmb (U := UU)) 𝒱₀ (thr d L) none (default : HIx 1) (N := 655360) rfl) $$ [HFA HO]
  · isplitl [HFA]; · iexact HFA
    isplitl [HO]; · iexact HO
    iapply ((K (F := F)).mayWait_none (SemLoc.dma cc0_scratch3.sem) hO); iexact Hlv
  iintro ⟨⟨HdA, HsA⟩, HsemA, HO⟩
  ihave Hb0 := (Entails.of_eq (b0_own (F := F) d L _)) $$ HsA
  sl_for (inv6 d L ixc (chunkOf (F := F) (wordAt ixc) (cLo (2 * k5.val)) (cHi (2 * k5.val))) k5) $$ [Hs Hb0]
  case region =>
    intro k acc6
    exact t6_trip d L ixc _ k5 k acc6
  · unfold inv6; rw [scanTo_zero]
    isplitl [Hs]; · iexact Hs
    iexact Hb0
  iintro %acc6 HI
  unfold inv6
  icases HI with ⟨Hs, Hb0⟩
  rw [show Scf.trips k0_t6_loop.lb k0_t6_loop.ub k0_t6_loop.st = 32 from trips_t6, scanTo_full]
  -- the rows of chunks 2 k5 + 2 and 2 k5 + 3, out of the untouched rows
  ihave Ht := (Entails.of_eq (rows_split' (F := F) d L (80 * k5.val + 80) (920 - 80 * k5.val) 40 (880 - 80 * k5.val) (80 * k5.val + 120) (by omega) (by omega) fo)) $$ Htodo
  icases Ht with ⟨Hc2, Htodo⟩
  ihave Ht := (Entails.of_eq (rows_split' (F := F) d L (80 * k5.val + 120) (880 - 80 * k5.val) 40 (840 - 80 * k5.val) (80 * k5.val + 160) (by omega) (by omega) fo)) $$ Htodo
  icases Ht with ⟨Hc3, Htodo⟩
  ihave Hc2' := (Entails.of_eq (pts_off70 (F := F) d L k5 0 fo).symm) $$ Hc2
  ihave Hc3' := (Entails.of_eq (pts_off70 (F := F) d L k5 1 fo).symm) $$ Hc3
  sl_exec
  iclear Hb0
  -- the new flight of buffer 0, read as chunk 2 k5 + 2 landing on its rows
  delta t5_trip.sl.dma0
  ihave HFA := (Transfers.Flight_mono (countersEmb (U := UU)) (thr d L) (sep_mono (Entails.of_eq
      (landed_chunk (F := F) m d L (2 * k5.val + 2) (by omega) (k0_off70 L k5 (BitVec.ofNat 32 ((0 : Fin 2)).val)) (k0_off70_inb L k5 0)
        (by rw [k0_off70_eq]; show 80 * k5.val + 40 * 0 + 80 = _; omega)
        (by rw [k0_off70_eq]; rfl) fo (wordAt ixc) hW)) .rfl)) $$ HsemA
  -- buffer 1's transfer has landed
  iapply (Transfers.wp_waitLocalO (countersEmb (U := UU)) 𝒱₀ (thr d L) none (default : HIx 1) (N := 655360) rfl) $$ [HFB HO]
  · isplitl [HFB]; · iexact HFB
    isplitl [HO]; · iexact HO
    iapply ((K (F := F)).mayWait_none (SemLoc.dma cc0_scratch4.sem) hO); iexact Hlv
  iintro ⟨⟨HdB, HsB⟩, HsemB, HO⟩
  ihave Hb1 := (Entails.of_eq (b1_own (F := F) d L _)) $$ HsB
  sl_for (inv7 d L ixc (chunkOf (F := F) (wordAt ixc) (cLo (2 * k5.val + 1)) (cHi (2 * k5.val + 1))) k5) $$ [Hs Hb1]
  case region =>
    intro k acc7
    exact t7_trip d L ixc _ k5 k acc7
  · unfold inv7; rw [scanTo_zero]
    isplitl [Hs]; · iexact Hs
    iexact Hb1
  iintro %acc7 HI
  unfold inv7
  icases HI with ⟨Hs, Hb1⟩
  rw [show Scf.trips k0_t7_loop.lb k0_t7_loop.ub k0_t7_loop.st = 32 from trips_t7, scanTo_full]
  sl_exec
  iclear Hb1
  delta t5_trip.sl.dma0_1
  ihave HFB := (Transfers.Flight_mono (countersEmb (U := UU)) (thr d L) (sep_mono (Entails.of_eq
      (landed_chunk1 (F := F) m d L (2 * k5.val + 3) (by omega) (k0_off70 L k5 (BitVec.ofNat 32 ((1 : Fin 2)).val)) (k0_off70_inb L k5 1)
        (by rw [k0_off70_eq]; show 80 * k5.val + 40 * 1 + 80 = _; omega)
        (by rw [k0_off70_eq]; rfl) fo (wordAt ixc) hW)) .rfl)) $$ HsemB
  -- the rows done so far: the old ones and the two chunks that landed
  ihave Hd1 := (Entails.of_eq (rows_split' (F := F) d L 0 (80 * k5.val + 40) (80 * k5.val) 40 (40 * (2 * k5.val)) (by omega) (by omega) (GG m d)).symm) $$ [Hdone HdA]
  · isplitl [Hdone]; · iexact Hdone
    iexact HdA
  ihave Hd2 := (Entails.of_eq (rows_split' (F := F) d L 0 (80 * k5.val + 80) (80 * k5.val + 40) 40 (40 * (2 * k5.val + 1)) (by omega) (by omega) (GG m d)).symm) $$ [Hd1 HdB]
  · isplitl [Hd1]; · iexact Hd1
    iexact HdB
  rw [wp_ret]; imodintro
  rw [show 2 * (k5.val + 1) = 2 * k5.val + 2 from by omega, show 80 * (k5.val + 1) = 80 * k5.val + 80 from by omega,
    show 920 - (80 * k5.val + 80) = 840 - 80 * k5.val from by omega]
  isplitr; · iexact Hlv
  isplitl [Hs]; · iexact Hs
  isplitl [HFA]; · iexact HFA
  isplitl [HFB]; · iexact HFB
  isplitl [Hd2]; · iexact Hd2
  isplitl [Htodo]; · iexact Htodo
  iexists (insert (SemLoc.dma cc0_scratch4.sem, (default : HIx 1)) (insert (SemLoc.dma cc0_scratch3.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KI

end
-- ==== Proof.Body.lean ====
import proofs.«200183_g76879914599096_cont_sun_c4_587_30_alg».proof.Proof.FillTrips
import proofs.«200183_g76879914599096_cont_sun_c4_587_30_alg».proof.Proof.ScanTrips
import proofs.«200183_g76879914599096_cont_sun_c4_587_30_alg».proof.Proof.MainTrip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  One tile's whole task: the class words in, the first two chunks built and sent, the main loop, the last chunk,
  the last waits; at the end the tile's band holds the transposed one-hot array of the class indices.
-/

variable (m : (ℓ : Loc nD τ sig) → Buf (Elt F) ℓ)
variable [FloatOps F]
variable (d : Dev nD) (L : grid0.Coords)

abbrev semA : GSem nD τ sig := (thr d L, .dma cc0_scratch3.sem)
abbrev semB : GSem nD τ sig := (thr d L, .dma cc0_scratch4.sem)
abbrev semC : GSem nD τ sig := (thr d L, .dma cc0_scoped0.sem)

omit [FloatOps F] in
theorem ownSems0_V :
    (ownSems0 (thr d L) : sProp 𝕄)
      = iprop(semVal (semA d L) 0 ∗ semVal (semB d L) 0 ∗ semVal (semC d L) 0
          ∗ bigSep ((((ownCells (thr d L)).erase (semA d L)).erase (semB d L)).erase (semC d L))
              fun g => semVal g 0) := by
  unfold SparseCore.Cfg.ownSems0
  rw [SparseCore.bigSep_erase' ((mem_ownCells (g := semA d L)).mpr ⟨rfl, by
      show (SemLoc.dma cc0_scratch3.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch4.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scoped0.sem : SemLoc sig).isScoped .scVector = true; decide⟩⟩⟩)]

omit [FloatOps F] in
/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV' L) (jV' L))).erase ((Proc.scVector (cV' L) (jV' L)).devRef cc0_scratch0)).erase
              ((Proc.scVector (cV' L) (jV' L)).devRef cc0_scratch1)).erase ((Proc.scVector (cV' L) (jV' L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV' L) (jV' L))
    (b := (Proc.scVector (cV' L) (jV' L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV' L) (jV' L)) (b := (Proc.scVector (cV' L) (jV' L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV' L) (jV' L)) (b := (Proc.scVector (cV' L) (jV' L)).devRef cc0_scratch2) rfl⟩⟩)]

omit [FloatOps F] in
theorem pts_cSl (f : Buf (Elt F) (cLoc d)) :
    ((cSl L).view.loc (thr d L) ↦[(cSl L).view.set]{fullShare} f : sProp 𝕄) = cLoc d ↦[cSet L]{fullShare} f := by
  rw [cSet_eq]
omit [FloatOps F] in
theorem pts_sI (f : Buf (Elt F) ((thr d L).loc cc0_scratch0)) :
    ((sI : Memref sig .scVector .vmem S512 .i32).view.loc (thr d L) ↦{fullShare} f : sProp 𝕄) = (thr d L).loc cc0_scratch0 ↦{fullShare} f := rfl
omit [FloatOps F] in
theorem pts_b0 (f : Buf (Elt F) ((thr d L).loc cc0_scratch1)) :
    ((b0 : Memref sig .scVector .vmem S40x512 .f32).view.loc (thr d L) ↦{fullShare} f : sProp 𝕄) = (thr d L).loc cc0_scratch1 ↦{fullShare} f := rfl
omit [FloatOps F] in
theorem pts_b1 (f : Buf (Elt F) ((thr d L).loc cc0_scratch2)) :
    ((b1 : Memref sig .scVector .vmem S40x512 .f32).view.loc (thr d L) ↦{fullShare} f : sProp 𝕄) = (thr d L).loc cc0_scratch2 ↦{fullShare} f := rfl

abbrev sl35 : Memref sig .scVector .hbm S40x512 .f32 :=
  (oV : Memref sig .scVector .hbm S1000x16384 .f32).slice (Rect.unit (s := S1000x16384) (k0_off35 L) S40x512.size (k0_off35_inb L)) (fun _ => rfl)
abbrev sl69 : Memref sig .scVector .hbm S40x512 .f32 :=
  (oV : Memref sig .scVector .hbm S1000x16384 .f32).slice (Rect.unit (s := S1000x16384) (k0_off69 L) S40x512.size (k0_off69_inb L)) (fun _ => rfl)
abbrev sl73 : Memref sig .scVector .hbm S40x512 .f32 :=
  (oV : Memref sig .scVector .hbm S1000x16384 .f32).slice (Rect.unit (s := S1000x16384) (k0_off73 L) S40x512.size (k0_off73_inb L)) (fun _ => rfl)

omit [FloatOps F] in
theorem pts_off35 (f : Buf (Elt F) (oLoc d)) :
    ((sl35 L).view.loc (thr d L) ↦[(sl35 L).view.set]{fullShare} f : sProp 𝕄) = oLoc d ↦[rowsSet L 0 40]{fullShare} f := by rw [view_off35]
omit [FloatOps F] in
theorem pts_off69 (f : Buf (Elt F) (oLoc d)) :
    ((sl69 L).view.loc (thr d L) ↦[(sl69 L).view.set]{fullShare} f : sProp 𝕄) = oLoc d ↦[rowsSet L 40 40]{fullShare} f := by rw [view_off69]
omit [FloatOps F] in
theorem pts_off73 (f : Buf (Elt F) (oLoc d)) :
    ((sl73 L).view.loc (thr d L) ↦[(sl73 L).view.set]{fullShare} f : sProp 𝕄) = oLoc d ↦[rowsSet L 960 40]{fullShare} f := by rw [view_off73]

omit [FloatOps F] in
/-- The band: the rows of chunk 0, of chunk 1, and the rest. -/
theorem out_split0 (f : Buf (Elt F) (oLoc d)) :
    (oLoc d ↦[oBand L]{fullShare} f : sProp 𝕄)
      = iprop((oLoc d ↦[rowsSet L 0 40]{fullShare} f) ∗ (oLoc d ↦[rowsSet L 40 40]{fullShare} f) ∗ oLoc d ↦[rowsSet L 80 920]{fullShare} f) := by
  rw [oBand_eq, rows_split' (F := F) d L 0 1000 40 960 40 rfl rfl f, rows_split' (F := F) d L 40 960 40 920 80 rfl rfl f]

omit [FloatOps F] in
theorem rowsSet_zero (a : Nat) : rowsSet L a 0 = ∅ := by
  ext i; simp only [mem_rowsSet, Finset.notMem_empty, iff_false]; omega

/-- The tile's class words, as its index scratch holds them once the first copy has landed. -/
abbrev IX (fs : Buf (Elt F) ((thr d L).loc cc0_scratch0)) : Buf (Elt F) ((thr d L).loc cc0_scratch0) :=
  View.write (Elt F) (sI : Memref sig .scVector .vmem S512 .i32).view fs (ReadAs.same.apply (View.read (Elt F) (cSl L).view (m (cLoc d)))) Finset.univ

/-- The task of tile `L` on device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goA m d L ∗ scopedBufs (thr d L) ∗ scopedSems0 (thr d L) ∗ owes (thr d L) O W)
      ⊢ wp frame (wpE (defs₀ (F := F)) 𝒱₀ (thr d L) none) Set.univ
          (cc0__onehot_t_body L cV (Memref.isWhole_whole _) oV (Memref.isWhole_whole _) sI (Memref.isWhole_whole _) b0 (Memref.isWhole_whole _)
            b1 (Memref.isWhole_whole _) cc0_scratch3 cc0_scratch4 cc0_scoped0)
          fun _ => iprop(tdA m d L ∗ scopedBufs (thr d L) ∗ scopedSems0 (thr d L) ∗ ∃ W', ⌜∀ p ∈ W', p ∈ W ∨ p.2 = none⌝ ∗ owes (thr d L) O W') := by
  simp only [cc0__onehot_t_body_eq_skeleton]; unfold cc0__onehot_t_body_skel
  simp only [k0_part5_eq_skeleton]; unfold k0_part5_skel
  simp only [bind_assoc, pure_bind]
  rw [(K (F := F)).scopedBufs_V hF d (cV' L) (jV' L), SparseCore.Cfg.scopedSems0_V (Val := Elt F) d (cV' L) (jV' L), ownSems0_V, ownBufs_V]
  unfold goA
  iintro ⟨#Hlv, -, ⟨Hc, %fo, Hout⟩, ⟨⟨%fs, Hs⟩, ⟨%f0, Hb0⟩, ⟨%f1, Hb1⟩, Hbufs⟩, ⟨HsemA, HsemB, HsemC, Hsems⟩, HO⟩
  ihave Hmw := ((K (F := F)).mayWaits_none (thr := thr d L) hO) $$ Hlv
  ihave Hc' := (Entails.of_eq (pts_cSl (F := F) d L _).symm) $$ Hc
  ihave Hs' := (Entails.of_eq (pts_sI (F := F) d L _).symm) $$ Hs
  ihave Hb0' := (Entails.of_eq (pts_b0 (F := F) d L _).symm) $$ Hb0
  ihave Hb1' := (Entails.of_eq (pts_b1 (F := F) d L _).symm) $$ Hb1
  ihave Ho := (Entails.of_eq (out_split0 (F := F) d L fo)) $$ Hout
  icases Ho with ⟨Ho0, Ho1, Htodo⟩
  ihave Ho0' := (Entails.of_eq (pts_off35 (F := F) d L fo).symm) $$ Ho0
  ihave Ho1' := (Entails.of_eq (pts_off69 (F := F) d L fo).symm) $$ Ho1
  -- the class words in
  sl_exec
  delta tile_body.sl.dma0
  ihave Hc := (Entails.of_eq (pts_cSl (F := F) d L _)) $$ Hc'
  -- buffer 0: zeros, chunk 0, sent
  sl_for (inv1 d L f0) $$ [Hb0']
  case region =>
    intro k acc
    exact t1_trip d L f0 k acc
  · unfold inv1; rw [zfill_zero]; iexact Hb0'
  iintro %a1 HI
  unfold inv1
  rw [show Scf.trips k0_t1_loop.lb k0_t1_loop.ub k0_t1_loop.st = 40 from trips_t1, zfill_full]
  sl_for (inv2 d L (IX m d L fs) ((fun _ => (zF : F .f32)) : S40x512.Idx → Elt F .f32)) $$ [Hs' HI]
  case region =>
    intro k acc
    exact t2_trip d L (IX m d L fs) _ k acc
  · unfold inv2; rw [scanTo1_zero]
    isplitl [Hs']; · iexact Hs'
    iexact HI
  iintro %a2 HI
  unfold inv2
  icases HI with ⟨Hs', Hb0'⟩
  rw [show Scf.trips k0_t2_loop.lb k0_t2_loop.ub k0_t2_loop.st = 32 from trips_t2, scanTo1_full,
    show chunkOf (F := F) (wordAt (IX m d L fs)) 0#32 40#32 = chunkOf (wordAt (IX m d L fs)) (cLo 0) (cHi 0) from rfl]
  sl_exec
  iclear Hb0'
  -- chunk 0 in flight from buffer 0
  delta tile_body.sl.dma0_1
  ihave HFA := (Transfers.Flight_mono (countersEmb (U := UU)) (thr d L) (sep_mono (Entails.of_eq
      (landed_chunk (F := F) m d L 0 (by omega) (k0_off35 L) (k0_off35_inb L) (by rw [k0_off35_eq]; rfl) (by rw [k0_off35_eq]; rfl) fo (wordAt (IX m d L fs)) (words_landed (F := F) m d L fs))) .rfl)) $$ HsemA
  -- buffer 1: zeros, chunk 1, sent
  sl_for (inv3 d L f1) $$ [Hb1']
  case region =>
    intro k acc
    exact t3_trip d L f1 k acc
  · unfold inv3; rw [zfill_zero]; iexact Hb1'
  iintro %a3 HI
  unfold inv3
  rw [show Scf.trips k0_t3_loop.lb k0_t3_loop.ub k0_t3_loop.st = 40 from trips_t3, zfill_full]
  sl_for (inv4 d L (IX m d L fs) ((fun _ => (zF : F .f32)) : S40x512.Idx → Elt F .f32)) $$ [Hs' HI]
  case region =>
    intro k acc
    exact t4_trip d L (IX m d L fs) _ k acc
  · unfold inv4; rw [scanTo1_zero]
    isplitl [Hs']; · iexact Hs'
    iexact HI
  iintro %a4 HI
  unfold inv4
  icases HI with ⟨Hs', Hb1'⟩
  rw [show Scf.trips k0_t4_loop.lb k0_t4_loop.ub k0_t4_loop.st = 32 from trips_t4, scanTo1_full,
    show chunkOf (F := F) (wordAt (IX m d L fs)) 40#32 80#32 = chunkOf (wordAt (IX m d L fs)) (cLo 1) (cHi 1) from rfl]
  sl_exec
  iclear Hb1'
  delta tile_body.sl.dma0_2
  ihave HFB := (Transfers.Flight_mono (countersEmb (U := UU)) (thr d L) (sep_mono (Entails.of_eq
      (landed_chunk1 (F := F) m d L 1 (by omega) (k0_off69 L) (k0_off69_inb L) (by rw [k0_off69_eq]; rfl) (by rw [k0_off69_eq]; rfl) fo (wordAt (IX m d L fs)) (words_landed (F := F) m d L fs))) .rfl)) $$ HsemB
  -- the main loop
  sl_for (inv5 m d L O (insert (SemLoc.dma cc0_scoped0.sem, (default : HIx 1)) W) (IX m d L fs) fo) $$ [Hlv Hs' HFA HFB Htodo HO]
  case region =>
    intro k acc
    exact t5_trip m d L O _ hO (IX m d L fs) fo (words_landed (F := F) m d L fs) k acc
  · unfold inv5 FlA FlB
    isplitr; · iexact Hlv
    isplitl [Hs']; · iexact Hs'
    isplitl [HFA]; · iexact HFA
    isplitl [HFB]; · iexact HFB
    isplitr
    · rw [show 80 * 0 = 0 from rfl, rowsSet_zero, pointsTo_empty]; iempintro
    isplitl [Htodo]; · iexact Htodo
    iexists _; isplitr
    · ipureintro; exact fun p hp => .inl hp
    · iexact HO
  iintro %a5 HI
  unfold inv5 FlA FlB
  rw [show Scf.trips k0_t5_loop.lb k0_t5_loop.ub k0_t5_loop.st = 11 from trips_t5]
  icases HI with ⟨-, Hs', HFA, HFB, Hdone, Htodo, %W', %hW', HO⟩
  simp only [Prog.lift, Prog.bind_op, Prog.bind_ret, Prog.pure_eq_ret]
  -- chunk 22 has landed; buffer 0 takes chunk 24
  iapply (Transfers.wp_waitLocalO (countersEmb (U := UU)) 𝒱₀ (thr d L) none (default : HIx 1) (N := 655360) rfl) $$ [HFA HO]
  · isplitl [HFA]; · iexact HFA
    isplitl [HO]; · iexact HO
    iapply ((K (F := F)).mayWait_none (SemLoc.dma cc0_scratch3.sem) hO); iexact Hlv
  iintro ⟨⟨HdA, HsA⟩, HsemA, HO⟩
  simp only [Prog.bind, Prog.lift, Prog.bind_op, Prog.bind_ret, Prog.pure_eq_ret]
  ihave Hb0 := (Entails.of_eq (b0_own (F := F) d L _)) $$ HsA
  sl_for (inv8 d L (IX m d L fs) (chunkOf (F := F) (wordAt (IX m d L fs)) (cLo 22) (cHi 22))) $$ [Hs' Hb0]
  case region =>
    intro k acc
    exact t8_trip d L (IX m d L fs) _ k acc
  · unfold inv8; rw [scanTo_zero]
    isplitl [Hs']; · iexact Hs'
    iexact Hb0
  iintro %a8 HI
  unfold inv8
  icases HI with ⟨Hs', Hb0⟩
  rw [show Scf.trips k0_t8_loop.lb k0_t8_loop.ub k0_t8_loop.st = 32 from trips_t8, scanTo_full]
  ihave Ho24 := (Entails.of_eq (pts_off73 (F := F) d L fo).symm) $$ Htodo
  sl_exec
  -- the last three waits are over: chunk 23 and chunk 24 have landed
  delta tile_body.sl.dma0_3
  ihave Hd24 := (Entails.of_eq
      (landed_chunk (F := F) m d L 24 (by omega) (k0_off73 L) (k0_off73_inb L) (by rw [k0_off73_eq]; rfl) (by rw [k0_off73_eq]; rfl) fo
        (wordAt (IX m d L fs)) (words_landed (F := F) m d L fs))) $$ Ho24
  rw [wp_ret]; imodintro
  -- the band, whole
  ihave Hd1 := (Entails.of_eq (rows_split' (F := F) d L 0 920 (80 * 11) 40 (40 * (2 * 11)) (by omega) (by omega) (GG m d)).symm) $$ [Hdone HdA]
  · isplitl [Hdone]; · iexact Hdone
    iexact HdA
  ihave Hd2 := (Entails.of_eq (rows_split' (F := F) d L 0 960 920 40 (40 * (2 * 11 + 1)) (by omega) (by omega) (GG m d)).symm) $$ [Hd1 HFB_dst]
  · isplitl [Hd1]; · iexact Hd1
    iexact HFB_dst
  ihave Hd3 := (Entails.of_eq (rows_split' (F := F) d L 0 1000 960 40 (40 * 24) (by omega) (by omega) (GG m d)).symm) $$ [Hd2 Hd24]
  · isplitl [Hd2]; · iexact Hd2
    iexact Hd24
  ihave Hb1 := (Entails.of_eq (b1_own (F := F) d L _)) $$ HFB_src
  unfold tdA
  isplitl [Hc Hd3]
  · isplitl [Hc]; · iexact Hc
    rw [oBand_eq]; iexact Hd3
  isplitl [Hs' Hb0 Hb1 Hbufs]
  · isplitl [Hs']; · iexists _; iexact Hs'
    isplitl [Hb0]; · iexists _; iexact Hb0
    isplitl [Hb1]; · iexists _; iexact Hb1
    iexact Hbufs
  isplitl [HsemA HFB HsemC Hsems]
  · isplitl [HsemA]; · iexact HsemA
    isplitl [HFB]; · iexact HFB
    isplitl [HsemC]; · iexact HsemC
    iexact Hsems
  iexists (insert (SemLoc.dma cc0_scratch3.sem, (default : HIx 1)) (insert (SemLoc.dma cc0_scratch4.sem, (default : HIx 1))
    (insert (SemLoc.dma cc0_scratch3.sem, (default : HIx 1)) W'))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases hW' p hp with h1 | h1
    · rcases Finset.mem_insert.mp h1 with h2 | h2
      · exact .inr (h2 ▸ rfl)
      · exact .inl h2
    · exact .inr h1
  · iexact HO

end Cert.Proof.KI

end
-- ==== Proof.FillB.lean ====
/-
  Filling a chunk buffer with zeros, a row at a time: one trip of the fill loop stores sixteen zeros at each of
  the 32 column offsets of its row. Read back as functions of the buffer's index: a row whose first `c` columns
  are zero (`zrow`), a buffer whose first `k` rows are zero (`zfill`).
-/
import proofs.«200183_g76879914599096_cont_sun_c4_587_30_alg».proof.Proof.CommonB

noncomputable section

namespace Cert.Proof.KB

open Cert.Kernel Cert.Kernel.Gen
open Idealize.ShloMosaic

variable {F : FTy → Type} [FloatOps F]

/-- Zero and one, as the kernel's float constants. -/
abbrev zF : F .f32 := Scalar.ofBits .f32 0x00000000#32
abbrev oF : F .f32 := Scalar.ofBits .f32 0x3F800000#32

/-- A chunk buffer whose first `k` rows are zero. -/
def zfill (f : S40x512.Idx → Elt F .f32) (k : Nat) : S40x512.Idx → Elt F .f32 :=
  fun j => if (j 0).val < k then (zF : F .f32) else f j

/-- A chunk buffer whose row `k` is zero in its first `c` columns. -/
def zrow (f : S40x512.Idx → Elt F .f32) (k c : Nat) : S40x512.Idx → Elt F .f32 :=
  fun j => if (j 0).val = k ∧ (j 1).val < c then (zF : F .f32) else f j

theorem zrow_zero (f : S40x512.Idx → Elt F .f32) (k : Nat) : zrow f k 0 = f := by
  funext j; unfold zrow; rw [if_neg]; omega

theorem zfill_zero (f : S40x512.Idx → Elt F .f32) : zfill f 0 = f := by
  funext j; unfold zfill; rw [if_neg]; omega

/-- A whole row of zeros under the first `k` rows of zeros: the first `k + 1` rows. -/
theorem zrow_zfill (f : S40x512.Idx → Elt F .f32) (k : Nat) : zrow (zfill f k) k 512 = zfill f (k + 1) := by
  funext j
  have h1 : (j 1).val < 512 := (j 1).isLt
  unfold zrow zfill
  by_cases h0 : (j 0).val = k
  · rw [if_pos ⟨h0, h1⟩, if_pos (by omega)]
  · rw [if_neg (fun hh => h0 hh.1)]
    by_cases h2 : (j 0).val < k
    · rw [if_pos h2, if_pos (by omega)]
    · rw [if_neg h2, if_neg (by omega)]

section B0

/-- One 16-lane store of zeros at columns `c … c + 16` of row `k`, over a row whose columns before `c` are zero. -/
theorem B0_write_row_piece (f : S40x512.Idx → Elt F .f32) (off : Fin 2 → Nat) (k c c' : Nat)
    (h0 : off 0 = k) (h1 : off 1 = c) (hc' : c + 16 = c')
    (h : ∀ a, off a + S1x16.size a ≤ S40x512.size a) (hc : S16.ShapeCasts S1x16) :
    View.write (Elt F) ((View.whole (cc0_scratch1 : Ref sig .scVector)).slice (Rect.unit (s := S40x512) off S1x16.size h)) (zrow f k c)
        (shapeCast S1x16 (k0_pay16 (F := F)) hc) Finset.univ
      = zrow f k c' := by
  subst h0 h1 hc'
  funext y
  have hr : ∀ g : S40x512.Idx → Elt F .f32, (View.whole (cc0_scratch1 : Ref sig .scVector)).read (Elt F) g = g := fun _ => rfl
  by_cases hy : y ∈ (Rect.unit (s := S40x512) off S1x16.size h).set
  · obtain ⟨x, rfl⟩ := (Rect.unit (s := S40x512) off S1x16.size h).exists_idx_of_mem hy
    have e := View.read_slice_write_emb (v := View.whole (cc0_scratch1 : Ref sig .scVector)) (Val := Elt F)
      (Rect.unit (s := S40x512) off S1x16.size h) (zrow f (off 0) (off 1)) (shapeCast S1x16 (k0_pay16 (F := F)) hc) (Finset.mem_univ x)
    rw [hr] at e
    refine e.trans ?_
    have h0 : (x 0).val < 1 := (x 0).isLt
    have h1 : (x 1).val < 16 := (x 1).isLt
    unfold zrow
    rw [if_pos]
    · rfl
    · constructor
      · show off 0 + 1 * (x 0).val = off 0
        omega
      · show off 1 + 1 * (x 1).val < off 1 + 16
        omega
  · have e := View.read_slice_write_of_not_mem (v := View.whole (cc0_scratch1 : Ref sig .scVector)) (Val := Elt F)
      (Rect.unit (s := S40x512) off S1x16.size h) (zrow f (off 0) (off 1)) (shapeCast S1x16 (k0_pay16 (F := F)) hc) Finset.univ
      (y := y) (by rwa [Rect.map_emb_univ])
    rw [hr, hr] at e
    refine e.trans ?_
    have hy' : ¬ ((y 0).val = off 0 ∧ off 1 ≤ (y 1).val ∧ (y 1).val < off 1 + 16) := by
      intro ⟨h0, h1, h2⟩
      refine hy (Rect.mem_set_unit.mpr fun a => ?_)
      match a with
      | 0 => exact ⟨by show off 0 ≤ (y 0).val; omega, by show (y 0).val < off 0 + 1; omega⟩
      | 1 => exact ⟨by show off 1 ≤ (y 1).val; omega, by show (y 1).val < off 1 + 16; omega⟩
    unfold zrow
    by_cases h0 : (y 0).val = off 0
    · by_cases h1 : (y 1).val < off 1
      · rw [if_pos ⟨h0, h1⟩, if_pos ⟨h0, by omega⟩]
      · rw [if_neg (fun hh => h1 hh.2), if_neg (fun hh => hy' ⟨h0, by omega, hh.2⟩)]
    · rw [if_neg (fun hh => h0 hh.1), if_neg (fun hh => h0 hh.1)]

end B0

section B1

/-- One 16-lane store of zeros at columns `c … c + 16` of row `k`, over a row whose columns before `c` are zero. -/
theorem B1_write_row_piece (f : S40x512.Idx → Elt F .f32) (off : Fin 2 → Nat) (k c c' : Nat)
    (h0 : off 0 = k) (h1 : off 1 = c) (hc' : c + 16 = c')
    (h : ∀ a, off a + S1x16.size a ≤ S40x512.size a) (hc : S16.ShapeCasts S1x16) :
    View.write (Elt F) ((View.whole (cc0_scratch2 : Ref sig .scVector)).slice (Rect.unit (s := S40x512) off S1x16.size h)) (zrow f k c)
        (shapeCast S1x16 (k0_pay16 (F := F)) hc) Finset.univ
      = zrow f k c' := by
  subst h0 h1 hc'
  funext y
  have hr : ∀ g : S40x512.Idx → Elt F .f32, (View.whole (cc0_scratch2 : Ref sig .scVector)).read (Elt F) g = g := fun _ => rfl
  by_cases hy : y ∈ (Rect.unit (s := S40x512) off S1x16.size h).set
  · obtain ⟨x, rfl⟩ := (Rect.unit (s := S40x512) off S1x16.size h).exists_idx_of_mem hy
    have e := View.read_slice_write_emb (v := View.whole (cc0_scratch2 : Ref sig .scVector)) (Val := Elt F)
      (Rect.unit (s := S40x512) off S1x16.size h) (zrow f (off 0) (off 1)) (shapeCast S1x16 (k0_pay16 (F := F)) hc) (Finset.mem_univ x)
    rw [hr] at e
    refine e.trans ?_
    have h0 : (x 0).val < 1 := (x 0).isLt
    have h1 : (x 1).val < 16 := (x 1).isLt
    unfold zrow
    rw [if_pos]
    · rfl
    · constructor
      · show off 0 + 1 * (x 0).val = off 0
        omega
      · show off 1 + 1 * (x 1).val < off 1 + 16
        omega
  · have e := View.read_slice_write_of_not_mem (v := View.whole (cc0_scratch2 : Ref sig .scVector)) (Val := Elt F)
      (Rect.unit (s := S40x512) off S1x16.size h) (zrow f (off 0) (off 1)) (shapeCast S1x16 (k0_pay16 (F := F)) hc) Finset.univ
      (y := y) (by rwa [Rect.map_emb_univ])
    rw [hr, hr] at e
    refine e.trans ?_
    have hy' : ¬ ((y 0).val = off 0 ∧ off 1 ≤ (y 1).val ∧ (y 1).val < off 1 + 16) := by
      intro ⟨h0, h1, h2⟩
      refine hy (Rect.mem_set_unit.mpr fun a => ?_)
      match a with
      | 0 => exact ⟨by show off 0 ≤ (y 0).val; omega, by show (y 0).val < off 0 + 1; omega⟩
      | 1 => exact ⟨by show off 1 ≤ (y 1).val; omega, by show (y 1).val < off 1 + 16; omega⟩
    unfold zrow
    by_cases h0 : (y 0).val = off 0
    · by_cases h1 : (y 1).val < off 1
      · rw [if_pos ⟨h0, h1⟩, if_pos ⟨h0, by omega⟩]
      · rw [if_neg (fun hh => h1 hh.2), if_neg (fun hh => hy' ⟨h0, by omega, hh.2⟩)]
    · rw [if_neg (fun hh => h0 hh.1), if_neg (fun hh => h0 hh.1)]

end B1

end Cert.Proof.KB

end
-- ==== Proof.ScanB.lean ====
import proofs.«200183_g76879914599096_cont_sun_c4_587_30_alg».proof.Proof.CommonB
import proofs.«200183_g76879914599096_cont_sun_c4_587_30_alg».proof.Proof.FillB
import proofs.«200183_g76879914599096_cont_sun_c4_587_30_alg».proof.Proof.LibStoreIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  One column block of a chunk scan, as mathematics. The scan of a chunk of classes [lo, hi) visits the tile's 512
  class words sixteen at a time; for the sixteen words of block `n` it stores a value at (w - lo, column) for each
  word `w` with lo ≤ w < hi (signed). Columns are distinct lanes, so the store read back at an element is decided
  by the one word of that element's column.
-/

variable [FloatOps F]

open Idealize.ShloMosaic.LibStoreIdx

/-- The scan's mask and row vector for sixteen class words, as the kernel computes them. -/
def maskV (lo hi : BitVec 32) (cls : IVec S16 32) : IVec S16 1 :=
  andi (cmpi .sge cls (broadcast S16 lo)) (cmpi .slt cls (broadcast S16 hi))
def rowV (lo hi : BitVec 32) (cls : IVec S16 32) : IVec S16 32 :=
  select (maskV lo hi cls) (subi cls (broadcast S16 lo)) (broadcast S16 0#32)

/-- Word `w` is class `lo + r` of the chunk [lo, hi). -/
def sel (lo hi w : BitVec 32) (r : Nat) : Prop := lo.sle w = true ∧ w.slt hi = true ∧ (w - lo).toNat = r

instance (lo hi w : BitVec 32) (r : Nat) : Decidable (sel lo hi w r) := by unfold sel; infer_instance

omit [FloatOps F] in
theorem maskV_eq_one (lo hi : BitVec 32) (cls : IVec S16 32) (x : S16.Idx) :
    maskV lo hi cls x = 1 ↔ lo.sle (cls x) = true ∧ (cls x).slt hi = true := by
  have andi_ofBool (p q : Bool) : IntOp.andi (BitVec.ofBool p) (BitVec.ofBool q) = BitVec.ofBool (p && q) := by
    cases p <;> cases q <;> decide
  have ofBool_eq_one (p : Bool) : (BitVec.ofBool p = (1 : BitVec 1)) ↔ p = true := by cases p <;> decide
  show IntOp.andi (IntOp.cmpi .sge (cls x) lo) (IntOp.cmpi .slt (cls x) hi) = 1 ↔ _
  simp only [IntOp.cmpi, andi_ofBool, ofBool_eq_one, Bool.and_eq_true]

omit [FloatOps F] in
theorem rowV_of_mask (lo hi : BitVec 32) (cls : IVec S16 32) (x : S16.Idx) (hm : maskV lo hi cls x = 1) :
    rowV lo hi cls x = cls x - lo := by
  show (if maskV lo hi cls x = 1 then IntOp.subi (cls x) lo else 0#32) = _
  rw [if_pos hm]; rfl

omit [FloatOps F] in
theorem rowV_of_not_mask (lo hi : BitVec 32) (cls : IVec S16 32) (x : S16.Idx) (hm : ¬ maskV lo hi cls x = 1) :
    rowV lo hi cls x = 0#32 := by
  show (if maskV lo hi cls x = 1 then IntOp.subi (cls x) lo else 0#32) = _
  rw [if_neg hm]

omit [FloatOps F] in
/-- Within a chunk of 40 classes starting at a non-negative class, the row is below 40. -/
theorem rowV_lt (lo hi : BitVec 32) (hlo : 0 ≤ lo.toInt) (hhi : hi.toInt = lo.toInt + 40) (cls : IVec S16 32) (x : S16.Idx) :
    (rowV lo hi cls x).toNat < 40 := by
  by_cases hm : maskV lo hi cls x = 1
  · rw [rowV_of_mask lo hi cls x hm]
    obtain ⟨h1, h2⟩ := (maskV_eq_one lo hi cls x).mp hm
    rw [BitVec.sle_eq_decide, decide_eq_true_eq] at h1
    rw [BitVec.slt_eq_decide, decide_eq_true_eq] at h2
    rw [BitVec.toNat_sub]
    simp only [BitVec.toInt_eq_toNat_cond] at h1 h2 hlo hhi
    have := (cls x).isLt
    have := lo.isLt
    have := hi.isLt
    omega
  · rw [rowV_of_not_mask lo hi cls x hm]; decide

omit [FloatOps F] in
/-- The rows and columns a scan's store names are inside the chunk buffer. -/
theorem scan_inb (lo hi : BitVec 32) (hlo : 0 ≤ lo.toInt) (hhi : hi.toInt = lo.toInt + 40) (cls colv : IVec S16 32)
    (hcol : ∀ x : S16.Idx, (colv x).toNat < 512) :
    ∀ a x, ((![rowV lo hi cls, colv] : Fin 2 → IVec S16 32) a x).toNat < S40x512.size a := by
  intro a x
  match a with
  | 0 => exact rowV_lt lo hi hlo hhi cls x
  | 1 => exact hcol x

/-- Lane `k` as an index of a sixteen-lane vector. -/
abbrev laneIdx (k : Fin 16) : S16.Idx := Shape.ofLane (d := ![16]) k

omit [FloatOps F] in
theorem laneIdx_val (k : Fin 16) : ((laneIdx k) 0).val = k.val := rfl

/-- **One masked scatter of `val` for the sixteen columns of block `n`, read at an element**: an element of one
    of those columns takes `val` when its column's word is the class of its row; every other element is kept. -/
theorem scatter_apply (g : S40x512.Idx → Elt F .f32) (lo hi : BitVec 32) (cls colv : IVec S16 32) (val : F .f32) (n : Nat)
    (hcol : ∀ x : S16.Idx, (colv x).toNat = 16 * n + (x 0).val)
    (h : ∀ a x, ((![rowV lo hi cls, colv] : Fin 2 → IVec S16 32) a x).toNat < S40x512.size a) (j : S40x512.Idx) :
    storeIdx (F := F) (e := .f32) g ![rowV lo hi cls, colv] (broadcast S16 val) (maskV lo hi cls) false h j
      = if hb : 16 * n ≤ (j 1).val ∧ (j 1).val < 16 * n + 16 then
          (if sel lo hi (cls (laneIdx ⟨(j 1).val - 16 * n, by omega⟩)) (j 0).val then val else g j)
        else g j := by
  have hidx0 : ∀ x : S16.Idx, ((idxAt (s := S40x512) (![rowV lo hi cls, colv] : Fin 2 → IVec S16 32) h x) 0).val = (rowV lo hi cls x).toNat := fun _ => rfl
  have hidx1 : ∀ x : S16.Idx, ((idxAt (s := S40x512) (![rowV lo hi cls, colv] : Fin 2 → IVec S16 32) h x) 1).val = (colv x).toNat := fun _ => rfl
  by_cases hb : 16 * n ≤ (j 1).val ∧ (j 1).val < 16 * n + 16
  · rw [dif_pos hb]
    have hlt : (j 1).val - 16 * n < 16 := by omega
    have hkk : (⟨(j 1).val - 16 * n, by omega⟩ : Fin 16) = ⟨(j 1).val - 16 * n, hlt⟩ := rfl
    by_cases hs : sel lo hi (cls (laneIdx ⟨(j 1).val - 16 * n, hlt⟩)) (j 0).val
    · rw [if_pos hs]
      have hm : maskV lo hi cls (laneIdx ⟨(j 1).val - 16 * n, hlt⟩) = 1 := (maskV_eq_one _ _ _ _).mpr ⟨hs.1, hs.2.1⟩
      refine (storeIdx_apply_hit (F := F) (e := .f32) (d := ![16]) ![rowV lo hi cls, colv] (broadcast S16 val) (maskV lo hi cls) h g j
        (⟨(j 1).val - 16 * n, hlt⟩ : Fin 16) hm ?_ ?_).trans rfl
      · funext a
        match a with
        | 0 => exact Fin.ext (by rw [hidx0, rowV_of_mask _ _ _ _ hm]; exact hs.2.2)
        | 1 => exact Fin.ext (by rw [hidx1, hcol]; show 16 * n + ((j 1).val - 16 * n) = (j 1).val; omega)
      · intro k' hk' _ he
        apply hk'
        have e1 := congrArg (fun i : S40x512.Idx => (i 1).val) he
        simp only [hidx1, hcol] at e1
        have hkv : ((Shape.ofLane (d := ![16]) k') 0).val = k'.val := rfl
        apply Fin.ext
        show k'.val = (j 1).val - 16 * n
        omega
    · rw [if_neg hs]
      refine storeIdx_apply_miss (F := F) (e := .f32) (d := ![16]) ![rowV lo hi cls, colv] (broadcast S16 val) (maskV lo hi cls) h g j ?_
      intro k hk he
      apply hs
      have e1 := congrArg (fun i : S40x512.Idx => (i 1).val) he
      have e0 := congrArg (fun i : S40x512.Idx => (i 0).val) he
      simp only [hidx1, hcol, hidx0] at e1 e0
      have hkv : ((Shape.ofLane (d := ![16]) k) 0).val = k.val := rfl
      have hk' : k = (⟨(j 1).val - 16 * n, hlt⟩ : Fin 16) := Fin.ext (by show k.val = (j 1).val - 16 * n; omega)
      rw [hk'] at hk e0
      obtain ⟨h1, h2⟩ := (maskV_eq_one _ _ _ _).mp hk
      refine ⟨h1, h2, ?_⟩
      rw [rowV_of_mask _ _ _ _ hk] at e0
      exact e0
  · rw [dif_neg hb]
    refine storeIdx_apply_miss (F := F) (e := .f32) (d := ![16]) ![rowV lo hi cls, colv] (broadcast S16 val) (maskV lo hi cls) h g j ?_
    intro k _ he
    apply hb
    have e1 := congrArg (fun i : S40x512.Idx => (i 1).val) he
    simp only [hidx1, hcol] at e1
    have hkv : ((Shape.ofLane (d := ![16]) k) 0).val = k.val := rfl
    have hk16 : k.val < 16 := k.isLt
    constructor <;> omega

end Cert.Proof.KB

end
-- ==== Proof.ScanBlocksB.lean ====
import proofs.«200183_g76879914599096_cont_sun_c4_587_30_alg».proof.Proof.ScanB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  A whole chunk scan, block by block. `W col` is the class word of the tile's column `col`. The block of a chunk
  [lo, hi) is one where the column's word is the row's class (`chunkOf`). A scan over a buffer that held zeros,
  or the block of the chunk two before (whose ones the scan clears first), leaves the chunk's block.
-/

variable [FloatOps F]

/-- The chunk's 40 × 512 block. -/
def chunkOf (W : Nat → BitVec 32) (lo hi : BitVec 32) : S40x512.Idx → Elt F .f32 :=
  fun j => if sel lo hi (W (j 1).val) (j 0).val then (oF : F .f32) else (zF : F .f32)

/-- A first scan (nothing to clear) after `n` column blocks, over `g`. -/
def scanTo1 (W : Nat → BitVec 32) (lo hi : BitVec 32) (g : S40x512.Idx → Elt F .f32) (n : Nat) : S40x512.Idx → Elt F .f32 :=
  fun j => if (j 1).val < 16 * n then (if sel lo hi (W (j 1).val) (j 0).val then (oF : F .f32) else g j) else g j

/-- A later scan (clearing the chunk [plo, phi), then setting [lo, hi)) after `n` column blocks, over `g`. -/
def scanTo (W : Nat → BitVec 32) (plo phi lo hi : BitVec 32) (g : S40x512.Idx → Elt F .f32) (n : Nat) : S40x512.Idx → Elt F .f32 :=
  fun j => if (j 1).val < 16 * n then
      (if sel lo hi (W (j 1).val) (j 0).val then (oF : F .f32) else if sel plo phi (W (j 1).val) (j 0).val then (zF : F .f32) else g j)
    else g j

theorem scanTo1_zero (W : Nat → BitVec 32) (lo hi : BitVec 32) (g : S40x512.Idx → Elt F .f32) : scanTo1 W lo hi g 0 = g := by
  funext j; unfold scanTo1; rw [if_neg (by omega)]
theorem scanTo_zero (W : Nat → BitVec 32) (plo phi lo hi : BitVec 32) (g : S40x512.Idx → Elt F .f32) : scanTo W plo phi lo hi g 0 = g := by
  funext j; unfold scanTo; rw [if_neg (by omega)]

/-- All 32 blocks of a first scan over zeros: the chunk's block. -/
theorem scanTo1_full (W : Nat → BitVec 32) (lo hi : BitVec 32) : scanTo1 (F := F) W lo hi (fun _ => (zF : F .f32)) 32 = chunkOf W lo hi := by
  funext j
  have h1 : (j 1).val < 512 := (j 1).isLt
  unfold scanTo1 chunkOf
  rw [if_pos (by omega)]

/-- All 32 blocks of a later scan over the block of the cleared chunk: the new chunk's block. -/
theorem scanTo_full (W : Nat → BitVec 32) (plo phi lo hi : BitVec 32) :
    scanTo (F := F) W plo phi lo hi (chunkOf W plo phi) 32 = chunkOf W lo hi := by
  funext j
  have h1 : (j 1).val < 512 := (j 1).isLt
  unfold scanTo chunkOf
  rw [if_pos (by omega)]
  by_cases hs : sel lo hi (W (j 1).val) (j 0).val
  · rw [if_pos hs, if_pos hs]
  · rw [if_neg hs, if_neg hs]
    by_cases hp : sel plo phi (W (j 1).val) (j 0).val
    · rw [if_pos hp]
    · rw [if_neg hp, if_neg hp]

/-- One block of a first scan. -/
theorem scan1_step (W : Nat → BitVec 32) (lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (h : ∀ a x, ((![rowV lo hi cls, colv] : Fin 2 → IVec S16 32) a x).toNat < S40x512.size a) :
    storeIdx (F := F) (e := .f32) (scanTo1 W lo hi g n) ![rowV lo hi cls, colv] (broadcast S16 (oF : F .f32)) (maskV lo hi cls) false h
      = scanTo1 W lo hi g (n + 1) := by
  funext j
  rw [scatter_apply (scanTo1 W lo hi g n) lo hi cls colv (oF : F .f32) n hcol h j]
  unfold scanTo1
  by_cases hb : 16 * n ≤ (j 1).val ∧ (j 1).val < 16 * n + 16
  · rw [dif_pos hb]
    have hw : cls (laneIdx ⟨(j 1).val - 16 * n, by omega⟩) = W (j 1).val := by
      rw [hcls, laneIdx_val]; exact congrArg W (by show 16 * n + ((j 1).val - 16 * n) = (j 1).val; omega)
    rw [hw, if_neg (by omega : ¬ (j 1).val < 16 * n), if_pos (by omega : (j 1).val < 16 * (n + 1))]
  · rw [dif_neg hb]
    by_cases h1 : (j 1).val < 16 * n
    · rw [if_pos h1, if_pos (by omega : (j 1).val < 16 * (n + 1))]
    · rw [if_neg h1, if_neg (by omega : ¬ (j 1).val < 16 * (n + 1))]

/-- One block of a later scan: the clearing store, then the setting store. -/
theorem scan2_step (W : Nat → BitVec 32) (plo phi lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (hp : ∀ a x, ((![rowV plo phi cls, colv] : Fin 2 → IVec S16 32) a x).toNat < S40x512.size a)
    (h : ∀ a x, ((![rowV lo hi cls, colv] : Fin 2 → IVec S16 32) a x).toNat < S40x512.size a) :
    storeIdx (F := F) (e := .f32)
        (storeIdx (F := F) (e := .f32) (scanTo W plo phi lo hi g n) ![rowV plo phi cls, colv] (broadcast S16 (zF : F .f32)) (maskV plo phi cls) false hp)
        ![rowV lo hi cls, colv] (broadcast S16 (oF : F .f32)) (maskV lo hi cls) false h
      = scanTo W plo phi lo hi g (n + 1) := by
  funext j
  rw [scatter_apply _ lo hi cls colv (oF : F .f32) n hcol h j, scatter_apply (scanTo W plo phi lo hi g n) plo phi cls colv (zF : F .f32) n hcol hp j]
  unfold scanTo
  by_cases hb : 16 * n ≤ (j 1).val ∧ (j 1).val < 16 * n + 16
  · rw [dif_pos hb, dif_pos hb]
    have hw : cls (laneIdx ⟨(j 1).val - 16 * n, by omega⟩) = W (j 1).val := by
      rw [hcls, laneIdx_val]; exact congrArg W (by show 16 * n + ((j 1).val - 16 * n) = (j 1).val; omega)
    rw [hw, if_neg (by omega : ¬ (j 1).val < 16 * n), if_pos (by omega : (j 1).val < 16 * (n + 1))]
  · rw [dif_neg hb, dif_neg hb]
    by_cases h1 : (j 1).val < 16 * n
    · rw [if_pos h1, if_pos (by omega : (j 1).val < 16 * (n + 1))]
    · rw [if_neg h1, if_neg (by omega : ¬ (j 1).val < 16 * (n + 1))]

end Cert.Proof.KB

end
-- ==== Proof.TripLemmasB.lean ====
import proofs.«200183_g76879914599096_cont_sun_c4_587_30_alg».proof.Proof.ScanBlocksB
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  The pieces a scan trip's run is read through: the tile's class word of a column, the sixteen words a trip loads,
  the sixteen columns it addresses.
-/

variable [FloatOps F]
variable (d : Dev nD) (L : grid0.Coords)

/-- The tile's thread. -/
abbrev thr : Thread nD τ := V d (cV' L) (jV' L)

/-- The class word of the tile's column `col` (zero past the 512 columns: never read). -/
def wordAt (ixc : S512.Idx → BitVec 32) (col : Nat) : BitVec 32 :=
  if h : col < 512 then ixc (ValueIdx.ix1 (n := 512) ⟨col, h⟩) else 0#32

omit [FloatOps F] in
/-- The sixteen words a trip loads are the words of its sixteen columns. -/
theorem load_words (ixc : S512.Idx → BitVec 32) (off : Fin 1 → Nat) (n : Nat) (h0 : off 0 = 16 * n)
    (h : ∀ a, off a + S16.size a ≤ S512.size a) (x : S16.Idx) :
    View.readAt (Elt F) (View.whole (cc0_scratch0 : Ref sig .scVector)) (Rect.unit (s := S512) off S16.size h).toLoadRect ixc x
      = wordAt ixc (16 * n + (x 0).val) := by
  have hx : (x 0).val < 16 := (x 0).isLt
  have hb : off 0 + 16 ≤ 512 := h 0
  rw [View.readAt_apply]
  show ixc ((Rect.unit (s := S512) off S16.size h).toLoadRect.idx x) = _
  unfold wordAt
  rw [dif_pos (by omega)]
  congr 1
  funext a
  match a with
  | ⟨0, _⟩ => exact Fin.ext (by show off 0 + 1 * (x 0).val = 16 * n + (x 0).val; omega)

omit [FloatOps F] in
/-- A sixteen-lane index is its lane. -/
theorem eq_laneIdx (x : S16.Idx) : x = laneIdx (x 0) := by
  funext a; match a with | ⟨0, _⟩ => rfl

omit [FloatOps F] in
theorem pts_b0_acc (f : Buf (Elt F) ((thr d L).loc cc0_scratch1)) :
    (((b0 : Memref sig .scVector .vmem S40x512 .f32).access (Rect.whole S40x512)).loc (thr d L)
        ↦[((b0 : Memref sig .scVector .vmem S40x512 .f32).access (Rect.whole S40x512)).set]{fullShare} f : sProp 𝕄)
      = (b0 : Memref sig .scVector .vmem S40x512 .f32).view.loc (thr d L) ↦{fullShare} f := by
  rw [show ((b0 : Memref sig .scVector .vmem S40x512 .f32).access (Rect.whole S40x512)).set = Finset.univ from Memref.set_access_whole (cc0_scratch1 : Ref sig .scVector)]
omit [FloatOps F] in
theorem pts_b1_acc (f : Buf (Elt F) ((thr d L).loc cc0_scratch2)) :
    (((b1 : Memref sig .scVector .vmem S40x512 .f32).access (Rect.whole S40x512)).loc (thr d L)
        ↦[((b1 : Memref sig .scVector .vmem S40x512 .f32).access (Rect.whole S40x512)).set]{fullShare} f : sProp 𝕄)
      = (b1 : Memref sig .scVector .vmem S40x512 .f32).view.loc (thr d L) ↦{fullShare} f := by
  rw [show ((b1 : Memref sig .scVector .vmem S40x512 .f32).access (Rect.whole S40x512)).set = Finset.univ from Memref.set_access_whole (cc0_scratch2 : Ref sig .scVector)]

omit [FloatOps F] in
theorem b0_write_whole (f w : S40x512.Idx → Elt F .f32) :
    View.write (Elt F) ((b0 : Memref sig .scVector .vmem S40x512 .f32).access (Rect.whole S40x512)) f w Finset.univ = w :=
  Memref.write_access_whole_univ (Elt F) (cc0_scratch1 : Ref sig .scVector) f w
omit [FloatOps F] in
theorem b0_read_whole (f : S40x512.Idx → Elt F .f32) :
    View.read (Elt F) ((b0 : Memref sig .scVector .vmem S40x512 .f32).access (Rect.whole S40x512)) f = f :=
  Memref.read_access_whole (Elt F) (cc0_scratch1 : Ref sig .scVector) f
omit [FloatOps F] in
theorem b1_write_whole (f w : S40x512.Idx → Elt F .f32) :
    View.write (Elt F) ((b1 : Memref sig .scVector .vmem S40x512 .f32).access (Rect.whole S40x512)) f w Finset.univ = w :=
  Memref.write_access_whole_univ (Elt F) (cc0_scratch2 : Ref sig .scVector) f w
omit [FloatOps F] in
theorem b1_read_whole (f : S40x512.Idx → Elt F .f32) :
    View.read (Elt F) ((b1 : Memref sig .scVector .vmem S40x512 .f32).access (Rect.whole S40x512)) f = f :=
  Memref.read_access_whole (Elt F) (cc0_scratch2 : Ref sig .scVector) f

omit [FloatOps F] in
/-- The columns trip `k` of the first scan of buffer 0 addresses: 16 k + lane. -/
theorem cols_t2 : ∀ k : Fin k0_t2_loop.trips, ∀ l : Fin 16, (k0_pay18 k (laneIdx l)).toNat = 16 * k.val + l.val := by decide +kernel
omit [FloatOps F] in
theorem cols_t4 : ∀ k : Fin k0_t4_loop.trips, ∀ l : Fin 16, (k0_pay21 k (laneIdx l)).toNat = 16 * k.val + l.val := by decide +kernel
omit [FloatOps F] in
theorem cols_t6 : ∀ k : Fin k0_t6_loop.trips, ∀ l : Fin 16,
    (k0_pay1 (iota .scVector S16 32 [0] iota_S16_d0_w32_scVector) k (laneIdx l)).toNat = 16 * k.val + l.val := by decide +kernel
omit [FloatOps F] in
theorem cols_t7 : ∀ k : Fin k0_t7_loop.trips, ∀ l : Fin 16,
    (k0_pay6 (iota .scVector S16 32 [0] iota_S16_d0_w32_scVector) k (laneIdx l)).toNat = 16 * k.val + l.val := by decide +kernel
omit [FloatOps F] in
theorem cols_t8 : ∀ k : Fin k0_t8_loop.trips, ∀ l : Fin 16,
    (k0_pay11 (iota .scVector S16 32 [0] iota_S16_d0_w32_scVector) k (laneIdx l)).toNat = 16 * k.val + l.val := by decide +kernel

omit [FloatOps F] in
theorem trips_t2 : k0_t2_loop.trips = 32 := by decide +kernel
omit [FloatOps F] in
theorem trips_t1 : k0_t1_loop.trips = 40 := by decide +kernel
omit [FloatOps F] in
theorem trips_t3 : k0_t3_loop.trips = 40 := by decide +kernel
omit [FloatOps F] in
theorem trips_t4 : k0_t4_loop.trips = 32 := by decide +kernel
omit [FloatOps F] in
theorem trips_t5 : k0_t5_loop.trips = 11 := by decide +kernel
omit [FloatOps F] in
theorem trips_t6 : k0_t6_loop.trips = 32 := by decide +kernel
omit [FloatOps F] in
theorem trips_t7 : k0_t7_loop.trips = 32 := by decide +kernel
omit [FloatOps F] in
theorem trips_t8 : k0_t8_loop.trips = 32 := by decide +kernel

end Cert.Proof.KB

end
-- ==== Proof.FillTripsB.lean ====
import proofs.«200183_g76879914599096_cont_sun_c4_587_30_alg».proof.Proof.TripLemmasB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The zero fills of the two chunk buffers, a row per trip: 32 stores of sixteen zeros. -/

variable [FloatOps F]
variable (d : Dev nD) (L : grid0.Coords)

/-- Before trip `k` of the fill: the first `k` rows zero. -/
def inv1 (f0 : Buf (Elt F) ((thr d L).loc cc0_scratch1)) (k : Nat) (_ : BitVec 32) : sProp 𝕄 :=
  iprop((b0 : Memref sig .scVector .vmem S40x512 .f32).view.loc (thr d L) ↦{fullShare} zfill f0 k)

theorem t1_trip (f0 : Buf (Elt F) ((thr d L).loc cc0_scratch1)) (k : Fin k0_t1_loop.trips) (acc : BitVec 32) :
    inv1 d L f0 k acc ⊢ wp frame (wpE (defs₀ (F := F)) 𝒱₀ (thr d L) none) Set.univ
      (k0_t1_body L cV (Memref.isWhole_whole _) oV (Memref.isWhole_whole _) sI (Memref.isWhole_whole _) b0 (Memref.isWhole_whole _)
        b1 (Memref.isWhole_whole _) cc0_scratch3 cc0_scratch4 cc0_scoped0 k acc) (inv1 d L f0 (k + 1)) := by
  unfold inv1 k0_t1_body
  iintro Hb
  sl_exec
  sl_step
  simp only [View.writes_cons, View.writes_nil]
  rw [← zrow_zero (zfill f0 ↑k) ↑k]
  rw [B0_write_row_piece (zfill f0 ↑k) (k0_off2 k) ↑k 0 16 (by rw [k0_off2_eq]; rfl) (by rw [k0_off2_eq]; rfl) rfl]
  rw [B0_write_row_piece (zfill f0 ↑k) (k0_off3 k) ↑k 16 32 (by rw [k0_off3_eq]; rfl) (by rw [k0_off3_eq]; rfl) rfl]
  rw [B0_write_row_piece (zfill f0 ↑k) (k0_off4 k) ↑k 32 48 (by rw [k0_off4_eq]; rfl) (by rw [k0_off4_eq]; rfl) rfl]
  rw [B0_write_row_piece (zfill f0 ↑k) (k0_off5 k) ↑k 48 64 (by rw [k0_off5_eq]; rfl) (by rw [k0_off5_eq]; rfl) rfl]
  rw [B0_write_row_piece (zfill f0 ↑k) (k0_off6 k) ↑k 64 80 (by rw [k0_off6_eq]; rfl) (by rw [k0_off6_eq]; rfl) rfl]
  rw [B0_write_row_piece (zfill f0 ↑k) (k0_off7 k) ↑k 80 96 (by rw [k0_off7_eq]; rfl) (by rw [k0_off7_eq]; rfl) rfl]
  rw [B0_write_row_piece (zfill f0 ↑k) (k0_off8 k) ↑k 96 112 (by rw [k0_off8_eq]; rfl) (by rw [k0_off8_eq]; rfl) rfl]
  rw [B0_write_row_piece (zfill f0 ↑k) (k0_off9 k) ↑k 112 128 (by rw [k0_off9_eq]; rfl) (by rw [k0_off9_eq]; rfl) rfl]
  rw [B0_write_row_piece (zfill f0 ↑k) (k0_off10 k) ↑k 128 144 (by rw [k0_off10_eq]; rfl) (by rw [k0_off10_eq]; rfl) rfl]
  rw [B0_write_row_piece (zfill f0 ↑k) (k0_off11 k) ↑k 144 160 (by rw [k0_off11_eq]; rfl) (by rw [k0_off11_eq]; rfl) rfl]
  rw [B0_write_row_piece (zfill f0 ↑k) (k0_off12 k) ↑k 160 176 (by rw [k0_off12_eq]; rfl) (by rw [k0_off12_eq]; rfl) rfl]
  rw [B0_write_row_piece (zfill f0 ↑k) (k0_off13 k) ↑k 176 192 (by rw [k0_off13_eq]; rfl) (by rw [k0_off13_eq]; rfl) rfl]
  rw [B0_write_row_piece (zfill f0 ↑k) (k0_off14 k) ↑k 192 208 (by rw [k0_off14_eq]; rfl) (by rw [k0_off14_eq]; rfl) rfl]
  rw [B0_write_row_piece (zfill f0 ↑k) (k0_off15 k) ↑k 208 224 (by rw [k0_off15_eq]; rfl) (by rw [k0_off15_eq]; rfl) rfl]
  rw [B0_write_row_piece (zfill f0 ↑k) (k0_off16 k) ↑k 224 240 (by rw [k0_off16_eq]; rfl) (by rw [k0_off16_eq]; rfl) rfl]
  rw [B0_write_row_piece (zfill f0 ↑k) (k0_off17 k) ↑k 240 256 (by rw [k0_off17_eq]; rfl) (by rw [k0_off17_eq]; rfl) rfl]
  rw [B0_write_row_piece (zfill f0 ↑k) (k0_off18 k) ↑k 256 272 (by rw [k0_off18_eq]; rfl) (by rw [k0_off18_eq]; rfl) rfl]
  rw [B0_write_row_piece (zfill f0 ↑k) (k0_off19 k) ↑k 272 288 (by rw [k0_off19_eq]; rfl) (by rw [k0_off19_eq]; rfl) rfl]
  rw [B0_write_row_piece (zfill f0 ↑k) (k0_off20 k) ↑k 288 304 (by rw [k0_off20_eq]; rfl) (by rw [k0_off20_eq]; rfl) rfl]
  rw [B0_write_row_piece (zfill f0 ↑k) (k0_off21 k) ↑k 304 320 (by rw [k0_off21_eq]; rfl) (by rw [k0_off21_eq]; rfl) rfl]
  rw [B0_write_row_piece (zfill f0 ↑k) (k0_off22 k) ↑k 320 336 (by rw [k0_off22_eq]; rfl) (by rw [k0_off22_eq]; rfl) rfl]
  rw [B0_write_row_piece (zfill f0 ↑k) (k0_off23 k) ↑k 336 352 (by rw [k0_off23_eq]; rfl) (by rw [k0_off23_eq]; rfl) rfl]
  rw [B0_write_row_piece (zfill f0 ↑k) (k0_off24 k) ↑k 352 368 (by rw [k0_off24_eq]; rfl) (by rw [k0_off24_eq]; rfl) rfl]
  rw [B0_write_row_piece (zfill f0 ↑k) (k0_off25 k) ↑k 368 384 (by rw [k0_off25_eq]; rfl) (by rw [k0_off25_eq]; rfl) rfl]
  rw [B0_write_row_piece (zfill f0 ↑k) (k0_off26 k) ↑k 384 400 (by rw [k0_off26_eq]; rfl) (by rw [k0_off26_eq]; rfl) rfl]
  rw [B0_write_row_piece (zfill f0 ↑k) (k0_off27 k) ↑k 400 416 (by rw [k0_off27_eq]; rfl) (by rw [k0_off27_eq]; rfl) rfl]
  rw [B0_write_row_piece (zfill f0 ↑k) (k0_off28 k) ↑k 416 432 (by rw [k0_off28_eq]; rfl) (by rw [k0_off28_eq]; rfl) rfl]
  rw [B0_write_row_piece (zfill f0 ↑k) (k0_off29 k) ↑k 432 448 (by rw [k0_off29_eq]; rfl) (by rw [k0_off29_eq]; rfl) rfl]
  rw [B0_write_row_piece (zfill f0 ↑k) (k0_off30 k) ↑k 448 464 (by rw [k0_off30_eq]; rfl) (by rw [k0_off30_eq]; rfl) rfl]
  rw [B0_write_row_piece (zfill f0 ↑k) (k0_off31 k) ↑k 464 480 (by rw [k0_off31_eq]; rfl) (by rw [k0_off31_eq]; rfl) rfl]
  rw [B0_write_row_piece (zfill f0 ↑k) (k0_off32 k) ↑k 480 496 (by rw [k0_off32_eq]; rfl) (by rw [k0_off32_eq]; rfl) rfl]
  rw [B0_write_row_piece (zfill f0 ↑k) (k0_off33 k) ↑k 496 512 (by rw [k0_off33_eq]; rfl) (by rw [k0_off33_eq]; rfl) rfl]
  rw [zrow_zfill]
  iexact Hb

/-- Before trip `k` of the fill: the first `k` rows zero. -/
def inv3 (f0 : Buf (Elt F) ((thr d L).loc cc0_scratch2)) (k : Nat) (_ : BitVec 32) : sProp 𝕄 :=
  iprop((b1 : Memref sig .scVector .vmem S40x512 .f32).view.loc (thr d L) ↦{fullShare} zfill f0 k)

theorem t3_trip (f0 : Buf (Elt F) ((thr d L).loc cc0_scratch2)) (k : Fin k0_t3_loop.trips) (acc : BitVec 32) :
    inv3 d L f0 k acc ⊢ wp frame (wpE (defs₀ (F := F)) 𝒱₀ (thr d L) none) Set.univ
      (k0_t3_body L cV (Memref.isWhole_whole _) oV (Memref.isWhole_whole _) sI (Memref.isWhole_whole _) b0 (Memref.isWhole_whole _)
        b1 (Memref.isWhole_whole _) cc0_scratch3 cc0_scratch4 cc0_scoped0 k acc) (inv3 d L f0 (k + 1)) := by
  unfold inv3 k0_t3_body
  iintro Hb
  sl_exec
  sl_step
  simp only [View.writes_cons, View.writes_nil]
  rw [← zrow_zero (zfill f0 ↑k) ↑k]
  rw [B1_write_row_piece (zfill f0 ↑k) (k0_off36 k) ↑k 0 16 (by rw [k0_off36_eq]; rfl) (by rw [k0_off36_eq]; rfl) rfl]
  rw [B1_write_row_piece (zfill f0 ↑k) (k0_off37 k) ↑k 16 32 (by rw [k0_off37_eq]; rfl) (by rw [k0_off37_eq]; rfl) rfl]
  rw [B1_write_row_piece (zfill f0 ↑k) (k0_off38 k) ↑k 32 48 (by rw [k0_off38_eq]; rfl) (by rw [k0_off38_eq]; rfl) rfl]
  rw [B1_write_row_piece (zfill f0 ↑k) (k0_off39 k) ↑k 48 64 (by rw [k0_off39_eq]; rfl) (by rw [k0_off39_eq]; rfl) rfl]
  rw [B1_write_row_piece (zfill f0 ↑k) (k0_off40 k) ↑k 64 80 (by rw [k0_off40_eq]; rfl) (by rw [k0_off40_eq]; rfl) rfl]
  rw [B1_write_row_piece (zfill f0 ↑k) (k0_off41 k) ↑k 80 96 (by rw [k0_off41_eq]; rfl) (by rw [k0_off41_eq]; rfl) rfl]
  rw [B1_write_row_piece (zfill f0 ↑k) (k0_off42 k) ↑k 96 112 (by rw [k0_off42_eq]; rfl) (by rw [k0_off42_eq]; rfl) rfl]
  rw [B1_write_row_piece (zfill f0 ↑k) (k0_off43 k) ↑k 112 128 (by rw [k0_off43_eq]; rfl) (by rw [k0_off43_eq]; rfl) rfl]
  rw [B1_write_row_piece (zfill f0 ↑k) (k0_off44 k) ↑k 128 144 (by rw [k0_off44_eq]; rfl) (by rw [k0_off44_eq]; rfl) rfl]
  rw [B1_write_row_piece (zfill f0 ↑k) (k0_off45 k) ↑k 144 160 (by rw [k0_off45_eq]; rfl) (by rw [k0_off45_eq]; rfl) rfl]
  rw [B1_write_row_piece (zfill f0 ↑k) (k0_off46 k) ↑k 160 176 (by rw [k0_off46_eq]; rfl) (by rw [k0_off46_eq]; rfl) rfl]
  rw [B1_write_row_piece (zfill f0 ↑k) (k0_off47 k) ↑k 176 192 (by rw [k0_off47_eq]; rfl) (by rw [k0_off47_eq]; rfl) rfl]
  rw [B1_write_row_piece (zfill f0 ↑k) (k0_off48 k) ↑k 192 208 (by rw [k0_off48_eq]; rfl) (by rw [k0_off48_eq]; rfl) rfl]
  rw [B1_write_row_piece (zfill f0 ↑k) (k0_off49 k) ↑k 208 224 (by rw [k0_off49_eq]; rfl) (by rw [k0_off49_eq]; rfl) rfl]
  rw [B1_write_row_piece (zfill f0 ↑k) (k0_off50 k) ↑k 224 240 (by rw [k0_off50_eq]; rfl) (by rw [k0_off50_eq]; rfl) rfl]
  rw [B1_write_row_piece (zfill f0 ↑k) (k0_off51 k) ↑k 240 256 (by rw [k0_off51_eq]; rfl) (by rw [k0_off51_eq]; rfl) rfl]
  rw [B1_write_row_piece (zfill f0 ↑k) (k0_off52 k) ↑k 256 272 (by rw [k0_off52_eq]; rfl) (by rw [k0_off52_eq]; rfl) rfl]
  rw [B1_write_row_piece (zfill f0 ↑k) (k0_off53 k) ↑k 272 288 (by rw [k0_off53_eq]; rfl) (by rw [k0_off53_eq]; rfl) rfl]
  rw [B1_write_row_piece (zfill f0 ↑k) (k0_off54 k) ↑k 288 304 (by rw [k0_off54_eq]; rfl) (by rw [k0_off54_eq]; rfl) rfl]
  rw [B1_write_row_piece (zfill f0 ↑k) (k0_off55 k) ↑k 304 320 (by rw [k0_off55_eq]; rfl) (by rw [k0_off55_eq]; rfl) rfl]
  rw [B1_write_row_piece (zfill f0 ↑k) (k0_off56 k) ↑k 320 336 (by rw [k0_off56_eq]; rfl) (by rw [k0_off56_eq]; rfl) rfl]
  rw [B1_write_row_piece (zfill f0 ↑k) (k0_off57 k) ↑k 336 352 (by rw [k0_off57_eq]; rfl) (by rw [k0_off57_eq]; rfl) rfl]
  rw [B1_write_row_piece (zfill f0 ↑k) (k0_off58 k) ↑k 352 368 (by rw [k0_off58_eq]; rfl) (by rw [k0_off58_eq]; rfl) rfl]
  rw [B1_write_row_piece (zfill f0 ↑k) (k0_off59 k) ↑k 368 384 (by rw [k0_off59_eq]; rfl) (by rw [k0_off59_eq]; rfl) rfl]
  rw [B1_write_row_piece (zfill f0 ↑k) (k0_off60 k) ↑k 384 400 (by rw [k0_off60_eq]; rfl) (by rw [k0_off60_eq]; rfl) rfl]
  rw [B1_write_row_piece (zfill f0 ↑k) (k0_off61 k) ↑k 400 416 (by rw [k0_off61_eq]; rfl) (by rw [k0_off61_eq]; rfl) rfl]
  rw [B1_write_row_piece (zfill f0 ↑k) (k0_off62 k) ↑k 416 432 (by rw [k0_off62_eq]; rfl) (by rw [k0_off62_eq]; rfl) rfl]
  rw [B1_write_row_piece (zfill f0 ↑k) (k0_off63 k) ↑k 432 448 (by rw [k0_off63_eq]; rfl) (by rw [k0_off63_eq]; rfl) rfl]
  rw [B1_write_row_piece (zfill f0 ↑k) (k0_off64 k) ↑k 448 464 (by rw [k0_off64_eq]; rfl) (by rw [k0_off64_eq]; rfl) rfl]
  rw [B1_write_row_piece (zfill f0 ↑k) (k0_off65 k) ↑k 464 480 (by rw [k0_off65_eq]; rfl) (by rw [k0_off65_eq]; rfl) rfl]
  rw [B1_write_row_piece (zfill f0 ↑k) (k0_off66 k) ↑k 480 496 (by rw [k0_off66_eq]; rfl) (by rw [k0_off66_eq]; rfl) rfl]
  rw [B1_write_row_piece (zfill f0 ↑k) (k0_off67 k) ↑k 496 512 (by rw [k0_off67_eq]; rfl) (by rw [k0_off67_eq]; rfl) rfl]
  rw [zrow_zfill]
  iexact Hb

/-- Forty rows of zeros: the whole buffer. -/
theorem zfill_full (f : S40x512.Idx → Elt F .f32) : zfill f 40 = fun _ => (zF : F .f32) := by
  funext j
  have h0 : (j 0).val < 40 := (j 0).isLt
  unfold zfill; rw [if_pos h0]

end Cert.Proof.KB

end
-- ==== Proof.ScanTripsB.lean ====
import proofs.«200183_g76879914599096_cont_sun_c4_587_30_alg».proof.Proof.TripLemmasB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-! ## The first scan of buffer 0 (chunk 0, classes 0 … 39) -/

/-- Before trip `k`: the index scratch at the tile's words, buffer 0 scanned in its first `k` column blocks. -/
def inv2 (ixc : Buf (Elt F) ((thr d L).loc cc0_scratch0)) (g0 : Buf (Elt F) ((thr d L).loc cc0_scratch1)) (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo1 (wordAt ixc) 0#32 40#32 g0 k)

omit [FloatOps F] in
theorem hcol_t2 (k : Fin k0_t2_loop.trips) (x : S16.Idx) : (k0_pay18 k x).toNat = 16 * k.val + (x 0).val := by
  have := cols_t2 k (x 0); rwa [← eq_laneIdx x] at this

theorem chk_t2 (k : Fin k0_t2_loop.trips) (v33 : IVec S16 32) : k0_chk1 (k0_pay18 k) (k0_pay20 (F := F) v33) :=
  scan_inb 0#32 40#32 (by decide) (by decide) v33 (k0_pay18 k) (fun x => by
    have hk : k.val < 32 := lt_of_lt_of_eq k.isLt trips_t2
    have hx : (x 0).val < 16 := (x 0).isLt
    rw [hcol_t2]; omega)

theorem t2_trip (ixc : Buf (Elt F) ((thr d L).loc cc0_scratch0)) (g0 : Buf (Elt F) ((thr d L).loc cc0_scratch1))
    (k : Fin k0_t2_loop.trips) (acc : BitVec 32) :
    inv2 d L ixc g0 k acc ⊢ wp frame (wpE (defs₀ (F := F)) 𝒱₀ (thr d L) none) Set.univ
      (k0_t2_body L cV (Memref.isWhole_whole _) oV (Memref.isWhole_whole _) sI (Memref.isWhole_whole _) b0 (Memref.isWhole_whole _)
        b1 (Memref.isWhole_whole _) cc0_scratch3 cc0_scratch4 cc0_scoped0 k acc) (inv2 d L ixc g0 (k + 1)) := by
  unfold inv2 k0_t2_body
  iintro ⟨Hs, Hb⟩
  sl_exec (disch := exact chk_t2 (F := F) _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole]
  sl_step
  isplitl [Hs]; · iexact Hs
  rw [← scan1_step (F := F) (wordAt ixc) 0#32 40#32 g0 k
    (View.readAt (Elt F) (View.whole (cc0_scratch0 : Ref sig .scVector)) (Rect.unit (s := S512) (k0_off34 k) S16.size (k0_off34_inb k)).toLoadRect ixc)
    (k0_pay18 k) (fun x => load_words (F := F) ixc (k0_off34 k) k (by rw [k0_off34_eq]; rfl) (k0_off34_inb k) x) (hcol_t2 k) (chk_t2 (F := F) k _)]
  iexact Hb

/-! ## The first scan of buffer 1 (chunk 1, classes 40 … 79) -/

/-- Before trip `k`: the index scratch at the tile's words, buffer 1 scanned in its first `k` column blocks. -/
def inv4 (ixc : Buf (Elt F) ((thr d L).loc cc0_scratch0)) (g0 : Buf (Elt F) ((thr d L).loc cc0_scratch2)) (k : Nat) (_ : BitVec 32) : sProp 𝕄 :=
  iprop(((sI : Memref sig .scVector .vmem S512 .i32).view.loc (thr d L) ↦{fullShare} ixc)
    ∗ (b1 : Memref sig .scVector .vmem S40x512 .f32).view.loc (thr d L) ↦{fullShare} scanTo1 (wordAt ixc) 40#32 80#32 g0 k)

omit [FloatOps F] in
theorem hcol_t4 (k : Fin k0_t4_loop.trips) (x : S16.Idx) : (k0_pay21 k x).toNat = 16 * k.val + (x 0).val := by
  have := cols_t4 k (x 0); rwa [← eq_laneIdx x] at this

theorem chk_t4 (k : Fin k0_t4_loop.trips) (v33 : IVec S16 32) : k0_chk2 (k0_pay21 k) (k0_pay23 (F := F) v33) :=
  scan_inb 40#32 80#32 (by decide) (by decide) v33 (k0_pay21 k) (fun x => by
    have hk : k.val < 32 := lt_of_lt_of_eq k.isLt trips_t4
    have hx : (x 0).val < 16 := (x 0).isLt
    rw [hcol_t4]; omega)

theorem t4_trip (ixc : Buf (Elt F) ((thr d L).loc cc0_scratch0)) (g0 : Buf (Elt F) ((thr d L).loc cc0_scratch2))
    (k : Fin k0_t4_loop.trips) (acc : BitVec 32) :
    inv4 d L ixc g0 k acc ⊢ wp frame (wpE (defs₀ (F := F)) 𝒱₀ (thr d L) none) Set.univ
      (k0_t4_body L cV (Memref.isWhole_whole _) oV (Memref.isWhole_whole _) sI (Memref.isWhole_whole _) b0 (Memref.isWhole_whole _)
        b1 (Memref.isWhole_whole _) cc0_scratch3 cc0_scratch4 cc0_scoped0 k acc) (inv4 d L ixc g0 (k + 1)) := by
  unfold inv4 k0_t4_body
  iintro ⟨Hs, Hb⟩
  sl_exec (disch := exact chk_t4 (F := F) _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  rw [b1_write_whole, b1_read_whole]
  sl_step
  isplitl [Hs]; · iexact Hs
  rw [← scan1_step (F := F) (wordAt ixc) 40#32 80#32 g0 k
    (View.readAt (Elt F) (View.whole (cc0_scratch0 : Ref sig .scVector)) (Rect.unit (s := S512) (k0_off68 k) S16.size (k0_off68_inb k)).toLoadRect ixc)
    (k0_pay21 k) (fun x => load_words (F := F) ixc (k0_off68 k) k (by rw [k0_off68_eq]; rfl) (k0_off68_inb k) x) (hcol_t4 k) (chk_t4 (F := F) k _)]
  iexact Hb

end Cert.Proof.KB

end
-- ==== Proof.PayFormsB.lean ====
/-
  The scans' payloads as the mask and row vectors of a chunk. Chunk `q` of the classes is [40 q, 40 q + 40), for
  q below 25; a word lies in it at row `r` exactly when it is the number 40 q + r. Each mask / row payload of the
  program is the mask / row vector of one chunk: the first scans at chunks 0 and 1, trip `k` of the main loop clearing
  chunk 2 k and setting chunk 2 k + 2 in the first buffer, clearing 2 k + 1 and setting 2 k + 3 in the second, the
  last scan clearing chunk 22 and setting chunk 24.
-/
import proofs.«200183_g76879914599096_cont_sun_c4_587_30_alg».proof.Proof.ScanB
import proofs.«200183_g76879914599096_cont_sun_c4_587_30_alg».proof.Proof.FillB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The chunks' bounds -/

/-- Chunk `q` is the classes [40 q, 40 q + 40). -/
def cLo (q : Nat) : BitVec 32 := BitVec.ofNat 32 (40 * q)
def cHi (q : Nat) : BitVec 32 := BitVec.ofNat 32 (40 * q + 40)

omit [FloatOps F] in
/-- A chunk starts at a non-negative class. -/
theorem cLo_nonneg (q : Nat) (hq : q < 25) : 0 ≤ (cLo q).toInt := by
  unfold cLo
  have e1 : (40 * q) % 2 ^ 32 = 40 * q := Nat.mod_eq_of_lt (by omega)
  simp only [BitVec.toInt_eq_toNat_cond, BitVec.toNat_ofNat, e1]
  omega

omit [FloatOps F] in
/-- A chunk is 40 classes long, read signed. -/
theorem cHi_toInt (q : Nat) (hq : q < 25) : (cHi q).toInt = (cLo q).toInt + 40 := by
  unfold cLo cHi
  have e1 : (40 * q) % 2 ^ 32 = 40 * q := Nat.mod_eq_of_lt (by omega)
  have e2 : (40 * q + 40) % 2 ^ 32 = 40 * q + 40 := Nat.mod_eq_of_lt (by omega)
  simp only [BitVec.toInt_eq_toNat_cond, BitVec.toNat_ofNat, e1, e2]
  omega

omit [FloatOps F] in
/-- A word is class `r` of chunk `q` exactly when it is the number 40 q + r. -/
theorem sel_iff (q r : Nat) (hq : q < 25) (hr : r < 40) (w : BitVec 32) :
    sel (cLo q) (cHi q) w r ↔ w = BitVec.ofNat 32 (40 * q + r) := by
  unfold sel cLo cHi
  have e1 : (40 * q) % 2 ^ 32 = 40 * q := Nat.mod_eq_of_lt (by omega)
  have e2 : (40 * q + 40) % 2 ^ 32 = 40 * q + 40 := Nat.mod_eq_of_lt (by omega)
  have e3 : (40 * q + r) % 2 ^ 32 = 40 * q + r := Nat.mod_eq_of_lt (by omega)
  rw [BitVec.sle_eq_decide, decide_eq_true_eq, BitVec.slt_eq_decide, decide_eq_true_eq]
  constructor
  · rintro ⟨h1, h2, h3⟩
    apply BitVec.eq_of_toNat_eq
    rw [BitVec.toNat_sub] at h3
    simp only [BitVec.toInt_eq_toNat_cond, BitVec.toNat_ofNat, e1, e2, e3] at h1 h2 h3 ⊢
    have := w.isLt
    omega
  · rintro rfl
    rw [BitVec.toNat_sub]
    simp only [BitVec.toInt_eq_toNat_cond, BitVec.toNat_ofNat, e1, e2, e3]
    omega

/-! ## The first scans and the last: literal bounds -/

theorem pay19_eq (v : Vec F S16 .i32) : k0_pay19 (F := F) v = maskV (cLo 0) (cHi 0) v := rfl
theorem pay20_eq (v : Vec F S16 .i32) : k0_pay20 (F := F) v = rowV (cLo 0) (cHi 0) v := rfl
theorem pay22_eq (v : Vec F S16 .i32) : k0_pay22 (F := F) v = maskV (cLo 1) (cHi 1) v := rfl
theorem pay23_eq (v : Vec F S16 .i32) : k0_pay23 (F := F) v = rowV (cLo 1) (cHi 1) v := rfl
theorem pay12_eq (v : Vec F S16 .i32) : k0_pay12 (F := F) v = maskV (cLo 22) (cHi 22) v := rfl
theorem pay13_eq (v : Vec F S16 .i32) : k0_pay13 (F := F) v = rowV (cLo 22) (cHi 22) v := rfl
theorem pay14_eq (v : Vec F S16 .i32) : k0_pay14 (F := F) v = maskV (cLo 24) (cHi 24) v := rfl
theorem pay15_eq (v : Vec F S16 .i32) : k0_pay15 (F := F) v = rowV (cLo 24) (cHi 24) v := rfl

/-! ## The main loop's trips: the bounds computed from the trip's number -/

omit [FloatOps F] in
/-- Trip `k` clears chunk 2 k of the first buffer: ((2 k + 2 + 0) · 40) − 80 = 40 · (2 k). -/
theorem lo_clr0 : ∀ k5 : Fin k0_t5_loop.trips,
    Scalar.subi (Scalar.muli (Scalar.addi (Scalar.addi (Scalar.muli 2#32 (Scf.iv 0#32 1#32 k5)) 2#32) 0#32) 40#32) 80#32
      = cLo (2 * k5.val) := by decide +kernel
omit [FloatOps F] in
theorem hi_clr0 : ∀ k5 : Fin k0_t5_loop.trips,
    Scalar.addi (Scalar.subi (Scalar.muli (Scalar.addi (Scalar.addi (Scalar.muli 2#32 (Scf.iv 0#32 1#32 k5)) 2#32) 0#32) 40#32) 80#32) 40#32
      = cHi (2 * k5.val) := by decide +kernel
omit [FloatOps F] in
/-- Trip `k` sets chunk 2 k + 2 of the first buffer: (2 k + 2 + 0) · 40. -/
theorem lo_set0 : ∀ k5 : Fin k0_t5_loop.trips,
    Scalar.muli (Scalar.addi (Scalar.addi (Scalar.muli 2#32 (Scf.iv 0#32 1#32 k5)) 2#32) 0#32) 40#32
      = cLo (2 * k5.val + 2) := by decide +kernel
omit [FloatOps F] in
theorem hi_set0 : ∀ k5 : Fin k0_t5_loop.trips,
    Scalar.addi (Scalar.muli (Scalar.addi (Scalar.addi (Scalar.muli 2#32 (Scf.iv 0#32 1#32 k5)) 2#32) 0#32) 40#32) 40#32
      = cHi (2 * k5.val + 2) := by decide +kernel
omit [FloatOps F] in
/-- Trip `k` clears chunk 2 k + 1 of the second buffer: ((2 k + 2 + 1) · 40) − 80 = 40 · (2 k + 1). -/
theorem lo_clr1 : ∀ k5 : Fin k0_t5_loop.trips,
    Scalar.subi (Scalar.muli (Scalar.addi (Scalar.addi (Scalar.muli 2#32 (Scf.iv 0#32 1#32 k5)) 2#32) 1#32) 40#32) 80#32
      = cLo (2 * k5.val + 1) := by decide +kernel
omit [FloatOps F] in
theorem hi_clr1 : ∀ k5 : Fin k0_t5_loop.trips,
    Scalar.addi (Scalar.subi (Scalar.muli (Scalar.addi (Scalar.addi (Scalar.muli 2#32 (Scf.iv 0#32 1#32 k5)) 2#32) 1#32) 40#32) 80#32) 40#32
      = cHi (2 * k5.val + 1) := by decide +kernel
omit [FloatOps F] in
/-- Trip `k` sets chunk 2 k + 3 of the second buffer: (2 k + 2 + 1) · 40. -/
theorem lo_set1 : ∀ k5 : Fin k0_t5_loop.trips,
    Scalar.muli (Scalar.addi (Scalar.addi (Scalar.muli 2#32 (Scf.iv 0#32 1#32 k5)) 2#32) 1#32) 40#32
      = cLo (2 * k5.val + 3) := by decide +kernel
omit [FloatOps F] in
theorem hi_set1 : ∀ k5 : Fin k0_t5_loop.trips,
    Scalar.addi (Scalar.muli (Scalar.addi (Scalar.addi (Scalar.muli 2#32 (Scf.iv 0#32 1#32 k5)) 2#32) 1#32) 40#32) 40#32
      = cHi (2 * k5.val + 3) := by decide +kernel

theorem pay2_eq (k5 : Fin k0_t5_loop.trips) (v : Vec F S16 .i32) :
    k0_pay2 (F := F) 0#32 k5 v = maskV (cLo (2 * k5.val)) (cHi (2 * k5.val)) v := by
  rw [← lo_clr0 k5, ← hi_clr0 k5]; rfl
theorem pay3_eq (k5 : Fin k0_t5_loop.trips) (v : Vec F S16 .i32) :
    k0_pay3 (F := F) 0#32 k5 v = rowV (cLo (2 * k5.val)) (cHi (2 * k5.val)) v := by
  rw [← lo_clr0 k5, ← hi_clr0 k5]; rfl
theorem pay4_eq (k5 : Fin k0_t5_loop.trips) (v : Vec F S16 .i32) :
    k0_pay4 (F := F) 0#32 k5 v = maskV (cLo (2 * k5.val + 2)) (cHi (2 * k5.val + 2)) v := by
  rw [← lo_set0 k5, ← hi_set0 k5]; rfl
theorem pay5_eq (k5 : Fin k0_t5_loop.trips) (v : Vec F S16 .i32) :
    k0_pay5 (F := F) 0#32 k5 v = rowV (cLo (2 * k5.val + 2)) (cHi (2 * k5.val + 2)) v := by
  rw [← lo_set0 k5, ← hi_set0 k5]; rfl
theorem pay7_eq (k5 : Fin k0_t5_loop.trips) (v : Vec F S16 .i32) :
    k0_pay7 (F := F) 0#32 k5 v = maskV (cLo (2 * k5.val + 1)) (cHi (2 * k5.val + 1)) v := by
  rw [← lo_clr1 k5, ← hi_clr1 k5]; rfl
theorem pay8_eq (k5 : Fin k0_t5_loop.trips) (v : Vec F S16 .i32) :
    k0_pay8 (F := F) 0#32 k5 v = rowV (cLo (2 * k5.val + 1)) (cHi (2 * k5.val + 1)) v := by
  rw [← lo_clr1 k5, ← hi_clr1 k5]; rfl
theorem pay9_eq (k5 : Fin k0_t5_loop.trips) (v : Vec F S16 .i32) :
    k0_pay9 (F := F) 0#32 k5 v = maskV (cLo (2 * k5.val + 3)) (cHi (2 * k5.val + 3)) v := by
  rw [← lo_set1 k5, ← hi_set1 k5]; rfl
theorem pay10_eq (k5 : Fin k0_t5_loop.trips) (v : Vec F S16 .i32) :
    k0_pay10 (F := F) 0#32 k5 v = rowV (cLo (2 * k5.val + 3)) (cHi (2 * k5.val + 3)) v := by
  rw [← lo_set1 k5, ← hi_set1 k5]; rfl

/-! ## The stored values -/

theorem pay16_eq : k0_pay16 (F := F) = broadcast S16 (zF : F .f32) := rfl
theorem pay17_eq : k0_pay17 (F := F) = broadcast S16 (oF : F .f32) := rfl

end Cert.Proof.KB

end
-- ==== Proof.ScanStepsB.lean ====
import proofs.«200183_g76879914599096_cont_sun_c4_587_30_alg».proof.Proof.ScanBlocksB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-- One block of a later scan, the stores' masks, rows and values given up to equations. -/
theorem scan2_step' (W : Nat → BitVec 32) (plo phi lo hi : BitVec 32) (g : S40x512.Idx → Elt F .f32) (n : Nat) (cls colv : IVec S16 32)
    (hcls : ∀ x : S16.Idx, cls x = W (16 * n + (x 0).val)) (hcol : ∀ x : S16.Idx, (colv x).toNat = 16 * n + (x 0).val)
    (mp : IVec S16 1) (rp : IVec S16 32) (mc : IVec S16 1) (rc : IVec S16 32) (zs os : S16.Idx → Elt F .f32)
    (hmp : mp = maskV plo phi cls) (hrp : rp = rowV plo phi cls) (hmc : mc = maskV lo hi cls) (hrc : rc = rowV lo hi cls)
    (hzs : zs = broadcast S16 (zF : F .f32)) (hos : os = broadcast S16 (oF : F .f32))
    (hp : ∀ a x, ((![rp, colv] : Fin 2 → IVec S16 32) a x).toNat < S40x512.size a)
    (h : ∀ a x, ((![rc, colv] : Fin 2 → IVec S16 32) a x).toNat < S40x512.size a) :
    storeIdx (F := F) (e := .f32)
        (storeIdx (F := F) (e := .f32) (scanTo W plo phi lo hi g n) ![rp, colv] zs mp false hp)
        ![rc, colv] os mc false h
      = scanTo W plo phi lo hi g (n + 1) := by
  subst hmp hrp hmc hrc hzs hos
  exact scan2_step W plo phi lo hi g n cls colv hcls hcol hp h

end Cert.Proof.KB

end
-- ==== Proof.ScanTrips2B.lean ====
import proofs.«200183_g76879914599096_cont_sun_c4_587_30_alg».proof.Proof.TripLemmasB
import proofs.«200183_g76879914599096_cont_sun_c4_587_30_alg».proof.Proof.PayFormsB
import proofs.«200183_g76879914599096_cont_sun_c4_587_30_alg».proof.Proof.ScanStepsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The scans that clear one chunk's ones and set the next: two masked stores per column block. -/

variable [FloatOps F]
variable (d : Dev nD) (L : grid0.Coords)

/-! ## The main loop's scan of buffer 0: trip k5 clears chunk 2 k5 and sets chunk 2 k5 + 2 -/

/-- Before trip `k`: the index scratch at the tile's words, the buffer scanned in its first `k` column blocks. -/
def inv6 (ixc : Buf (Elt F) ((thr d L).loc cc0_scratch0)) (g0 : Buf (Elt F) ((thr d L).loc cc0_scratch1)) (k5 : Fin k0_t5_loop.trips) (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo (wordAt ixc) (cLo (2 * k5.val)) (cHi (2 * k5.val)) (cLo (2 * k5.val + 2)) (cHi (2 * k5.val + 2)) g0 k)

omit [FloatOps F] in
theorem hcol_t6 (k : Fin k0_t6_loop.trips) (x : S16.Idx) : (k0_pay1 (iota .scVector S16 32 [0] iota_S16_d0_w32_scVector) k x).toNat = 16 * k.val + (x 0).val := by
  have := cols_t6 k (x 0); rwa [← eq_laneIdx x] at this

omit [FloatOps F] in
theorem hcol512_t6 (k : Fin k0_t6_loop.trips) (x : S16.Idx) : (k0_pay1 (iota .scVector S16 32 [0] iota_S16_d0_w32_scVector) k x).toNat < 512 := by
  have hk : k.val < 32 := lt_of_lt_of_eq k.isLt trips_t6
  have hx : (x 0).val < 16 := (x 0).isLt
  rw [hcol_t6]; omega

theorem chkp_t6 (k5 : Fin k0_t5_loop.trips) (k : Fin k0_t6_loop.trips) (v : IVec S16 32) : k0_chk3 (k0_pay1 (iota .scVector S16 32 [0] iota_S16_d0_w32_scVector) k) (k0_pay3 (F := F) 0#32 k5 v) := by
  show ∀ a x, ((![k0_pay3 (F := F) 0#32 k5 v, k0_pay1 (iota .scVector S16 32 [0] iota_S16_d0_w32_scVector) k] : Fin 2 → IVec S16 32) a x).toNat < S40x512.size a
  rw [pay3_eq k5]
  exact scan_inb _ _ (cLo_nonneg _ (by have := lt_of_lt_of_eq k5.isLt trips_t5; omega)) (cHi_toInt _ (by have := lt_of_lt_of_eq k5.isLt trips_t5; omega)) v _ (hcol512_t6 k)

theorem chkc_t6 (k5 : Fin k0_t5_loop.trips) (k : Fin k0_t6_loop.trips) (v : IVec S16 32) : k0_chk4 (k0_pay1 (iota .scVector S16 32 [0] iota_S16_d0_w32_scVector) k) (k0_pay5 (F := F) 0#32 k5 v) := by
  show ∀ a x, ((![k0_pay5 (F := F) 0#32 k5 v, k0_pay1 (iota .scVector S16 32 [0] iota_S16_d0_w32_scVector) k] : Fin 2 → IVec S16 32) a x).toNat < S40x512.size a
  rw [pay5_eq k5]
  exact scan_inb _ _ (cLo_nonneg _ (by have := lt_of_lt_of_eq k5.isLt trips_t5; omega)) (cHi_toInt _ (by have := lt_of_lt_of_eq k5.isLt trips_t5; omega)) v _ (hcol512_t6 k)

theorem t6_trip (ixc : Buf (Elt F) ((thr d L).loc cc0_scratch0)) (g0 : Buf (Elt F) ((thr d L).loc cc0_scratch1)) (k5 : Fin k0_t5_loop.trips)
    (k : Fin k0_t6_loop.trips) (acc : BitVec 32) :
    inv6 d L ixc g0 k5 k acc ⊢ wp frame (wpE (defs₀ (F := F)) 𝒱₀ (thr d L) none) Set.univ
      (k0_t6_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 k acc) (inv6 d L ixc g0 k5 (k + 1)) := by
  unfold inv6 k0_t6_body
  iintro ⟨Hs, Hb⟩
  sl_exec (disch := exact chkp_t6 (F := F) k5 _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  sl_exec (disch := exact chkc_t6 (F := F) k5 _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole, b0_write_whole, b0_read_whole]
  sl_step
  isplitl [Hs]; · iexact Hs
  delta t6_trip.sl.v63 t6_trip.sl.v72 t6_trip.sl.v81
  rw [← scan2_step' (F := F) (wordAt ixc) (cLo (2 * k5.val)) (cHi (2 * k5.val)) (cLo (2 * k5.val + 2)) (cHi (2 * k5.val + 2)) g0 k
    (View.readAt (Elt F) (View.whole (cc0_scratch0 : Ref sig .scVector)) (Rect.unit (s := S512) (k0_off71 k) S16.size (k0_off71_inb k)).toLoadRect ixc)
    (k0_pay1 (iota .scVector S16 32 [0] iota_S16_d0_w32_scVector) k) (fun x => load_words (F := F) ixc (k0_off71 k) k (by rw [k0_off71_eq]; rfl) (k0_off71_inb k) x) (hcol_t6 k)
    _ _ _ _ _ _ (pay2_eq k5 _) (pay3_eq k5 _) (pay4_eq k5 _) (pay5_eq k5 _) pay16_eq pay17_eq
    (chkp_t6 (F := F) k5 k _) (chkc_t6 (F := F) k5 k _)]
  iexact Hb

/-! ## The main loop's scan of buffer 1: trip k5 clears chunk 2 k5 + 1 and sets chunk 2 k5 + 3 -/

/-- Before trip `k`: the index scratch at the tile's words, the buffer scanned in its first `k` column blocks. -/
def inv7 (ixc : Buf (Elt F) ((thr d L).loc cc0_scratch0)) (g0 : Buf (Elt F) ((thr d L).loc cc0_scratch2)) (k5 : Fin k0_t5_loop.trips) (k : Nat) (_ : BitVec 32) : sProp 𝕄 :=
  iprop(((sI : Memref sig .scVector .vmem S512 .i32).view.loc (thr d L) ↦{fullShare} ixc)
    ∗ (b1 : Memref sig .scVector .vmem S40x512 .f32).view.loc (thr d L) ↦{fullShare} scanTo (wordAt ixc) (cLo (2 * k5.val + 1)) (cHi (2 * k5.val + 1)) (cLo (2 * k5.val + 3)) (cHi (2 * k5.val + 3)) g0 k)

omit [FloatOps F] in
theorem hcol_t7 (k : Fin k0_t7_loop.trips) (x : S16.Idx) : (k0_pay6 (iota .scVector S16 32 [0] iota_S16_d0_w32_scVector) k x).toNat = 16 * k.val + (x 0).val := by
  have := cols_t7 k (x 0); rwa [← eq_laneIdx x] at this

omit [FloatOps F] in
theorem hcol512_t7 (k : Fin k0_t7_loop.trips) (x : S16.Idx) : (k0_pay6 (iota .scVector S16 32 [0] iota_S16_d0_w32_scVector) k x).toNat < 512 := by
  have hk : k.val < 32 := lt_of_lt_of_eq k.isLt trips_t7
  have hx : (x 0).val < 16 := (x 0).isLt
  rw [hcol_t7]; omega

theorem chkp_t7 (k5 : Fin k0_t5_loop.trips) (k : Fin k0_t7_loop.trips) (v : IVec S16 32) : k0_chk5 (k0_pay6 (iota .scVector S16 32 [0] iota_S16_d0_w32_scVector) k) (k0_pay8 (F := F) 0#32 k5 v) := by
  show ∀ a x, ((![k0_pay8 (F := F) 0#32 k5 v, k0_pay6 (iota .scVector S16 32 [0] iota_S16_d0_w32_scVector) k] : Fin 2 → IVec S16 32) a x).toNat < S40x512.size a
  rw [pay8_eq k5]
  exact scan_inb _ _ (cLo_nonneg _ (by have := lt_of_lt_of_eq k5.isLt trips_t5; omega)) (cHi_toInt _ (by have := lt_of_lt_of_eq k5.isLt trips_t5; omega)) v _ (hcol512_t7 k)

theorem chkc_t7 (k5 : Fin k0_t5_loop.trips) (k : Fin k0_t7_loop.trips) (v : IVec S16 32) : k0_chk6 (k0_pay6 (iota .scVector S16 32 [0] iota_S16_d0_w32_scVector) k) (k0_pay10 (F := F) 0#32 k5 v) := by
  show ∀ a x, ((![k0_pay10 (F := F) 0#32 k5 v, k0_pay6 (iota .scVector S16 32 [0] iota_S16_d0_w32_scVector) k] : Fin 2 → IVec S16 32) a x).toNat < S40x512.size a
  rw [pay10_eq k5]
  exact scan_inb _ _ (cLo_nonneg _ (by have := lt_of_lt_of_eq k5.isLt trips_t5; omega)) (cHi_toInt _ (by have := lt_of_lt_of_eq k5.isLt trips_t5; omega)) v _ (hcol512_t7 k)

theorem t7_trip (ixc : Buf (Elt F) ((thr d L).loc cc0_scratch0)) (g0 : Buf (Elt F) ((thr d L).loc cc0_scratch2)) (k5 : Fin k0_t5_loop.trips)
    (k : Fin k0_t7_loop.trips) (acc : BitVec 32) :
    inv7 d L ixc g0 k5 k acc ⊢ wp frame (wpE (defs₀ (F := F)) 𝒱₀ (thr d L) none) Set.univ
      (k0_t7_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 k acc) (inv7 d L ixc g0 k5 (k + 1)) := by
  unfold inv7 k0_t7_body
  iintro ⟨Hs, Hb⟩
  sl_exec (disch := exact chkp_t7 (F := F) k5 _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  sl_exec (disch := exact chkc_t7 (F := F) k5 _ _)
  ihave Hb' := (Entails.of_eq (pts_b1_acc (F := F) d L _).symm) $$ Hb
  iapply (SparseCore.wp_vectorStoreIdx 𝒱₀ (thr d L) none Set.univ (base := b1)) $$ Hb'
  iintro Hb'
  ihave Hb := (Entails.of_eq (pts_b1_acc (F := F) d L _)) $$ Hb'
  rw [b1_write_whole, b1_read_whole, b1_write_whole, b1_read_whole]
  sl_step
  isplitl [Hs]; · iexact Hs
  delta t7_trip.sl.v63 t7_trip.sl.v72 t7_trip.sl.v81
  rw [← scan2_step' (F := F) (wordAt ixc) (cLo (2 * k5.val + 1)) (cHi (2 * k5.val + 1)) (cLo (2 * k5.val + 3)) (cHi (2 * k5.val + 3)) g0 k
    (View.readAt (Elt F) (View.whole (cc0_scratch0 : Ref sig .scVector)) (Rect.unit (s := S512) (k0_off72 k) S16.size (k0_off72_inb k)).toLoadRect ixc)
    (k0_pay6 (iota .scVector S16 32 [0] iota_S16_d0_w32_scVector) k) (fun x => load_words (F := F) ixc (k0_off72 k) k (by rw [k0_off72_eq]; rfl) (k0_off72_inb k) x) (hcol_t7 k)
    _ _ _ _ _ _ (pay7_eq k5 _) (pay8_eq k5 _) (pay9_eq k5 _) (pay10_eq k5 _) pay16_eq pay17_eq
    (chkp_t7 (F := F) k5 k _) (chkc_t7 (F := F) k5 k _)]
  iexact Hb

/-! ## The last scan of buffer 0: clears chunk 22 and sets chunk 24 -/

/-- Before trip `k`: the index scratch at the tile's words, the buffer scanned in its first `k` column blocks. -/
def inv8 (ixc : Buf (Elt F) ((thr d L).loc cc0_scratch0)) (g0 : Buf (Elt F) ((thr d L).loc cc0_scratch1))  (k : Nat) (_ : BitVec 32) : sProp 𝕄 :=
  iprop(((sI : Memref sig .scVector .vmem S512 .i32).view.loc (thr d L) ↦{fullShare} ixc)
    ∗ (b0 : Memref sig .scVector .vmem S40x512 .f32).view.loc (thr d L) ↦{fullShare} scanTo (wordAt ixc) (cLo (22)) (cHi (22)) (cLo (24)) (cHi (24)) g0 k)

omit [FloatOps F] in
theorem hcol_t8 (k : Fin k0_t8_loop.trips) (x : S16.Idx) : (k0_pay11 (iota .scVector S16 32 [0] iota_S16_d0_w32_scVector) k x).toNat = 16 * k.val + (x 0).val := by
  have := cols_t8 k (x 0); rwa [← eq_laneIdx x] at this

omit [FloatOps F] in
theorem hcol512_t8 (k : Fin k0_t8_loop.trips) (x : S16.Idx) : (k0_pay11 (iota .scVector S16 32 [0] iota_S16_d0_w32_scVector) k x).toNat < 512 := by
  have hk : k.val < 32 := lt_of_lt_of_eq k.isLt trips_t8
  have hx : (x 0).val < 16 := (x 0).isLt
  rw [hcol_t8]; omega

theorem chkp_t8  (k : Fin k0_t8_loop.trips) (v : IVec S16 32) : k0_chk7 (k0_pay11 (iota .scVector S16 32 [0] iota_S16_d0_w32_scVector) k) (k0_pay13 (F := F) v) := by
  show ∀ a x, ((![k0_pay13 (F := F) v, k0_pay11 (iota .scVector S16 32 [0] iota_S16_d0_w32_scVector) k] : Fin 2 → IVec S16 32) a x).toNat < S40x512.size a
  rw [pay13_eq]
  exact scan_inb _ _ (cLo_nonneg _ (by omega)) (cHi_toInt _ (by omega)) v _ (hcol512_t8 k)

theorem chkc_t8  (k : Fin k0_t8_loop.trips) (v : IVec S16 32) : k0_chk8 (k0_pay11 (iota .scVector S16 32 [0] iota_S16_d0_w32_scVector) k) (k0_pay15 (F := F) v) := by
  show ∀ a x, ((![k0_pay15 (F := F) v, k0_pay11 (iota .scVector S16 32 [0] iota_S16_d0_w32_scVector) k] : Fin 2 → IVec S16 32) a x).toNat < S40x512.size a
  rw [pay15_eq]
  exact scan_inb _ _ (cLo_nonneg _ (by omega)) (cHi_toInt _ (by omega)) v _ (hcol512_t8 k)

theorem t8_trip (ixc : Buf (Elt F) ((thr d L).loc cc0_scratch0)) (g0 : Buf (Elt F) ((thr d L).loc cc0_scratch1))
    (k : Fin k0_t8_loop.trips) (acc : BitVec 32) :
    inv8 d L ixc g0  k acc ⊢ wp frame (wpE (defs₀ (F := F)) 𝒱₀ (thr d L) none) Set.univ
      (k0_t8_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector)  k acc) (inv8 d L ixc g0  (k + 1)) := by
  unfold inv8 k0_t8_body
  iintro ⟨Hs, Hb⟩
  sl_exec (disch := exact chkp_t8 (F := F)  _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  sl_exec (disch := exact chkc_t8 (F := F)  _ _)
  ihave Hb' := (Entails.of_eq (pts_b0_acc (F := F) d L _).symm) $$ Hb
  iapply (SparseCore.wp_vectorStoreIdx 𝒱₀ (thr d L) none Set.univ (base := b0)) $$ Hb'
  iintro Hb'
  ihave Hb := (Entails.of_eq (pts_b0_acc (F := F) d L _)) $$ Hb'
  rw [b0_write_whole, b0_read_whole, b0_write_whole, b0_read_whole]
  sl_step
  isplitl [Hs]; · iexact Hs
  delta t8_trip.sl.v35 t8_trip.sl.v44 t8_trip.sl.v53
  rw [← scan2_step' (F := F) (wordAt ixc) (cLo (22)) (cHi (22)) (cLo (24)) (cHi (24)) g0 k
    (View.readAt (Elt F) (View.whole (cc0_scratch0 : Ref sig .scVector)) (Rect.unit (s := S512) (k0_off74 k) S16.size (k0_off74_inb k)).toLoadRect ixc)
    (k0_pay11 (iota .scVector S16 32 [0] iota_S16_d0_w32_scVector) k) (fun x => load_words (F := F) ixc (k0_off74 k) k (by rw [k0_off74_eq]; rfl) (k0_off74_inb k) x) (hcol_t8 k)
    _ _ _ _ _ _ (pay12_eq _) (pay13_eq _) (pay14_eq _) (pay15_eq _) pay16_eq pay17_eq
    (chkp_t8 (F := F)  k _) (chkc_t8 (F := F)  k _)]
  iexact Hb

end Cert.Proof.KB

end
-- ==== Proof.ChunksB.lean ====
/-
  The tile's band of the transposed array, by rows: rows [a, a + n) of the tile's 512 columns as a set of indices
  stated without any in-bounds evidence; every unit rectangle at those offsets and sizes is that set, so the band is
  rows [0, 1000), and each chunk's destination is its 40 rows; consecutive row ranges split and join. The tile's 512
  class words are the set of the slice the body copies them from.
-/
import proofs.«200183_g76879914599096_cont_sun_c4_587_30_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Rows [a, a + n) of the tile's 512 columns. -/
def rowsSet (L : grid0.Coords) (a n : Nat) : Finset S1000x16384.Idx :=
  Finset.univ.filter fun i => a ≤ (i 0).val ∧ (i 0).val < a + n ∧ colOff L ≤ (i 1).val ∧ (i 1).val < colOff L + 512

theorem mem_rowsSet {L : grid0.Coords} {a n : Nat} {i : S1000x16384.Idx} :
    i ∈ rowsSet L a n ↔ a ≤ (i 0).val ∧ (i 0).val < a + n ∧ colOff L ≤ (i 1).val ∧ (i 1).val < colOff L + 512 := by
  unfold rowsSet; simp only [Finset.mem_filter, Finset.mem_univ, true_and]

/-- A unit rectangle from row a, n rows, over the tile's columns is those rows' set, whatever its in-bounds evidence. -/
theorem rows_unit (L : grid0.Coords) {a n : Nat} {off size : Fin S1000x16384.rank → Nat} (h : ∀ x, off x + size x ≤ S1000x16384.size x)
    (h0 : off 0 = a) (h1 : off 1 = colOff L) (s0 : size 0 = n) (s1 : size 1 = 512) :
    (Rect.unit (s := S1000x16384) off size h).set = rowsSet L a n := by
  ext i
  rw [Rect.mem_set_unit, mem_rowsSet]
  constructor
  · intro H
    have H0 := H 0
    have H1 := H 1
    rw [h0, s0] at H0; rw [h1, s1] at H1
    exact ⟨H0.1, H0.2, H1.1, H1.2⟩
  · rintro ⟨a1, a2, b1, b2⟩ x
    match x with
    | 0 => rw [h0, s0]; exact ⟨a1, a2⟩
    | 1 => rw [h1, s1]; exact ⟨b1, b2⟩

/-- The band is all 1000 rows. -/
theorem oBand_eq (L : grid0.Coords) : oBand L = rowsSet L 0 1000 := rows_unit L _ rfl rfl rfl rfl

/-! ## The chunks' destinations, as the body slices them -/

theorem view_off35 (L : grid0.Coords) :
    ((oV.slice (Rect.unit (s := S1000x16384) (k0_off35 L) S40x512.size (k0_off35_inb L)) (fun _ => rfl)).view.set) = rowsSet L 0 40 := by
  show ((View.whole (main_v0_scv : Ref sig .scVector)).slice _).set = _
  rw [View.set_slice_whole]
  exact rows_unit L _ (by rw [k0_off35_eq]; rfl) (by rw [k0_off35_eq]; rfl) rfl rfl

theorem view_off69 (L : grid0.Coords) :
    ((oV.slice (Rect.unit (s := S1000x16384) (k0_off69 L) S40x512.size (k0_off69_inb L)) (fun _ => rfl)).view.set) = rowsSet L 40 40 := by
  show ((View.whole (main_v0_scv : Ref sig .scVector)).slice _).set = _
  rw [View.set_slice_whole]
  exact rows_unit L _ (by rw [k0_off69_eq]; rfl) (by rw [k0_off69_eq]; rfl) rfl rfl

theorem view_off73 (L : grid0.Coords) :
    ((oV.slice (Rect.unit (s := S1000x16384) (k0_off73 L) S40x512.size (k0_off73_inb L)) (fun _ => rfl)).view.set) = rowsSet L 960 40 := by
  show ((View.whole (main_v0_scv : Ref sig .scVector)).slice _).set = _
  rw [View.set_slice_whole]
  exact rows_unit L _ (by rw [k0_off73_eq]; rfl) (by rw [k0_off73_eq]; rfl) rfl rfl

theorem view_off75 (L : grid0.Coords) :
    ((oV.slice (Rect.unit (s := S1000x16384) (k0_off75 L) S40x512.size (k0_off75_inb L)) (fun _ => rfl)).view.set) = rowsSet L 920 40 := by
  show ((View.whole (main_v0_scv : Ref sig .scVector)).slice _).set = _
  rw [View.set_slice_whole]
  exact rows_unit L _ (by rw [k0_off75_eq]; rfl) (by rw [k0_off75_eq]; rfl) rfl rfl

theorem view_off70 (L : grid0.Coords) (k5 : Fin k0_t5_loop.trips) (r : Fin 2) :
    ((oV.slice (Rect.unit (s := S1000x16384) (k0_off70 L k5 (BitVec.ofNat 32 r.val)) S40x512.size (k0_off70_inb L k5 r)) (fun _ => rfl)).view.set)
      = rowsSet L (80 * k5.val + 40 * r.val + 80) 40 := by
  show ((View.whole (main_v0_scv : Ref sig .scVector)).slice _).set = _
  rw [View.set_slice_whole]
  exact rows_unit L _ (by rw [k0_off70_eq]; rfl) (by rw [k0_off70_eq]; rfl) rfl rfl

/-- The tile's class words are the set of the slice they are copied from. -/
theorem cSet_eq (L : grid0.Coords) :
    cSet L = ((cV.slice (Rect.unit (s := S16384) (k0_off1 L) S512.size (k0_off1_inb L)) (fun _ => rfl)).view.set) := by
  symm
  show ((View.whole (main_arg0_scv : Ref sig .scVector)).slice _).set = _
  rw [View.set_slice_whole]
  ext i
  rw [cSet, cRect, Rect.mem_set_unit, Rect.mem_set_unit, k0_off1_eq]
  exact Iff.rfl

/-! ## Consecutive row ranges split and join -/

theorem rowsSet_add (L : grid0.Coords) (a n1 n2 : Nat) : rowsSet L a (n1 + n2) = rowsSet L a n1 ∪ rowsSet L (a + n1) n2 := by
  ext i
  simp only [Finset.mem_union, mem_rowsSet]
  omega

theorem rowsSet_disjoint (L : grid0.Coords) (a n1 n2 : Nat) : Disjoint (rowsSet L a n1) (rowsSet L (a + n1) n2) :=
  Finset.disjoint_left.mpr fun i h1 h2 => by
    rw [mem_rowsSet] at h1 h2
    omega

theorem rows_split (d : Dev nD) (L : grid0.Coords) (a n1 n2 : Nat) (f : Buf (Elt F) (oLoc d)) :
    (oLoc d ↦[rowsSet L a (n1 + n2)]{fullShare} f : sProp 𝕄)
      = iprop((oLoc d ↦[rowsSet L a n1]{fullShare} f) ∗ oLoc d ↦[rowsSet L (a + n1) n2]{fullShare} f) := by
  rw [rowsSet_add]
  have hu : (oLoc d ↦[rowsSet L a n1 ∪ rowsSet L (a + n1) n2]{fullShare} f : sProp 𝕄)
      ⊣⊢ iprop((oLoc d ↦[rowsSet L a n1]{fullShare} f) ∗ oLoc d ↦[rowsSet L (a + n1) n2]{fullShare} f) :=
    pointsTo_union (rowsSet_disjoint L a n1 n2)
  exact BI.equiv_iff.mp ⟨hu.1, hu.2⟩

end Cert.Proof.KB

end
-- ==== Proof.ChunkSpecB.lean ====
/-
  A chunk's block is the transposed one-hot array on the chunk's rows. Row `r` of chunk `q` is row 40 q + r of the
  whole array, and a column's word is class `r` of the chunk exactly when it is the number 40 q + r: the block's entry
  and the array's entry are one where the same condition holds, zero elsewhere.
-/
import proofs.«200183_g76879914599096_cont_sun_c4_587_30_alg».proof.Proof.ScanBlocksB
import proofs.«200183_g76879914599096_cont_sun_c4_587_30_alg».proof.Proof.PayFormsB
import proofs.«200183_g76879914599096_cont_sun_c4_587_30_alg».proof.Proof.Spec

noncomputable section

namespace Cert.Proof.KB

open Cert.Kernel Cert.Kernel.Gen

open Idealize.ShloMosaic

variable {F : FTy → Type} [FloatOps F]

/-- Entry `j` of chunk `q`'s block is entry `i` of the transposed one-hot array of the class words `x`, when `i` is row
    40 q + (row of `j`) and the block's column of `j` holds the class word of `i`'s column. -/
theorem chunk_oneHot (x : Cert.Spec.SC.Idx → BitVec 32) (W : Nat → BitVec 32) (c0 q : Nat) (hq : q < 25)
    (j : S40x512.Idx) (i : S1000x16384.Idx) (hi0 : (i 0).val = 40 * q + (j 0).val) (hi1 : (i 1).val = c0 + (j 1).val)
    (hW : W (j 1).val = x (Cert.Spec.colIdx i)) :
    chunkOf (F := F) W (cLo q) (cHi q) j = Cert.Spec.oneHotT (F := F) x i := by
  unfold chunkOf Cert.Spec.oneHotT
  rw [hW]
  have hj0 : (j 0).val < 40 := (j 0).isLt
  by_cases h : x (Cert.Spec.colIdx i) = BitVec.ofNat 32 (i 0).val
  · have hs : sel (cLo q) (cHi q) (x (Cert.Spec.colIdx i)) (j 0).val :=
      (sel_iff q (j 0).val hq hj0 _).mpr (by rw [h, hi0])
    exact (if_pos hs).trans (if_pos h).symm
  · have hs : ¬ sel (cLo q) (cHi q) (x (Cert.Spec.colIdx i)) (j 0).val :=
      fun hs => h (by rw [(sel_iff q (j 0).val hq hj0 _).mp hs, hi0])
    exact (if_neg hs).trans (if_neg h).symm

end Cert.Proof.KB

end
-- ==== Proof.LandingB.lean ====
/-
  What a landed transfer leaves. A chunk's 40 × 512 block copied onto rows [40 q, 40 q + 40) of the tile's columns
  leaves there the transposed one-hot array of the class words: the element at (row, column) is the block's element
  at (row − 40 q, column − first column), and that block entry is the array's entry. The tile's 512 class words,
  copied into the tile's memory, are the words of the tile's columns: word `col` is word (first column + col) of the
  class indices.
-/
import proofs.«200183_g76879914599096_cont_sun_c4_587_30_alg».proof.Proof.TripLemmasB
import proofs.«200183_g76879914599096_cont_sun_c4_587_30_alg».proof.Proof.ChunksB
import proofs.«200183_g76879914599096_cont_sun_c4_587_30_alg».proof.Proof.ChunkSpecB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]
variable (m : (ℓ : Loc nD τ sig) → Buf (Elt F) ℓ)

/-! ## A chunk landed on its rows -/

/-- The rows a chunk's block is copied onto, written with any payload that is the chunk's block, hold the transposed
    one-hot array of the class words. -/
theorem landed_core (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩))
    (w : S40x512.Idx → Elt F .f32) (hw : w = chunkOf (F := F) W (cLo q) (cHi q)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo [⟨Rect.whole S40x512, w⟩]) : sProp 𝕄)
      = oLoc d ↦[rowsSet L (40 * q) 40]{fullShare} (Cert.Spec.oneHotT (F := F) (m (cLoc d))) := by
  subst hw
  have hset : ((oV : Memref sig .scVector .hbm S1000x16384 .f32).slice (Rect.unit (s := S1000x16384) off S40x512.size inb) (fun _ => rfl)).view.set = rowsSet L (40 * q) 40 := by
    show ((View.whole (main_v0_scv : Ref sig .scVector)).slice _).set = _
    rw [View.set_slice_whole]
    exact rows_unit L _ h0 h1 rfl rfl
  rw [hset]
  show (oLoc d ↦[rowsSet L (40 * q) 40]{fullShare} _ : sProp 𝕄) = _
  refine pointsTo_congr (fun i hi => ?_)
  rw [mem_rowsSet] at hi
  obtain ⟨a1, a2, b1, b2⟩ := hi
  -- the block's index under `i`
  have hy0 : (i 0).val - 40 * q < 40 := by omega
  have hy1 : (i 1).val - colOff L < 512 := by omega
  have hemb : (Rect.unit (s := S1000x16384) off S40x512.size inb).emb
      (ValueIdx.ix2 (⟨(i 0).val - 40 * q, hy0⟩ : Fin 40) (⟨(i 1).val - colOff L, hy1⟩ : Fin 512)) = i := by
    funext a
    match a with
    | ⟨0, _⟩ => exact Fin.ext (by show off 0 + 1 * ((i 0).val - 40 * q) = (i 0).val; omega)
    | ⟨1, _⟩ => exact Fin.ext (by show off 1 + 1 * ((i 1).val - colOff L) = (i 1).val; omega)
  -- through the slice's view the written contents read, at that index, the block's entry
  have key : ((oV : Memref sig .scVector .hbm S1000x16384 .f32).slice (Rect.unit (s := S1000x16384) off S40x512.size inb) (fun _ => rfl)).view.read (Elt F) (((oV : Memref sig .scVector .hbm S1000x16384 .f32).slice (Rect.unit (s := S1000x16384) off S40x512.size inb) (fun _ => rfl)).view.writes (Elt F) fo [⟨Rect.whole S40x512, chunkOf (F := F) W (cLo q) (cHi q)⟩]) (ValueIdx.ix2 (⟨(i 0).val - 40 * q, hy0⟩ : Fin 40) (⟨(i 1).val - colOff L, hy1⟩ : Fin 512))
      = chunkOf (F := F) W (cLo q) (cHi q) (ValueIdx.ix2 (⟨(i 0).val - 40 * q, hy0⟩ : Fin 40) (⟨(i 1).val - colOff L, hy1⟩ : Fin 512)) := by
    have e := View.read_writes_cons_emb (s := S40x512) (Val := Elt F)
      (((oV : Memref sig .scVector .hbm S1000x16384 .f32).slice (Rect.unit (s := S1000x16384) off S40x512.size inb) (fun _ => rfl)).view : View sig .scVector .hbm S40x512 .f32) fo (Rect.whole S40x512)
      (chunkOf (F := F) W (cLo q) (cHi q)) [] (ValueIdx.ix2 (⟨(i 0).val - 40 * q, hy0⟩ : Fin 40) (⟨(i 1).val - colOff L, hy1⟩ : Fin 512))
    rw [Rect.emb_whole_apply S40x512] at e
    exact e
  generalize ((oV : Memref sig .scVector .hbm S1000x16384 .f32).slice (Rect.unit (s := S1000x16384) off S40x512.size inb) (fun _ => rfl)).view.writes (Elt F) fo [⟨Rect.whole S40x512, chunkOf (F := F) W (cLo q) (cHi q)⟩] = g at key ⊢
  -- the view reads contents at the rectangle's element
  have key' : g ((Rect.unit (s := S1000x16384) off S40x512.size inb).emb (ValueIdx.ix2 (⟨(i 0).val - 40 * q, hy0⟩ : Fin 40) (⟨(i 1).val - colOff L, hy1⟩ : Fin 512)))
      = chunkOf (F := F) W (cLo q) (cHi q) (ValueIdx.ix2 (⟨(i 0).val - 40 * q, hy0⟩ : Fin 40) (⟨(i 1).val - colOff L, hy1⟩ : Fin 512)) := key
  rw [hemb] at key'
  refine key'.trans ?_
  refine chunk_oneHot (F := F) (m (cLoc d)) W (colOff L) q hq _ i ?_ ?_ ?_
  · show (i 0).val = 40 * q + ((i 0).val - 40 * q); omega
  · show (i 1).val = colOff L + ((i 1).val - colOff L); omega
  · show W ((i 1).val - colOff L) = _
    rw [hW _ hy1]
    refine congrArg (m (cLoc d)) (funext fun a => ?_)
    match a with
    | ⟨0, _⟩ => exact Fin.ext (by show colOff L + ((i 1).val - colOff L) = (i 1).val; omega)

/-- The first buffer's chunk, landed. -/
theorem landed_chunk (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo
          [⟨Rect.whole S40x512, ReadAs.same.apply (View.read (Elt F) (b0 : Memref sig .scVector .vmem S40x512 .f32).view (chunkOf (F := F) W (cLo q) (cHi q)))⟩]) : sProp 𝕄)
      = oLoc d ↦[rowsSet L (40 * q) 40]{fullShare} (Cert.Spec.oneHotT (F := F) (m (cLoc d))) :=
  landed_core m d L q hq off inb h0 h1 fo W hW _ rfl

/-- The second buffer's chunk, landed. -/
theorem landed_chunk1 (d : Dev nD) (L : grid0.Coords) (q : Nat) (hq : q < 25) (off : Fin 2 → Nat)
    (inb : ∀ a, off a + S40x512.size a ≤ S1000x16384.size a) (h0 : off 0 = 40 * q) (h1 : off 1 = colOff L)
    (fo : Buf (Elt F) (oLoc d)) (W : Nat → BitVec 32)
    (hW : ∀ col (h : col < 512), W col = m (cLoc d) (ValueIdx.ix1 (n := 16384) ⟨colOff L + col, by have := colOff_le L; omega⟩)) :
    ((((oV : Memref sig .scVector .hbm S1000x16384 .f32).slice (Rect.unit (s := S1000x16384) off S40x512.size inb) (fun _ => rfl)).view.loc (thr d L)
        ↦[((oV : Memref sig .scVector .hbm S1000x16384 .f32).slice (Rect.unit (s := S1000x16384) off S40x512.size inb) (fun _ => rfl)).view.set]{fullShare}
        ((oV : Memref sig .scVector .hbm S1000x16384 .f32).slice (Rect.unit (s := S1000x16384) off S40x512.size inb) (fun _ => rfl)).view.writes (Elt F) fo
          [⟨Rect.whole S40x512, ReadAs.same.apply (View.read (Elt F) (b1 : Memref sig .scVector .vmem S40x512 .f32).view (chunkOf (F := F) W (cLo q) (cHi q)))⟩]) : sProp 𝕄)
      = oLoc d ↦[rowsSet L (40 * q) 40]{fullShare} (Cert.Spec.oneHotT (F := F) (m (cLoc d))) :=
  landed_core m d L q hq off inb h0 h1 fo W hW _ rfl

/-! ## The tile's words, landed -/

/-- The slice of the class indices a tile copies its words from. -/
abbrev cSl (L : grid0.Coords) : Memref sig .scVector .hbm S512 .i32 :=
  (cV : Memref sig .scVector .hbm S16384 .i32).slice (Rect.unit (s := S16384) (k0_off1 L) S512.size (k0_off1_inb L)) (fun _ => rfl)

/-- Word `col` of the tile's copy is word (first column + col) of the class indices. -/
theorem words_landed (d : Dev nD) (L : grid0.Coords) (fs : Buf (Elt F) ((thr d L).loc cc0_scratch0)) (col : Nat) (h : col < 512) :
    wordAt (View.write (Elt F) (sI : Memref sig .scVector .vmem S512 .i32).view fs
        (ReadAs.same.apply (View.read (Elt F) (cSl L).view (m (cLoc d)))) Finset.univ) col
      = m (cLoc d) (ValueIdx.ix1 (n := 16384) ⟨colOff L + col, by have := colOff_le L; omega⟩) := by
  have hwr : View.write (Elt F) (sI : Memref sig .scVector .vmem S512 .i32).view fs
      (ReadAs.same.apply (View.read (Elt F) (cSl L).view (m (cLoc d)))) Finset.univ
        = View.read (Elt F) (cSl L).view (m (cLoc d)) :=
    View.write_whole_univ (cc0_scratch0 : Ref sig .scVector) fs _
  rw [hwr]
  unfold wordAt
  rw [dif_pos h]
  show m (cLoc d) ((Rect.unit (s := S16384) (k0_off1 L) S512.size (k0_off1_inb L)).emb (ValueIdx.ix1 (n := 512) ⟨col, h⟩)) = _
  refine congrArg (m (cLoc d)) (funext fun a => ?_)
  match a with
  | ⟨0, _⟩ =>
    refine Fin.ext ?_
    show k0_off1 L 0 + 1 * col = colOff L + col
    rw [k0_off1_eq]
    show 1024 * (L 1).val + 512 * (L 0).val + 1 * col = colOff L + col
    unfold colOff
    omega

end Cert.Proof.KB

end
-- ==== Proof.MainTripB.lean ====
import proofs.«200183_g76879914599096_cont_sun_c4_587_30_alg».proof.Proof.TripLemmasB
import proofs.«200183_g76879914599096_cont_sun_c4_587_30_alg».proof.Proof.PayFormsB
import proofs.«200183_g76879914599096_cont_sun_c4_587_30_alg».proof.Proof.ScanStepsB
import proofs.«200183_g76879914599096_cont_sun_c4_587_30_alg».proof.Proof.ScanTrips2B
import proofs.«200183_g76879914599096_cont_sun_c4_587_30_alg».proof.Proof.ChunksB
import proofs.«200183_g76879914599096_cont_sun_c4_587_30_alg».proof.Proof.LandingB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  One trip of the main loop. Entering trip k5, chunk 2 k5 is in flight from buffer 0 and chunk 2 k5 + 1 from buffer 1;
  rows 0 … 80 k5 of the tile's band hold the transposed one-hot array already, rows from 80 k5 + 80 on are untouched.
  The trip waits for buffer 0's transfer, scans it for chunk 2 k5 + 2 and sends it, then the same for buffer 1 and
  chunk 2 k5 + 3.
-/

variable (m : (ℓ : Loc nD τ sig) → Buf (Elt F) ℓ)
variable [FloatOps F]
variable (d : Dev nD) (L : grid0.Coords)

/-- The tile's band of the transposed one-hot array. -/
abbrev GG : Buf (Elt F) (oLoc d) := Cert.Spec.oneHotT (F := F) (m (cLoc d))

/-- Chunk `q` in flight from buffer 0: when it lands, rows 40 q … 40 q + 40 of the band hold the one-hot array and
    the buffer is back, holding the chunk's block. -/
def FlA (W : Nat → BitVec 32) (q : Nat) : sProp 𝕄 :=
  Transfers.Flight (countersEmb (U := UU)) (thr d L) (SemLoc.dma cc0_scratch3.sem) (default : HIx 1) 655360
    iprop((oLoc d ↦[rowsSet L (40 * q) 40]{fullShare} GG m d)
      ∗ ((b0 : Memref sig .scVector .vmem S40x512 .f32).view.loc (thr d L) ↦[(b0 : Memref sig .scVector .vmem S40x512 .f32).view.set]{fullShare} chunkOf (F := F) W (cLo q) (cHi q)))
/-- The same from buffer 1. -/
def FlB (W : Nat → BitVec 32) (q : Nat) : sProp 𝕄 :=
  Transfers.Flight (countersEmb (U := UU)) (thr d L) (SemLoc.dma cc0_scratch4.sem) (default : HIx 1) 655360
    iprop((oLoc d ↦[rowsSet L (40 * q) 40]{fullShare} GG m d)
      ∗ ((b1 : Memref sig .scVector .vmem S40x512 .f32).view.loc (thr d L) ↦[(b1 : Memref sig .scVector .vmem S40x512 .f32).view.set]{fullShare} chunkOf (F := F) W (cLo q) (cHi q)))

/-- The main loop's invariant before trip `k5`. -/
def inv5 (O : CellTallies nD τ sig (HIx 1)) (W : Waits sig (HIx 1)) (ixc : Buf (Elt F) ((thr d L).loc cc0_scratch0)) (fo : Buf (Elt F) (oLoc d))
    (k5 : Nat) (_ : BitVec 32) : sProp 𝕄 :=
  iprop(levAts (K (F := F)).L (K (F := F)).lev
    ∗ ((sI : Memref sig .scVector .vmem S512 .i32).view.loc (thr d L) ↦{fullShare} ixc)
    ∗ FlA m d L (wordAt ixc) (2 * k5) ∗ FlB m d L (wordAt ixc) (2 * k5 + 1)
    ∗ (oLoc d ↦[rowsSet L 0 (80 * k5)]{fullShare} GG m d)
    ∗ (oLoc d ↦[rowsSet L (80 * k5 + 80) (920 - 80 * k5)]{fullShare} fo)
    ∗ ∃ W', ⌜∀ p ∈ W', p ∈ W ∨ p.2 = none⌝ ∗ owes (thr d L) O W')

omit [FloatOps F] in
theorem b0_own (f : Buf (Elt F) ((thr d L).loc cc0_scratch1)) :
    ((b0 : Memref sig .scVector .vmem S40x512 .f32).view.loc (thr d L) ↦[(b0 : Memref sig .scVector .vmem S40x512 .f32).view.set]{fullShare} f : sProp 𝕄)
      = (b0 : Memref sig .scVector .vmem S40x512 .f32).view.loc (thr d L) ↦{fullShare} f := by
  rw [show (b0 : Memref sig .scVector .vmem S40x512 .f32).view.set = Finset.univ from View.set_whole (cc0_scratch1 : Ref sig .scVector)]
omit [FloatOps F] in
theorem b1_own (f : Buf (Elt F) ((thr d L).loc cc0_scratch2)) :
    ((b1 : Memref sig .scVector .vmem S40x512 .f32).view.loc (thr d L) ↦[(b1 : Memref sig .scVector .vmem S40x512 .f32).view.set]{fullShare} f : sProp 𝕄)
      = (b1 : Memref sig .scVector .vmem S40x512 .f32).view.loc (thr d L) ↦{fullShare} f := by
  rw [show (b1 : Memref sig .scVector .vmem S40x512 .f32).view.set = Finset.univ from View.set_whole (cc0_scratch2 : Ref sig .scVector)]

/-- The destination of the main loop's transfer `r` of trip `k5`. -/
abbrev sl70 (k5 : Fin k0_t5_loop.trips) (r : Fin 2) : Memref sig .scVector .hbm S40x512 .f32 :=
  (oV : Memref sig .scVector .hbm S1000x16384 .f32).slice (Rect.unit (s := S1000x16384) (k0_off70 L k5 (BitVec.ofNat 32 r.val)) S40x512.size (k0_off70_inb L k5 r)) (fun _ => rfl)

omit [FloatOps F] in
theorem pts_off70 (k5 : Fin k0_t5_loop.trips) (r : Fin 2) (f : Buf (Elt F) (oLoc d)) :
    ((sl70 L k5 r).view.loc (thr d L) ↦[(sl70 L k5 r).view.set]{fullShare} f : sProp 𝕄)
      = oLoc d ↦[rowsSet L (80 * k5.val + 40 * r.val + 80) 40]{fullShare} f := by
  rw [view_off70]

omit [FloatOps F] in
/-- A range of rows of the band splits at any row. -/
theorem rows_split' (a n n1 n2 a' : Nat) (hn : n = n1 + n2) (ha : a' = a + n1) (f : Buf (Elt F) (oLoc d)) :
    (oLoc d ↦[rowsSet L a n]{fullShare} f : sProp 𝕄) = iprop((oLoc d ↦[rowsSet L a n1]{fullShare} f) ∗ oLoc d ↦[rowsSet L a' n2]{fullShare} f) := by
  subst hn ha; exact rows_split d L a n1 n2 f

theorem t5_trip (O : CellTallies nD τ sig (HIx 1)) (W : Waits sig (HIx 1)) (hO : ∀ g, O g none = 0)
    (ixc : Buf (Elt F) ((thr d L).loc cc0_scratch0)) (fo : Buf (Elt F) (oLoc d))
    (hW : ∀ col (h : col < 512), wordAt ixc col = m (cLoc d) (ValueIdx.ix1 (n := 16384) ⟨colOff L + col, by have := colOff_le L; omega⟩))
    (k5 : Fin k0_t5_loop.trips) (acc : BitVec 32) :
    inv5 m d L O W ixc fo k5 acc ⊢ wp frame (wpE (defs₀ (F := F)) 𝒱₀ (thr d L) none) Set.univ
      (k0_t5_body L cV (Memref.isWhole_whole _) oV (Memref.isWhole_whole _) sI (Memref.isWhole_whole _) b0 (Memref.isWhole_whole _)
        b1 (Memref.isWhole_whole _) cc0_scratch3 cc0_scratch4 cc0_scoped0 (k0_pay16 (F := F)) (k0_pay17 (F := F))
        (iota .scVector S16 32 [0] iota_S16_d0_w32_scVector) 0#32 k5 acc) (inv5 m d L O W ixc fo (k5 + 1)) := by
  have hk5 : k5.val < 11 := lt_of_lt_of_eq k5.isLt trips_t5
  unfold inv5 k0_t5_body FlA FlB
  iintro ⟨#Hlv, Hs, HFA, HFB, Hdone, Htodo, %W', %hW', HO⟩
  simp only [Prog.lift, Prog.bind_op, Prog.bind_ret, Prog.pure_eq_ret]
  -- buffer 0's transfer has landed
  iapply (Transfers.wp_waitLocalO (countersEmb (U := UU)) 𝒱₀ (thr d L) none (default : HIx 1) (N := 655360) rfl) $$ [HFA HO]
  · isplitl [HFA]; · iexact HFA
    isplitl [HO]; · iexact HO
    iapply ((K (F := F)).mayWait_none (SemLoc.dma cc0_scratch3.sem) hO); iexact Hlv
  iintro ⟨⟨HdA, HsA⟩, HsemA, HO⟩
  ihave Hb0 := (Entails.of_eq (b0_own (F := F) d L _)) $$ HsA
  sl_for (inv6 d L ixc (chunkOf (F := F) (wordAt ixc) (cLo (2 * k5.val)) (cHi (2 * k5.val))) k5) $$ [Hs Hb0]
  case region =>
    intro k acc6
    exact t6_trip d L ixc _ k5 k acc6
  · unfold inv6; rw [scanTo_zero]
    isplitl [Hs]; · iexact Hs
    iexact Hb0
  iintro %acc6 HI
  unfold inv6
  icases HI with ⟨Hs, Hb0⟩
  rw [show Scf.trips k0_t6_loop.lb k0_t6_loop.ub k0_t6_loop.st = 32 from trips_t6, scanTo_full]
  -- the rows of chunks 2 k5 + 2 and 2 k5 + 3, out of the untouched rows
  ihave Ht := (Entails.of_eq (rows_split' (F := F) d L (80 * k5.val + 80) (920 - 80 * k5.val) 40 (880 - 80 * k5.val) (80 * k5.val + 120) (by omega) (by omega) fo)) $$ Htodo
  icases Ht with ⟨Hc2, Htodo⟩
  ihave Ht := (Entails.of_eq (rows_split' (F := F) d L (80 * k5.val + 120) (880 - 80 * k5.val) 40 (840 - 80 * k5.val) (80 * k5.val + 160) (by omega) (by omega) fo)) $$ Htodo
  icases Ht with ⟨Hc3, Htodo⟩
  ihave Hc2' := (Entails.of_eq (pts_off70 (F := F) d L k5 0 fo).symm) $$ Hc2
  ihave Hc3' := (Entails.of_eq (pts_off70 (F := F) d L k5 1 fo).symm) $$ Hc3
  sl_exec
  iclear Hb0
  -- the new flight of buffer 0, read as chunk 2 k5 + 2 landing on its rows
  delta t5_trip.sl.dma0
  ihave HFA := (Transfers.Flight_mono (countersEmb (U := UU)) (thr d L) (sep_mono (Entails.of_eq
      (landed_chunk (F := F) m d L (2 * k5.val + 2) (by omega) (k0_off70 L k5 (BitVec.ofNat 32 ((0 : Fin 2)).val)) (k0_off70_inb L k5 0)
        (by rw [k0_off70_eq]; show 80 * k5.val + 40 * 0 + 80 = _; omega)
        (by rw [k0_off70_eq]; rfl) fo (wordAt ixc) hW)) .rfl)) $$ HsemA
  -- buffer 1's transfer has landed
  iapply (Transfers.wp_waitLocalO (countersEmb (U := UU)) 𝒱₀ (thr d L) none (default : HIx 1) (N := 655360) rfl) $$ [HFB HO]
  · isplitl [HFB]; · iexact HFB
    isplitl [HO]; · iexact HO
    iapply ((K (F := F)).mayWait_none (SemLoc.dma cc0_scratch4.sem) hO); iexact Hlv
  iintro ⟨⟨HdB, HsB⟩, HsemB, HO⟩
  ihave Hb1 := (Entails.of_eq (b1_own (F := F) d L _)) $$ HsB
  sl_for (inv7 d L ixc (chunkOf (F := F) (wordAt ixc) (cLo (2 * k5.val + 1)) (cHi (2 * k5.val + 1))) k5) $$ [Hs Hb1]
  case region =>
    intro k acc7
    exact t7_trip d L ixc _ k5 k acc7
  · unfold inv7; rw [scanTo_zero]
    isplitl [Hs]; · iexact Hs
    iexact Hb1
  iintro %acc7 HI
  unfold inv7
  icases HI with ⟨Hs, Hb1⟩
  rw [show Scf.trips k0_t7_loop.lb k0_t7_loop.ub k0_t7_loop.st = 32 from trips_t7, scanTo_full]
  sl_exec
  iclear Hb1
  delta t5_trip.sl.dma0_1
  ihave HFB := (Transfers.Flight_mono (countersEmb (U := UU)) (thr d L) (sep_mono (Entails.of_eq
      (landed_chunk1 (F := F) m d L (2 * k5.val + 3) (by omega) (k0_off70 L k5 (BitVec.ofNat 32 ((1 : Fin 2)).val)) (k0_off70_inb L k5 1)
        (by rw [k0_off70_eq]; show 80 * k5.val + 40 * 1 + 80 = _; omega)
        (by rw [k0_off70_eq]; rfl) fo (wordAt ixc) hW)) .rfl)) $$ HsemB
  -- the rows done so far: the old ones and the two chunks that landed
  ihave Hd1 := (Entails.of_eq (rows_split' (F := F) d L 0 (80 * k5.val + 40) (80 * k5.val) 40 (40 * (2 * k5.val)) (by omega) (by omega) (GG m d)).symm) $$ [Hdone HdA]
  · isplitl [Hdone]; · iexact Hdone
    iexact HdA
  ihave Hd2 := (Entails.of_eq (rows_split' (F := F) d L 0 (80 * k5.val + 80) (80 * k5.val + 40) 40 (40 * (2 * k5.val + 1)) (by omega) (by omega) (GG m d)).symm) $$ [Hd1 HdB]
  · isplitl [Hd1]; · iexact Hd1
    iexact HdB
  rw [wp_ret]; imodintro
  rw [show 2 * (k5.val + 1) = 2 * k5.val + 2 from by omega, show 80 * (k5.val + 1) = 80 * k5.val + 80 from by omega,
    show 920 - (80 * k5.val + 80) = 840 - 80 * k5.val from by omega]
  isplitr; · iexact Hlv
  isplitl [Hs]; · iexact Hs
  isplitl [HFA]; · iexact HFA
  isplitl [HFB]; · iexact HFB
  isplitl [Hd2]; · iexact Hd2
  isplitl [Htodo]; · iexact Htodo
  iexists (insert (SemLoc.dma cc0_scratch4.sem, (default : HIx 1)) (insert (SemLoc.dma cc0_scratch3.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KB

end
-- ==== Proof.BodyB.lean ====
import proofs.«200183_g76879914599096_cont_sun_c4_587_30_alg».proof.Proof.FillTripsB
import proofs.«200183_g76879914599096_cont_sun_c4_587_30_alg».proof.Proof.ScanTripsB
import proofs.«200183_g76879914599096_cont_sun_c4_587_30_alg».proof.Proof.MainTripB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-!
  One tile's whole task: the class words in, the first two chunks built and sent, the main loop, the last chunk,
  the last waits; at the end the tile's band holds the transposed one-hot array of the class indices.
-/

variable (m : (ℓ : Loc nD τ sig) → Buf (Elt F) ℓ)
variable [FloatOps F]
variable (d : Dev nD) (L : grid0.Coords)

abbrev semA : GSem nD τ sig := (thr d L, .dma cc0_scratch3.sem)
abbrev semB : GSem nD τ sig := (thr d L, .dma cc0_scratch4.sem)
abbrev semC : GSem nD τ sig := (thr d L, .dma cc0_scoped0.sem)

omit [FloatOps F] in
theorem ownSems0_V :
    (ownSems0 (thr d L) : sProp 𝕄)
      = iprop(semVal (semA d L) 0 ∗ semVal (semB d L) 0 ∗ semVal (semC d L) 0
          ∗ bigSep ((((ownCells (thr d L)).erase (semA d L)).erase (semB d L)).erase (semC d L))
              fun g => semVal g 0) := by
  unfold SparseCore.Cfg.ownSems0
  rw [SparseCore.bigSep_erase' ((mem_ownCells (g := semA d L)).mpr ⟨rfl, by
      show (SemLoc.dma cc0_scratch3.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch4.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scoped0.sem : SemLoc sig).isScoped .scVector = true; decide⟩⟩⟩)]

omit [FloatOps F] in
/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV' L) (jV' L))).erase ((Proc.scVector (cV' L) (jV' L)).devRef cc0_scratch0)).erase
              ((Proc.scVector (cV' L) (jV' L)).devRef cc0_scratch1)).erase ((Proc.scVector (cV' L) (jV' L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV' L) (jV' L))
    (b := (Proc.scVector (cV' L) (jV' L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV' L) (jV' L)) (b := (Proc.scVector (cV' L) (jV' L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV' L) (jV' L)) (b := (Proc.scVector (cV' L) (jV' L)).devRef cc0_scratch2) rfl⟩⟩)]

omit [FloatOps F] in
theorem pts_cSl (f : Buf (Elt F) (cLoc d)) :
    ((cSl L).view.loc (thr d L) ↦[(cSl L).view.set]{fullShare} f : sProp 𝕄) = cLoc d ↦[cSet L]{fullShare} f := by
  rw [cSet_eq]
omit [FloatOps F] in
theorem pts_sI (f : Buf (Elt F) ((thr d L).loc cc0_scratch0)) :
    ((sI : Memref sig .scVector .vmem S512 .i32).view.loc (thr d L) ↦{fullShare} f : sProp 𝕄) = (thr d L).loc cc0_scratch0 ↦{fullShare} f := rfl
omit [FloatOps F] in
theorem pts_b0 (f : Buf (Elt F) ((thr d L).loc cc0_scratch1)) :
    ((b0 : Memref sig .scVector .vmem S40x512 .f32).view.loc (thr d L) ↦{fullShare} f : sProp 𝕄) = (thr d L).loc cc0_scratch1 ↦{fullShare} f := rfl
omit [FloatOps F] in
theorem pts_b1 (f : Buf (Elt F) ((thr d L).loc cc0_scratch2)) :
    ((b1 : Memref sig .scVector .vmem S40x512 .f32).view.loc (thr d L) ↦{fullShare} f : sProp 𝕄) = (thr d L).loc cc0_scratch2 ↦{fullShare} f := rfl

abbrev sl35 : Memref sig .scVector .hbm S40x512 .f32 :=
  (oV : Memref sig .scVector .hbm S1000x16384 .f32).slice (Rect.unit (s := S1000x16384) (k0_off35 L) S40x512.size (k0_off35_inb L)) (fun _ => rfl)
abbrev sl69 : Memref sig .scVector .hbm S40x512 .f32 :=
  (oV : Memref sig .scVector .hbm S1000x16384 .f32).slice (Rect.unit (s := S1000x16384) (k0_off69 L) S40x512.size (k0_off69_inb L)) (fun _ => rfl)
abbrev sl73 : Memref sig .scVector .hbm S40x512 .f32 :=
  (oV : Memref sig .scVector .hbm S1000x16384 .f32).slice (Rect.unit (s := S1000x16384) (k0_off73 L) S40x512.size (k0_off73_inb L)) (fun _ => rfl)

omit [FloatOps F] in
theorem pts_off35 (f : Buf (Elt F) (oLoc d)) :
    ((sl35 L).view.loc (thr d L) ↦[(sl35 L).view.set]{fullShare} f : sProp 𝕄) = oLoc d ↦[rowsSet L 0 40]{fullShare} f := by rw [view_off35]
omit [FloatOps F] in
theorem pts_off69 (f : Buf (Elt F) (oLoc d)) :
    ((sl69 L).view.loc (thr d L) ↦[(sl69 L).view.set]{fullShare} f : sProp 𝕄) = oLoc d ↦[rowsSet L 40 40]{fullShare} f := by rw [view_off69]
omit [FloatOps F] in
theorem pts_off73 (f : Buf (Elt F) (oLoc d)) :
    ((sl73 L).view.loc (thr d L) ↦[(sl73 L).view.set]{fullShare} f : sProp 𝕄) = oLoc d ↦[rowsSet L 960 40]{fullShare} f := by rw [view_off73]

omit [FloatOps F] in
/-- The band: the rows of chunk 0, of chunk 1, and the rest. -/
theorem out_split0 (f : Buf (Elt F) (oLoc d)) :
    (oLoc d ↦[oBand L]{fullShare} f : sProp 𝕄)
      = iprop((oLoc d ↦[rowsSet L 0 40]{fullShare} f) ∗ (oLoc d ↦[rowsSet L 40 40]{fullShare} f) ∗ oLoc d ↦[rowsSet L 80 920]{fullShare} f) := by
  rw [oBand_eq, rows_split' (F := F) d L 0 1000 40 960 40 rfl rfl f, rows_split' (F := F) d L 40 960 40 920 80 rfl rfl f]

omit [FloatOps F] in
theorem rowsSet_zero (a : Nat) : rowsSet L a 0 = ∅ := by
  ext i; simp only [mem_rowsSet, Finset.notMem_empty, iff_false]; omega

/-- The tile's class words, as its index scratch holds them once the first copy has landed. -/
abbrev IX (fs : Buf (Elt F) ((thr d L).loc cc0_scratch0)) : Buf (Elt F) ((thr d L).loc cc0_scratch0) :=
  View.write (Elt F) (sI : Memref sig .scVector .vmem S512 .i32).view fs (ReadAs.same.apply (View.read (Elt F) (cSl L).view (m (cLoc d)))) Finset.univ

/-- The task of tile `L` on device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goA m d L ∗ scopedBufs (thr d L) ∗ scopedSems0 (thr d L) ∗ owes (thr d L) O W)
      ⊢ wp frame (wpE (defs₀ (F := F)) 𝒱₀ (thr d L) none) Set.univ
          (cc0__onehot_t_body L cV (Memref.isWhole_whole _) oV (Memref.isWhole_whole _) sI (Memref.isWhole_whole _) b0 (Memref.isWhole_whole _)
            b1 (Memref.isWhole_whole _) cc0_scratch3 cc0_scratch4 cc0_scoped0)
          fun _ => iprop(tdA m d L ∗ scopedBufs (thr d L) ∗ scopedSems0 (thr d L) ∗ ∃ W', ⌜∀ p ∈ W', p ∈ W ∨ p.2 = none⌝ ∗ owes (thr d L) O W') := by
  simp only [cc0__onehot_t_body_eq_skeleton]; unfold cc0__onehot_t_body_skel
  simp only [k0_part5_eq_skeleton]; unfold k0_part5_skel
  simp only [bind_assoc, pure_bind]
  rw [(K (F := F)).scopedBufs_V hF d (cV' L) (jV' L), SparseCore.Cfg.scopedSems0_V (Val := Elt F) d (cV' L) (jV' L), ownSems0_V, ownBufs_V]
  unfold goA
  iintro ⟨#Hlv, -, ⟨Hc, %fo, Hout⟩, ⟨⟨%fs, Hs⟩, ⟨%f0, Hb0⟩, ⟨%f1, Hb1⟩, Hbufs⟩, ⟨HsemA, HsemB, HsemC, Hsems⟩, HO⟩
  ihave Hmw := ((K (F := F)).mayWaits_none (thr := thr d L) hO) $$ Hlv
  ihave Hc' := (Entails.of_eq (pts_cSl (F := F) d L _).symm) $$ Hc
  ihave Hs' := (Entails.of_eq (pts_sI (F := F) d L _).symm) $$ Hs
  ihave Hb0' := (Entails.of_eq (pts_b0 (F := F) d L _).symm) $$ Hb0
  ihave Hb1' := (Entails.of_eq (pts_b1 (F := F) d L _).symm) $$ Hb1
  ihave Ho := (Entails.of_eq (out_split0 (F := F) d L fo)) $$ Hout
  icases Ho with ⟨Ho0, Ho1, Htodo⟩
  ihave Ho0' := (Entails.of_eq (pts_off35 (F := F) d L fo).symm) $$ Ho0
  ihave Ho1' := (Entails.of_eq (pts_off69 (F := F) d L fo).symm) $$ Ho1
  -- the class words in
  sl_exec
  delta tile_body.sl.dma0
  ihave Hc := (Entails.of_eq (pts_cSl (F := F) d L _)) $$ Hc'
  -- buffer 0: zeros, chunk 0, sent
  sl_for (inv1 d L f0) $$ [Hb0']
  case region =>
    intro k acc
    exact t1_trip d L f0 k acc
  · unfold inv1; rw [zfill_zero]; iexact Hb0'
  iintro %a1 HI
  unfold inv1
  rw [show Scf.trips k0_t1_loop.lb k0_t1_loop.ub k0_t1_loop.st = 40 from trips_t1, zfill_full]
  sl_for (inv2 d L (IX m d L fs) ((fun _ => (zF : F .f32)) : S40x512.Idx → Elt F .f32)) $$ [Hs' HI]
  case region =>
    intro k acc
    exact t2_trip d L (IX m d L fs) _ k acc
  · unfold inv2; rw [scanTo1_zero]
    isplitl [Hs']; · iexact Hs'
    iexact HI
  iintro %a2 HI
  unfold inv2
  icases HI with ⟨Hs', Hb0'⟩
  rw [show Scf.trips k0_t2_loop.lb k0_t2_loop.ub k0_t2_loop.st = 32 from trips_t2, scanTo1_full,
    show chunkOf (F := F) (wordAt (IX m d L fs)) 0#32 40#32 = chunkOf (wordAt (IX m d L fs)) (cLo 0) (cHi 0) from rfl]
  sl_exec
  iclear Hb0'
  -- chunk 0 in flight from buffer 0
  delta tile_body.sl.dma0_1
  ihave HFA := (Transfers.Flight_mono (countersEmb (U := UU)) (thr d L) (sep_mono (Entails.of_eq
      (landed_chunk (F := F) m d L 0 (by omega) (k0_off35 L) (k0_off35_inb L) (by rw [k0_off35_eq]; rfl) (by rw [k0_off35_eq]; rfl) fo (wordAt (IX m d L fs)) (words_landed (F := F) m d L fs))) .rfl)) $$ HsemA
  -- buffer 1: zeros, chunk 1, sent
  sl_for (inv3 d L f1) $$ [Hb1']
  case region =>
    intro k acc
    exact t3_trip d L f1 k acc
  · unfold inv3; rw [zfill_zero]; iexact Hb1'
  iintro %a3 HI
  unfold inv3
  rw [show Scf.trips k0_t3_loop.lb k0_t3_loop.ub k0_t3_loop.st = 40 from trips_t3, zfill_full]
  sl_for (inv4 d L (IX m d L fs) ((fun _ => (zF : F .f32)) : S40x512.Idx → Elt F .f32)) $$ [Hs' HI]
  case region =>
    intro k acc
    exact t4_trip d L (IX m d L fs) _ k acc
  · unfold inv4; rw [scanTo1_zero]
    isplitl [Hs']; · iexact Hs'
    iexact HI
  iintro %a4 HI
  unfold inv4
  icases HI with ⟨Hs', Hb1'⟩
  rw [show Scf.trips k0_t4_loop.lb k0_t4_loop.ub k0_t4_loop.st = 32 from trips_t4, scanTo1_full,
    show chunkOf (F := F) (wordAt (IX m d L fs)) 40#32 80#32 = chunkOf (wordAt (IX m d L fs)) (cLo 1) (cHi 1) from rfl]
  sl_exec
  iclear Hb1'
  delta tile_body.sl.dma0_2
  ihave HFB := (Transfers.Flight_mono (countersEmb (U := UU)) (thr d L) (sep_mono (Entails.of_eq
      (landed_chunk1 (F := F) m d L 1 (by omega) (k0_off69 L) (k0_off69_inb L) (by rw [k0_off69_eq]; rfl) (by rw [k0_off69_eq]; rfl) fo (wordAt (IX m d L fs)) (words_landed (F := F) m d L fs))) .rfl)) $$ HsemB
  -- the main loop
  sl_for (inv5 m d L O (insert (SemLoc.dma cc0_scoped0.sem, (default : HIx 1)) W) (IX m d L fs) fo) $$ [Hlv Hs' HFA HFB Htodo HO]
  case region =>
    intro k acc
    exact t5_trip m d L O _ hO (IX m d L fs) fo (words_landed (F := F) m d L fs) k acc
  · unfold inv5 FlA FlB
    isplitr; · iexact Hlv
    isplitl [Hs']; · iexact Hs'
    isplitl [HFA]; · iexact HFA
    isplitl [HFB]; · iexact HFB
    isplitr
    · rw [show 80 * 0 = 0 from rfl, rowsSet_zero, pointsTo_empty]; iempintro
    isplitl [Htodo]; · iexact Htodo
    iexists _; isplitr
    · ipureintro; exact fun p hp => .inl hp
    · iexact HO
  iintro %a5 HI
  unfold inv5 FlA FlB
  rw [show Scf.trips k0_t5_loop.lb k0_t5_loop.ub k0_t5_loop.st = 11 from trips_t5]
  icases HI with ⟨-, Hs', HFA, HFB, Hdone, Htodo, %W', %hW', HO⟩
  simp only [Prog.lift, Prog.bind_op, Prog.bind_ret, Prog.pure_eq_ret]
  -- chunk 22 has landed; buffer 0 takes chunk 24
  iapply (Transfers.wp_waitLocalO (countersEmb (U := UU)) 𝒱₀ (thr d L) none (default : HIx 1) (N := 655360) rfl) $$ [HFA HO]
  · isplitl [HFA]; · iexact HFA
    isplitl [HO]; · iexact HO
    iapply ((K (F := F)).mayWait_none (SemLoc.dma cc0_scratch3.sem) hO); iexact Hlv
  iintro ⟨⟨HdA, HsA⟩, HsemA, HO⟩
  simp only [Prog.bind, Prog.lift, Prog.bind_op, Prog.bind_ret, Prog.pure_eq_ret]
  ihave Hb0 := (Entails.of_eq (b0_own (F := F) d L _)) $$ HsA
  sl_for (inv8 d L (IX m d L fs) (chunkOf (F := F) (wordAt (IX m d L fs)) (cLo 22) (cHi 22))) $$ [Hs' Hb0]
  case region =>
    intro k acc
    exact t8_trip d L (IX m d L fs) _ k acc
  · unfold inv8; rw [scanTo_zero]
    isplitl [Hs']; · iexact Hs'
    iexact Hb0
  iintro %a8 HI
  unfold inv8
  icases HI with ⟨Hs', Hb0⟩
  rw [show Scf.trips k0_t8_loop.lb k0_t8_loop.ub k0_t8_loop.st = 32 from trips_t8, scanTo_full]
  ihave Ho24 := (Entails.of_eq (pts_off73 (F := F) d L fo).symm) $$ Htodo
  sl_exec
  -- the last three waits are over: chunk 23 and chunk 24 have landed
  delta tile_body.sl.dma0_3
  ihave Hd24 := (Entails.of_eq
      (landed_chunk (F := F) m d L 24 (by omega) (k0_off73 L) (k0_off73_inb L) (by rw [k0_off73_eq]; rfl) (by rw [k0_off73_eq]; rfl) fo
        (wordAt (IX m d L fs)) (words_landed (F := F) m d L fs))) $$ Ho24
  rw [wp_ret]; imodintro
  -- the band, whole
  ihave Hd1 := (Entails.of_eq (rows_split' (F := F) d L 0 920 (80 * 11) 40 (40 * (2 * 11)) (by omega) (by omega) (GG m d)).symm) $$ [Hdone HdA]
  · isplitl [Hdone]; · iexact Hdone
    iexact HdA
  ihave Hd2 := (Entails.of_eq (rows_split' (F := F) d L 0 960 920 40 (40 * (2 * 11 + 1)) (by omega) (by omega) (GG m d)).symm) $$ [Hd1 HFB_dst]
  · isplitl [Hd1]; · iexact Hd1
    iexact HFB_dst
  ihave Hd3 := (Entails.of_eq (rows_split' (F := F) d L 0 1000 960 40 (40 * 24) (by omega) (by omega) (GG m d)).symm) $$ [Hd2 Hd24]
  · isplitl [Hd2]; · iexact Hd2
    iexact Hd24
  ihave Hb1 := (Entails.of_eq (b1_own (F := F) d L _)) $$ HFB_src
  unfold tdA
  isplitl [Hc Hd3]
  · isplitl [Hc]; · iexact Hc
    rw [oBand_eq]; iexact Hd3
  isplitl [Hs' Hb0 Hb1 Hbufs]
  · isplitl [Hs']; · iexists _; iexact Hs'
    isplitl [Hb0]; · iexists _; iexact Hb0
    isplitl [Hb1]; · iexists _; iexact Hb1
    iexact Hbufs
  isplitl [HsemA HFB HsemC Hsems]
  · isplitl [HsemA]; · iexact HsemA
    isplitl [HFB]; · iexact HFB
    isplitl [HsemC]; · iexact HsemC
    iexact Hsems
  iexists (insert (SemLoc.dma cc0_scratch3.sem, (default : HIx 1)) (insert (SemLoc.dma cc0_scratch4.sem, (default : HIx 1))
    (insert (SemLoc.dma cc0_scratch3.sem, (default : HIx 1)) W'))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases hW' p hp with h1 | h1
    · rcases Finset.mem_insert.mp h1 with h2 | h2
      · exact .inr (h2 ▸ rfl)
      · exact .inl h2
    · exact .inr h1
  · iexact HO

end Cert.Proof.KB

end
-- ==== Proof.lean ====
/-
  The claim for the one-hot kernel. The kernel runs on 32 tiles; tile w owns 512 class words of `c` and the 512
  matching columns of the transposed one-hot array out[r, col] = (c[col] = r ? 1 : 0), which it builds 40 rows (a
  chunk of classes) at a time in two buffers — a buffer is zero-filled once, then each scan clears the ones of the
  chunk it held two chunks ago and sets the ones of the new chunk, one masked store per sixteen columns — and copies
  chunk by chunk into its band while the other buffer is scanned. A landed chunk is the one-hot array on its rows
  because a class word `w` with lo ≤ w < lo + 40 (signed) and w − lo = r is exactly the word lo + r. The program's
  result is the transpose of out; the reference's `one_hot(c) · 1` read at an index is the same function of `c`
  (1 · x = x on the extended reals for x ∈ {0, 1}). Every tile's transfers are its own, so no schedule is needed:
  the frames are the run with its values dropped, for the word-level program and for its idealization alike; the
  ideal pass rewrote nothing, so `preserves` is trivial.
-/
import proofs.«200183_g76879914599096_cont_sun_c4_587_30_alg».proof.Proof.Assemble
import proofs.«200183_g76879914599096_cont_sun_c4_587_30_alg».proof.Proof.Body
import proofs.«200183_g76879914599096_cont_sun_c4_587_30_alg».proof.Proof.BodyB

noncomputable section

namespace Cert.Proof

/-- Both programs' tile bodies (one proof, read at the two instances), handed to the assembly of the five claims. -/
theorem claim : Cert.Claim :=
  claim_of (fun m d L O W hO => KI.tile_body m d L KI.facts O W hO) (fun m d L O W hO => KB.tile_body m d L KB.facts O W hO)

end Cert.Proof

end
